-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192 : Shape := ⟨1, ![8192]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  reducesTo_S_S_d : S_.ReducesTo [] S_

variable [Facts]

def fn {F : FTy → Type} [FloatOps F] (main_arg0 : FVec F S8192x128 .f32) (main_arg1 : IVec S8192 32) (main_arg2 : FVec F S_ .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S_ .f32 := Host.absf main_arg2
  let main_cst_0 : FVec F S_ .f32 := constant S_ .f32 0x7F800000#32
  let main_v5 : IVec S_ 1 := cmpf .olt main_v4 main_cst_0
  let main_c_1 : IVec S_ 1 := constantI S_ 1 1#1
  let main_v6 : IVec S_ 1 := (fun x v => Host.reduce IntOp.andi x v reducesTo_S_S_d h_S_) main_v5 main_c_1
  let main_v7 : IVec S_ 1 := andi main_v3 main_v6
  main_v7
-- ==== Kernel.lean ====
abbrev S8192x128 : Shape := ⟨2, ![8192, 128]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S1024x128 : Shape := ⟨2, ![1024, 128]⟩
abbrev S512x128 : Shape := ⟨2, ![512, 128]⟩
abbrev S1024x1 : Shape := ⟨2, ![1024, 1]⟩
abbrev S1x512 : Shape := ⟨2, ![1, 512]⟩
abbrev S1024 : Shape := ⟨1, ![1024]⟩
abbrev S512 : Shape := ⟨1, ![512]⟩
abbrev S512x1 : Shape := ⟨2, ![512, 1]⟩
abbrev S128x512 : Shape := ⟨2, ![128, 512]⟩
abbrev S1024x512 : Shape := ⟨2, ![1024, 512]⟩

abbrev nBuf : Space → Nat
  | .hbm => 19
  | .vmem => 14
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S_, .f32⟩
  | .hbm, ⟨3, _⟩ => ⟨S8192x1, .i32⟩
  | .hbm, ⟨4, _⟩ => ⟨S1x8192, .i32⟩
  | .hbm, ⟨5, _⟩ => ⟨S8192x1, .f32⟩
  | .hbm, ⟨6, _⟩ => ⟨S8192x1, .f32⟩
  | .hbm, ⟨7, _⟩ => ⟨S8192, .f32⟩
  | .hbm, ⟨8, _⟩ => ⟨S8192, .f32⟩
  | .hbm, ⟨9, _⟩ => ⟨S8192, .f32⟩
  | .hbm, ⟨10, _⟩ => ⟨S8192, .f32⟩
  | .hbm, ⟨11, _⟩ => ⟨S8192, .f32⟩
  | .hbm, ⟨12, _⟩ => ⟨S_, .f32⟩
  | .hbm, ⟨13, _⟩ => ⟨S8192, .f32⟩
  | .hbm, ⟨14, _⟩ => ⟨S8192, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .local _ .vmem, ⟨0, _⟩ => ⟨S1024x128, .f32⟩
  | .local _ .vmem, ⟨1, _⟩ => ⟨S1024x128, .f32⟩
  | .local _ .vmem, ⟨2, _⟩ => ⟨S512x128, .f32⟩
  | .local _ .vmem, ⟨3, _⟩ => ⟨S512x128, .f32⟩
  | .local _ .vmem, ⟨4, _⟩ => ⟨S1024x1, .i32⟩
  | .local _ .vmem, ⟨5, _⟩ => ⟨S1024x1, .i32⟩
  | .local _ .vmem, ⟨6, _⟩ => ⟨S1x512, .i32⟩
  | .local _ .vmem, ⟨7, _⟩ => ⟨S1x512, .i32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S1024x1, .f32⟩
  | .local _ .vmem, ⟨12, _⟩ => ⟨S1024x1, .f32⟩
  | .local _ .vmem, ⟨13, _⟩ => ⟨S1024x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_call0_cst : Ref sig .tc := ⟨.hbm, 12, rfl⟩
abbrev main_call0_v0 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v69 : BitVec 1 := Scalar.cmpi .eq arg1 c15_i32
  let v70 : BitVec 32 := Scalar.extui v69
  let c0_i32_29 : BitVec 32 := 0#32
  let v71 : BitVec 1 := Scalar.cmpi .ne v70 c0_i32_29
  v71

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S8192_S8192x1 : S8192.ShapeCasts S8192x1
  shapeCasts_S8192_S1x8192 : S8192.ShapeCasts S1x8192
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x128_S1024x128_0_0 : ∀ a, (![0, 0] : Fin 2 → Nat) a + S1024x128.size a ≤ S1024x128.size a
  h_S1024x128 : 0 < S1024x128.numel
  inb_S512x128_S512x128_0_0 : ∀ a, (![0, 0] : Fin 2 → Nat) a + S512x128.size a ≤ S512x128.size a
  h_S512x128 : 0 < S512x128.numel
  reduces_S1024x128_S1024 : S1024x128.Reduces [1] S1024
  shapeCasts_S1024_S1024x1 : S1024.ShapeCasts S1024x1
  reduces_S512x128_S512 : S512x128.Reduces [1] S512
  shapeCasts_S512_S512x1 : S512.ShapeCasts S512x1
  bitsLt_bf16_f32 : FTy.bits .bf16 < FTy.bits .f32
  transposes_S512x128_p1_0_S128x512 : S512x128.Transposes [1, 0] S128x512
  transposes_S512x1_p1_0_S1x512 : S512x1.Transposes [1, 0] S1x512
  broadcasts_S1024x1_S1024x512 : S1024x1.Broadcasts S1024x512
  broadcasts_S1x512_S1024x512 : S1x512.Broadcasts S1024x512
  iota_S1024x512_d0_w32 : S1024x512.Iotas .tc 32 [0]
  iota_S1024x512_d1_w32 : S1024x512.Iotas .tc 32 [1]
  inb_S1x512_S1x512_0_0 : ∀ a, (![0, 0] : Fin 2 → Nat) a + S1x512.size a ≤ S1x512.size a
  h_S1x512 : 0 < S1x512.numel
  shapeCasts_S1x512_S1x512 : S1x512.ShapeCasts S1x512
  reduces_S1024x512_S1024 : S1024x512.Reduces [1] S1024
  shapeCasts_S8192x1_S8192 : S8192x1.ShapeCasts S8192
  bcast_S_S8192 : S_.BroadcastsInDim S8192 (![] : Fin 0 → Fin S8192.rank)
  reducesTo_S8192_S_d0 : S8192.ReducesTo [0] S_
  h_S_ : 0 < S_.numel
  dot_S1024x128_S128x512_S1024x512_1_0_0_1_n_n_wf : DotDims.WF S1024x128 S128x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .f32 = 32 ∨ (Rect.block (s := S8192x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S8192x128.size a
  hwx0_1 : ∀ i : grid0.Coords, EltTy.bits .f32 = 32 ∨ (Rect.block (s := S8192x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .i32 = 32 ∨ (Rect.block (s := S8192x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x8192.size a
  hwx0_3 : ∀ i : grid0.Coords, EltTy.bits .i32 = 32 ∨ (Rect.block (s := S1x8192) S1x512.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .f32 = 32 ∨ (Rect.block (s := S8192x1) S1024x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S8192x1.size a
  hwx0_5 : ∀ i : grid0.Coords, EltTy.bits .f32 = 32 ∨ (Rect.block (s := S8192x1) S1024x1.size (cc0_transform_5 i) (hinb0_5 i)).WholeWords (EltTy.packing .f32)

variable [Facts₀]

def dot_S1024x128_S128x512_S1024x512_1_0_0_1_n_n : DotDims S1024x128 S128x512 S1024x512 where
  lhsContracting := [1]
  rhsContracting := [0]
  lhsNonContracting := [0]
  rhsNonContracting := [1]
  lhsBatch := []
  rhsBatch := []
  wf := dot_S1024x128_S128x512_S1024x512_1_0_0_1_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S1024x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S1024x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8192x128 : Shape := ⟨2, ![8192, 128]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S8192x8192 : Shape := ⟨2, ![8192, 8192]⟩
abbrev S128x8192 : Shape := ⟨2, ![128, 8192]⟩

abbrev nBuf : Space → Nat
  | .hbm => 71
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S_, .f32⟩
  | .hbm, ⟨3, _⟩ => ⟨S8192x128, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S1x8192, .f32⟩
  | .hbm, ⟨8, _⟩ => ⟨S8192x8192, .f32⟩
  | .hbm, ⟨9, _⟩ => ⟨S8192x8192, .f32⟩
  | .hbm, ⟨10, _⟩ => ⟨S8192x8192, .f32⟩
  | .hbm, ⟨11, _⟩ => ⟨S128x8192, .f32⟩
  | .hbm, ⟨12, _⟩ => ⟨S8192x8192, .f32⟩
  | .hbm, ⟨13, _⟩ => ⟨S_, .f32⟩
  | .hbm, ⟨14, _⟩ => ⟨S8192x8192, .f32⟩
  | .hbm, ⟨15, _⟩ => ⟨S8192x8192, .f32⟩
  | .hbm, ⟨16, _⟩ => ⟨S8192x8192, .f32⟩
  | .hbm, ⟨17, _⟩ => ⟨S_, .f32⟩
  | .hbm, ⟨18, _⟩ => ⟨S8192x8192, .f32⟩
  | .hbm, ⟨19, _⟩ => ⟨S8192x8192, .f32⟩
  | .hbm, ⟨20, _⟩ => ⟨S_, .f32⟩
  | .hbm, ⟨21, _⟩ => ⟨S8192x8192, .f32⟩
  | .hbm, ⟨22, _⟩ => ⟨S8192x8192, .i1⟩
  | .hbm, ⟨23, _⟩ => ⟨S_, .f32⟩
  | .hbm, ⟨24, _⟩ => ⟨S_, .f32⟩
  | .hbm, ⟨25, _⟩ => ⟨S8192x8192, .f32⟩
  | .hbm, ⟨26, _⟩ => ⟨S8192x8192, .f32⟩
  | .hbm, ⟨27, _⟩ => ⟨S8192x8192, .f32⟩
  | .hbm, ⟨28, _⟩ => ⟨S_, .f32⟩
  | .hbm, ⟨29, _⟩ => ⟨S_, .f32⟩
  | .hbm, ⟨30, _⟩ => ⟨S8192x8192, .f32⟩
  | .hbm, ⟨31, _⟩ => ⟨S8192x8192, .f32⟩
  | .hbm, ⟨32, _⟩ => ⟨S8192x1, .i32⟩
  | .hbm, ⟨33, _⟩ => ⟨S1x8192, .i32⟩
  | .hbm, ⟨34, _⟩ => ⟨S8192x8192, .i32⟩
  | .hbm, ⟨35, _⟩ => ⟨S8192x8192, .i32⟩
  | .hbm, ⟨36, _⟩ => ⟨S8192x8192, .i1⟩
  | .hbm, ⟨37, _⟩ => ⟨S8192x8192, .f32⟩
  | .hbm, ⟨38, _⟩ => ⟨S8192x8192, .i32⟩
  | .hbm, ⟨39, _⟩ => ⟨S8192x8192, .i32⟩
  | .hbm, ⟨40, _⟩ => ⟨S_, .i32⟩
  | .hbm, ⟨41, _⟩ => ⟨S8192x8192, .i32⟩
  | .hbm, ⟨42, _⟩ => ⟨S8192x8192, .i32⟩
  | .hbm, ⟨43, _⟩ => ⟨S8192x8192, .i1⟩
  | .hbm, ⟨44, _⟩ => ⟨S8192x8192, .f32⟩
  | .hbm, ⟨45, _⟩ => ⟨S8192x8192, .f32⟩
  | .hbm, ⟨46, _⟩ => ⟨S_, .f32⟩
  | .hbm, ⟨47, _⟩ => ⟨S8192x8192, .f32⟩
  | .hbm, ⟨48, _⟩ => ⟨S8192x8192, .f32⟩
  | .hbm, ⟨49, _⟩ => ⟨S8192x8192, .f32⟩
  | .hbm, ⟨50, _⟩ => ⟨S_, .f32⟩
  | .hbm, ⟨51, _⟩ => ⟨S8192, .f32⟩
  | .hbm, ⟨52, _⟩ => ⟨S_, .f32⟩
  | .hbm, ⟨53, _⟩ => ⟨S8192x8192, .f32⟩
  | .hbm, ⟨54, _⟩ => ⟨S8192x8192, .f32⟩
  | .hbm, ⟨55, _⟩ => ⟨S_, .f32⟩
  | .hbm, ⟨56, _⟩ => ⟨S8192x8192, .f32⟩
  | .hbm, ⟨57, _⟩ => ⟨S8192x8192, .f32⟩
  | .hbm, ⟨58, _⟩ => ⟨S8192x8192, .f32⟩
  | .hbm, ⟨59, _⟩ => ⟨S_, .f32⟩
  | .hbm, ⟨60, _⟩ => ⟨S8192, .f32⟩
  | .hbm, ⟨61, _⟩ => ⟨S8192, .f32⟩
  | .hbm, ⟨62, _⟩ => ⟨S8192, .f32⟩
  | .hbm, ⟨63, _⟩ => ⟨S8192, .f32⟩
  | .hbm, ⟨64, _⟩ => ⟨S_, .f32⟩
  | .hbm, ⟨65, _⟩ => ⟨S8192, .f32⟩
  | .hbm, ⟨66, _⟩ => ⟨S8192, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_call1_v0 : Ref sig .tc := ⟨.hbm, 29, rfl⟩
abbrev main_call1_v1 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_6 : Ref sig .tc := ⟨.hbm, 50, rfl⟩
abbrev main_v35 : Ref sig .tc := ⟨.hbm, 51, rfl⟩
abbrev main_cst_7 : Ref sig .tc := ⟨.hbm, 52, rfl⟩
abbrev main_v36 : Ref sig .tc := ⟨.hbm, 53, rfl⟩
abbrev main_v37 : Ref sig .tc := ⟨.hbm, 54, rfl⟩
abbrev main_cst_8 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_9 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_call2_cst : Ref sig .tc := ⟨.hbm, 64, rfl⟩
abbrev main_call2_v0 : Ref sig .tc := ⟨.hbm, 65, rfl⟩
abbrev main_v45 : Ref sig .tc := ⟨.hbm, 66, rfl⟩
abbrev main_cst_10 : Ref sig .tc := ⟨.hbm, 67, rfl⟩
abbrev main_v46 : Ref sig .tc := ⟨.hbm, 68, rfl⟩
abbrev main_cst_11 : Ref sig .tc := ⟨.hbm, 69, rfl⟩
abbrev main_v47 : Ref sig .tc := ⟨.hbm, 70, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x128_S128x8192_1_0 : S8192x128.Transposes [1, 0] S128x8192
  bcast_S_S8192x8192 : S_.BroadcastsInDim S8192x8192 (![] : Fin 0 → Fin S8192x8192.rank)
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.KI.Base.lean ====
/-
  What every part of the idealized kernel's frame and value proof is stated over.
  The grid has 8 × 16 points, numbered row-major: point t is row block t / 16 and column block t % 16.
  At each point the body sees a block of 1024 rows of the embeddings (window 0) with their labels (window 2),
  and a block of 512 rows of the same embeddings read as columns of the distance matrix (window 1) with
  their labels (window 3). Two scratch buffers carry, between the points of one row block, the running maximum of the
  masked distances (positives) and the running minimum of the penalised distances (negatives); they are reset at
  column block 0 and copied to the two outputs (windows 4 and 5) at column block 15.
-/
import proofs.«111471_j80668075754103_1_alg».proof.Proof.Gen.KernelIdeal.Launch
import proofs.«111471_j80668075754103_1_alg».proof.Proof.Gen.KernelIdeal.Skeleton
import proofs.«111471_j80668075754103_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers as the region finds them -/

/-- Core `c`'s buffer contents when the region is entered: the launch memory after the two reshapes of the labels. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The two conditions of the body, over the grid -/

/-- "This is column block 0": the accumulators are reset. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)

/-- "This is column block 15": the accumulators are copied out. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-! ## The memrefs the body is called with -/

abbrev ms0_0 (t : Fin cfg0.N) : Memref sig .tc .vmem S1024x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x1 .f32 := win0_5.stage (cfg0.slots t 5)
abbrev hs0_5 (t : Fin cfg0.N) : (ms0_5 t).IsWhole := hstage0_5 ((cfg0.slots t 5).cast nbuf0_5)
/-- The two accumulators: whole scoped buffers of the kernel's own. -/
abbrev scM0_0 : Memref sig .tc .vmem S1024x1 .f32 := Memref.whole cc0_scratch0
abbrev scM0_1 : Memref sig .tc .vmem S1024x1 .f32 := Memref.whole cc0_scratch1

/-! ## What the accumulators hold after each point -/

/-- One point's update of the two accumulators `(a8, a9)`, as the body's payloads over the point's four input blocks:
    the running maximum of the masked distances and the running minimum of the penalised distances. -/
def accStep (i : grid0.Coords) (x0 : Vec F S1024x128 .f32) (x1 : Vec F S512x128 .f32) (x2 : Vec F S1024x1 .i32) (x3 : Vec F S1x512 .i32)
    (a : Vec F S1024x1 .f32 × Vec F S1024x1 .f32) : Vec F S1024x1 .f32 × Vec F S1024x1 .f32 :=
  (k0_pay2 (k0_pay6 x0 x1) (k0_pay7 i) x2 x3 a.1, k0_pay3 (k0_pay6 x0 x1) x2 x3 a.2)

/-- The accumulators after the body at position `n`: at column block 0 the update of the reset values (zero and +inf),
    otherwise the update of what the point before left. -/
def accAt (c : Dev nD) : (n : ℕ) → n < cfg0.N → Vec F S1024x1 .f32 × Vec F S1024x1 .f32
  | 0, hn => accStep (grid0.coords ⟨0, hn⟩) (iblk m c 0 ⟨0, hn⟩) (iblk m c 1 ⟨0, hn⟩) (iblk m c 2 ⟨0, hn⟩) (iblk m c 3 ⟨0, hn⟩) (k0_pay4, k0_pay5)
  | n + 1, hn =>
    if (n + 1) % 16 = 0 then
      accStep (grid0.coords ⟨n + 1, hn⟩) (iblk m c 0 ⟨n + 1, hn⟩) (iblk m c 1 ⟨n + 1, hn⟩) (iblk m c 2 ⟨n + 1, hn⟩) (iblk m c 3 ⟨n + 1, hn⟩) (k0_pay4, k0_pay5)
    else
      accStep (grid0.coords ⟨n + 1, hn⟩) (iblk m c 0 ⟨n + 1, hn⟩) (iblk m c 1 ⟨n + 1, hn⟩) (iblk m c 2 ⟨n + 1, hn⟩) (iblk m c 3 ⟨n + 1, hn⟩) (accAt c n (Nat.lt_of_succ_lt hn))

/-- At column block 0: the update of the reset values. -/
theorem accAt_reset (c : Dev nD) (t : Fin cfg0.N) (h0 : t.val % 16 = 0) :
    accAt m c t.val t.isLt = accStep (grid0.coords t) (iblk m c 0 t) (iblk m c 1 t) (iblk m c 2 t) (iblk m c 3 t) (k0_pay4, k0_pay5) := by
  obtain ⟨n, hn⟩ := t
  cases n with
  | zero => rfl
  | succ n => exact (if_pos h0).trans rfl

/-- At any later column block: the update of what the point before left. -/
theorem accAt_step (c : Dev nD) (t : Fin cfg0.N) (h0 : ¬ t.val % 16 = 0) :
    accAt m c t.val t.isLt = accStep (grid0.coords t) (iblk m c 0 t) (iblk m c 1 t) (iblk m c 2 t) (iblk m c 3 t)
      (accAt m c (t.val - 1) (Nat.lt_of_le_of_lt (Nat.sub_le _ _) t.isLt)) := by
  obtain ⟨n, hn⟩ := t
  cases n with
  | zero => exact absurd (Nat.zero_mod _) h0
  | succ n => exact (if_neg h0).trans rfl

/-! ## The class's invariant with the accumulators as memrefs -/

/-- Before the first point: both accumulators at anything, the generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Hand

end
-- ==== Proof.KI.Dats.lean ====
/-
  The proof data of the one pipeline. Every input window's staging buffer holds the window's block of its array at every
  point (the body never stores into an input). The two outputs' staging buffers are written only at column block 15,
  where each receives the accumulator's value; elsewhere they are idle. Between points the invariant holds both
  accumulators at what the point before left in them. The embeddings array is read through two windows (as rows and
  as columns), so each of the two holds one half of its share; every other array is held whole.
-/
import proofs.«111471_j80668075754103_1_alg».proof.Proof.KI.Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The region invariant before position `n`: before the first point both accumulators at anything; afterwards each at
    what the point before left in it. The generator register at some state throughout. -/
def PhiS (c : Dev nD) : (n : ℕ) → n ≤ cfg0.N → sProp 𝕄
  | 0, _ => Pipeline.ΦA spec0 c
  | n + 1, hn => iprop(iprop(owns (c : Thread nD τ) scM0_0 fullShare ((accAt m c n hn).1) ∗ owns (c : Thread nD τ) scM0_1 fullShare ((accAt m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((accAt m c n hn).1) ∗ owns (c : Thread nD τ) scM0_1 fullShare ((accAt m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((accAt m c (n - 1) (by omega)).1) ∗ owns (c : Thread nD τ) scM0_1 fullShare ((accAt m c (n - 1) (by omega)).2)) ∗ (∃ r, prngReg c r)) := by
  cases n with
  | zero => exact absurd rfl hz
  | succ n => rfl

/-- The proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (accAt m c t.val t.isLt).1
    | ⟨5, _⟩ => (accAt m c t.val t.isLt).2
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (accAt m c t.val t.isLt).1 := by dsimp only [dats]
theorem after0_5 (c : Dev nD) (t : Fin cfg0.N) : (dats m 0 c).after 5 t = (accAt m c t.val t.isLt).2 := by dsimp only [dats]

theorem q0_0 (c : Dev nD) : (dats m 0 c).q 0 = fullShare.left := by dsimp only [dats]
theorem q0_1 (c : Dev nD) : (dats m 0 c).q 1 = fullShare.right := by dsimp only [dats]
theorem q0_2 (c : Dev nD) : (dats m 0 c).q 2 = fullShare := by dsimp only [dats]
theorem q0_3 (c : Dev nD) : (dats m 0 c).q 3 = fullShare := by dsimp only [dats]

theorem owed_zero (c : Dev nD) (t : Fin (cfg0.N + 1)) : (dats m 0 c).owed t = 0 := rfl

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the class's back: the accumulators' named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    · iexists _; iexact HS1
  iexact Hg

theorem hout (c : Dev nD) : (dats m 0 c).Φ (Fin.last cfg0.N) ⊢ Pipeline.ΦA spec0 c :=
  Phi_out m c _ (by rw [Fin.val_last]; have : cfg0.N = 128 := N_0; omega)

end Cert.KernelIdeal.Hand

end
-- ==== Proof.KI.TailVal.lean ====
/-
  The host lines after the region: the two output columns are flattened to vectors of 8192 entries, and the result is
  the mean over the rows of max(pos − neg + margin, 0). Here they are one function of the two output arrays and the
  margin, and the contents of the result buffer after those lines is that function of what the region left.
-/
import proofs.«111471_j80668075754103_1_alg».proof.Proof.KI.Dats
import Idealize.ShloMosaic.Lib.ValueIdx
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- mean over rows of max(pos − neg + margin, 0), over the output columns as the region leaves them. -/
def tailFn (p n : (⟨S8192x1, .f32⟩ : BufTy).Contents (Elt F)) (mg : (⟨S_, .f32⟩ : BufTy).Contents (Elt F)) :
    (⟨S_, .f32⟩ : BufTy).Contents (Elt F) :=
  Host.divf (Host.reduceAdd (maximumf (addf (subf (shapeCast S8192 p shapeCasts_S8192x1_S8192) (shapeCast S8192 n shapeCasts_S8192x1_S8192))
      (broadcastInDim S8192 ![] bcast_S_S8192 mg)) (broadcastInDim S8192 ![] bcast_S_S8192 (constant S_ .f32 0x00000000#32)))
    (constant S_ .f32 0x00000000#32) reducesTo_S8192_S_d0 h_S_) (constant S_ .f32 0x46000000#32)

/-- Only window 4 is on the first output array: the contents the region leaves there are window 4's. -/
theorem withArrays_out0 (c : Dev nD) (Vv : Valuation τ sig (Elt F))
    (A : (w : Fin 6) → Buf (Elt F) ((spec0 w).arr.view.loc (c.tc : Thread nD τ))) :
    Pipeline.withArrays spec0 c Vv A (Proc.devRef .tc main_v2_0) = A 4 := by
  unfold Pipeline.withArrays
  have h : ∃ w', Proc.devRef .tc (Pipeline.arrRef spec0 w') = Proc.devRef (τ := τ) .tc main_v2_0 := ⟨4, rfl⟩
  rw [dif_pos h]
  suffices ∀ (w' : Fin 6) (e : Proc.devRef .tc (Pipeline.arrRef spec0 w') = Proc.devRef (τ := τ) .tc main_v2_0),
      cast (congrArg (fun b' : DevRef τ sig => b'.ty.Contents (Elt F)) e) (A w') = A 4 from this _ h.choose_spec
  intro w' e
  have hw : w' = 4 := by
    have e' := Proc.devRef_injective _ e
    revert e'; revert w'; decide
  subst hw; rfl

/-- Only window 5 is on the second output array. -/
theorem withArrays_out1 (c : Dev nD) (Vv : Valuation τ sig (Elt F))
    (A : (w : Fin 6) → Buf (Elt F) ((spec0 w).arr.view.loc (c.tc : Thread nD τ))) :
    Pipeline.withArrays spec0 c Vv A (Proc.devRef .tc main_v2_1) = A 5 := by
  unfold Pipeline.withArrays
  have h : ∃ w', Proc.devRef .tc (Pipeline.arrRef spec0 w') = Proc.devRef (τ := τ) .tc main_v2_1 := ⟨5, rfl⟩
  rw [dif_pos h]
  suffices ∀ (w' : Fin 6) (e : Proc.devRef .tc (Pipeline.arrRef spec0 w') = Proc.devRef (τ := τ) .tc main_v2_1),
      cast (congrArg (fun b' : DevRef τ sig => b'.ty.Contents (Elt F)) e) (A w') = A 5 from this _ h.choose_spec
  intro w' e
  have hw : w' = 5 := by
    have e' := Proc.devRef_injective _ e
    revert e'; revert w'; decide
  subst hw; rfl

/-- The margin is no window's array and no host line before the region writes it. -/
theorem withArrays_margin (c : Dev nD)
    (A : (w : Fin 6) → Buf (Elt F) ((spec0 w).arr.view.loc (c.tc : Thread nD τ))) :
    Pipeline.withArrays spec0 c (V0 m c) A (Proc.devRef .tc main_arg2) = m ((c.tc : Thread nD τ).loc main_arg2) := by
  rw [Pipeline.withArrays_of_ne spec0 c (V0 m c) A main_arg2 (by decide)]
  show StableHlo.after (List.flatten [hostOps0]) (fun b => m (c, b)) (Proc.devRef .tc main_arg2) = _
  simp only [hostOps0, List.flatten_cons, List.flatten_nil, List.append_nil]
  after_results

/-- The result buffer after the host lines that follow the region. -/
theorem tail_v10 (c : Dev nD) :
    Pipeline.afterTail₀ cfgs (dats m) 0 (V0 m) [hostOps1, hostOps1_1, hostOps1_2] c main_v10
      = tailFn ((dats m 0 c).arrAt 4 cfg0.N) ((dats m 0 c).arrAt 5 cfg0.N) (m ((c.tc : Thread nD τ).loc main_arg2)) := by
  unfold Pipeline.afterTail₀
  show StableHlo.after (List.flatten [hostOps1, hostOps1_1, hostOps1_2])
    (Pipeline.withArrays spec0 c (V0 m c) fun w => (dats m 0 c).arrAt w cfg0.N) (Proc.devRef .tc main_v10) = _
  generalize hA : (fun w => (dats m 0 c).arrAt w cfg0.N) = A
  have h4 : (dats m 0 c).arrAt 4 cfg0.N = A 4 := by rw [← hA]
  have h5 : (dats m 0 c).arrAt 5 cfg0.N = A 5 := by rw [← hA]
  rw [h4, h5]
  simp only [hostOps1, hostOps1_1, hostOps1_2, List.flatten_cons, List.flatten_nil, List.append_nil, List.cons_append, List.nil_append]
  after_results_simp
  rw [withArrays_out0, withArrays_out1, withArrays_margin]
  rfl

open Idealize.ShloMosaic.ValueIdx in
/-- A column of 8192 entries flattened to a vector: entry r of the vector is entry (r, 0) of the column. -/
theorem flatten_col {α : Type} (Pc : S8192x1.Idx → α) (r : S8192.Idx) :
    shapeCast S8192 Pc shapeCasts_S8192x1_S8192 r = Pc (ix2 (r 0) 0) := by
  refine shapeCast_apply Pc _ r (ix2 (r 0) 0) ?_
  rw [Shape.rowMajor_val_two, Shape.rowMajor_val_one]
  simp

open Idealize.ShloMosaic.ValueIdx in
/-- The tail over two output columns that are, row by row, the vectors `pv` and `nv`: the mean over the rows of
    max(pv − nv + margin, 0), spelt over the vectors. -/
theorem tailFn_congr (p n : (⟨S8192x1, .f32⟩ : BufTy).Contents (Elt F)) (mg : (⟨S_, .f32⟩ : BufTy).Contents (Elt F))
    (pv nv : (⟨S8192, .f32⟩ : BufTy).Contents (Elt F))
    (hp : ∀ r : S8192.Idx, p (ix2 (r 0) 0) = pv r) (hn : ∀ r : S8192.Idx, n (ix2 (r 0) 0) = nv r) :
    tailFn p n mg = Host.divf (Host.reduceAdd (maximumf (addf (subf pv nv)
      (broadcastInDim S8192 ![] bcast_S_S8192 mg)) (broadcastInDim S8192 ![] bcast_S_S8192 (constant S_ .f32 0x00000000#32)))
    (constant S_ .f32 0x00000000#32) reducesTo_S8192_S_d0 h_S_) (constant S_ .f32 0x46000000#32) := by
  unfold tailFn
  have e1 : shapeCast S8192 p shapeCasts_S8192x1_S8192 = pv := funext fun r => (flatten_col p r).trans (hp r)
  have e2 : shapeCast S8192 n shapeCasts_S8192x1_S8192 = nv := funext fun r => (flatten_col n r).trans (hn r)
  rw [e1, e2]

end Cert.KernelIdeal.Hand

end
-- ==== Proof.KI.RunB.lean ====
/-
  The body at a point that is neither the first nor the last column block of its row block. Both accumulators are
  read, updated with the point's tile of distances and stored back whole; the four input blocks and the two output
  buffers are handed back as they were found.
-/
import proofs.«111471_j80668075754103_1_alg».proof.Proof.KI.Dats
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## Whole-buffer loads and stores read back -/

theorem hz2 : (![0, 0] : Fin 2 → Nat) = fun _ => 0 := funext fun a => by fin_cases a <;> rfl

/-- A load of the whole of a whole memref held at `x` reads `x`. -/
theorem load_whole_unread {s : Shape} {e : EltTy} (mr : Memref sig .tc .vmem s e) (h : mr.IsWhole) {off : Fin s.rank → Nat}
    (hoff : off = fun _ => 0) (inb : ∀ a, off a + s.size a ≤ s.size a) (x : s.Idx → Elt F e) :
    mr.view.readAt (Elt F) (Rect.unit off s.size inb).toLoadRect (h.unread x) = x := by
  rw [View.readAt_eq_ld, h.read_unread, View.ld_unit_zero hoff]

/-- After a store of the whole buffer, made last, the buffer reads as the stored value, whatever was stored before. -/
theorem read_store_whole {s : Shape} {e : EltTy} (v : View sig .tc .vmem s e) (f : v.ty.Contents (Elt F)) {off : Fin s.rank → Nat}
    (hoff : off = fun _ => 0) (inb : ∀ a, off a + s.size a ≤ s.size a) (w : s.Idx → Elt F e) (L : List (View.Piece (Elt F) s e)) :
    v.read (Elt F) (v.writes (Elt F) f ((⟨Rect.unit off s.size inb, w⟩ : View.Piece (Elt F) s e) :: L)) = w := by
  rw [View.read_writes_eq_canon _ _ _ (fun y => ⟨_, List.mem_cons_self, View.mem_set_unit_zero hoff inb y⟩), View.canon_cons_unit_zero hoff]

set_option maxHeartbeats 1000000 in
/-- The body at a point that is neither the first nor the last column block of its row block: both accumulators updated from what they held, nothing else changed. -/
theorem kernelRun0_B (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i)
    (x0 : Vec F S1024x128 .f32) (x1 : Vec F S512x128 .f32) (x2 : Vec F S1024x1 .i32) (x3 : Vec F S1x512 .i32) (a8 a9 xi4 xi5 : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xi4 ∗ owns (c : Thread nD τ) arg7 fullShare xi5
        ∗ owns (c : Thread nD τ) arg8 fullShare a8 ∗ owns (c : Thread nD τ) arg9 fullShare a9
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ owns (c : Thread nD τ) arg7 fullShare xi5
            ∗ owns (c : Thread nD τ) arg8 fullShare (accStep i x0 x1 x2 x3 (a8, a9)).1 ∗ owns (c : Thread nD τ) arg9 fullShare (accStep i x0 x1 x2 x3 (a8, a9)).2) -∗ K ⟨⟩))
      ⊢ wp frame (wpE (defs₀ (F := F)) Variants.none c none) E (cc0__triplet_kernel i arg2 harg2 arg3 harg3 arg4 harg4 arg5 harg5 arg6 harg6 arg7 harg7 arg8 harg8 arg9 harg9) K := by
  simp only [cc0__triplet_kernel_eq_skeleton]; unfold cc0__triplet_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f8, %hf8, H8⟩, ⟨%f9, %hf9, H9⟩, Hk⟩
  obtain rfl := harg2.eq_unread hf0; obtain rfl := harg3.eq_unread hf1; obtain rfl := harg4.eq_unread hf2; obtain rfl := harg5.eq_unread hf3
  obtain rfl := harg8.eq_unread hf8; obtain rfl := harg9.eq_unread hf9
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact hf4
    iexact H4
  isplitl [H5]
  · iexists _; isplitr; · ipureintro; exact hf5
    iexact H5
  isplitl [H8]
  · iexists _; isplitr
    swap; · iexact H8
    ipureintro
    rw [read_store_whole _ _ hz2]
    simp only [load_whole_unread (s := S1024x128) _ _ hz2, load_whole_unread (s := S512x128) _ _ hz2, load_whole_unread (s := S1024x1) _ _ hz2, load_whole_unread (s := S1x512) _ _ hz2]
    rfl
  · iexists _; isplitr
    swap; · iexact H9
    ipureintro
    rw [read_store_whole _ _ hz2]
    simp only [load_whole_unread (s := S1024x128) _ _ hz2, load_whole_unread (s := S512x128) _ _ hz2, load_whole_unread (s := S1024x1) _ _ hz2, load_whole_unread (s := S1x512) _ _ hz2]
    rfl

end Cert.KernelIdeal.Hand

end
-- ==== Proof.KI.RunA.lean ====
/-
  The body at the first column block of a row block. The accumulators are first reset — the maximum to zero, the minimum
  to +inf — whatever they held; every later load of an accumulator reads what was last stored into it, so the update is
  that of the reset values. The inputs and the two output buffers are handed back as they were found.
-/
import proofs.«111471_j80668075754103_1_alg».proof.Proof.KI.RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body at the first column block of a row block: the accumulators are reset (to zero and to +inf) whatever they held, then updated. -/
theorem kernelRun0_A (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i)
    (x0 : Vec F S1024x128 .f32) (x1 : Vec F S512x128 .f32) (x2 : Vec F S1024x1 .i32) (x3 : Vec F S1x512 .i32) (xi4 xi5 : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xi4 ∗ owns (c : Thread nD τ) arg7 fullShare xi5
        ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ owns (c : Thread nD τ) arg7 fullShare xi5
            ∗ owns (c : Thread nD τ) arg8 fullShare (accStep i x0 x1 x2 x3 (k0_pay4, k0_pay5)).1 ∗ owns (c : Thread nD τ) arg9 fullShare (accStep i x0 x1 x2 x3 (k0_pay4, k0_pay5)).2) -∗ K ⟨⟩))
      ⊢ wp frame (wpE (defs₀ (F := F)) Variants.none c none) E (cc0__triplet_kernel i arg2 harg2 arg3 harg3 arg4 harg4 arg5 harg5 arg6 harg6 arg7 harg7 arg8 harg8 arg9 harg9) K := by
  simp only [cc0__triplet_kernel_eq_skeleton]; unfold cc0__triplet_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d8, %f8, -, H8⟩, ⟨%d9, %f9, -, H9⟩, Hk⟩
  obtain rfl := harg2.eq_unread hf0; obtain rfl := harg3.eq_unread hf1; obtain rfl := harg4.eq_unread hf2; obtain rfl := harg5.eq_unread hf3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact hf4
    iexact H4
  isplitl [H5]
  · iexists _; isplitr; · ipureintro; exact hf5
    iexact H5
  isplitl [H8]
  · iexists _; isplitr
    swap; · iexact H8
    ipureintro
    rw [read_store_whole _ _ hz2]
    sl_unfold_words
    rw [View.readCov_unit_zero (S := S1024x1) _ hz2]
    simp only [load_whole_unread (s := S1024x128) _ _ hz2, load_whole_unread (s := S512x128) _ _ hz2, load_whole_unread (s := S1024x1) _ _ hz2, load_whole_unread (s := S1x512) _ _ hz2]
    rfl
  · iexists _; isplitr
    swap; · iexact H9
    ipureintro
    rw [read_store_whole _ _ hz2]
    sl_unfold_words
    rw [View.readCov_unit_zero (S := S1024x1) _ hz2]
    simp only [load_whole_unread (s := S1024x128) _ _ hz2, load_whole_unread (s := S512x128) _ _ hz2, load_whole_unread (s := S1024x1) _ _ hz2, load_whole_unread (s := S1x512) _ _ hz2]
    rfl

end Cert.KernelIdeal.Hand

end
-- ==== Proof.KI.RunC.lean ====
/-
  The body at the last column block of a row block. Both accumulators are updated from what they held and stored back
  whole; then each is loaded again — reading what was just stored — and stored whole into its output buffer, whatever
  that buffer held. The inputs are handed back as they were found.
-/
import proofs.«111471_j80668075754103_1_alg».proof.Proof.KI.RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body at the last column block of a row block: both accumulators updated from what they held, and their new values copied to the two outputs. -/
theorem kernelRun0_C (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x128 .f32) (x1 : Vec F S512x128 .f32) (x2 : Vec F S1024x1 .i32) (x3 : Vec F S1x512 .i32) (a8 a9 : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ (∃ d, owns (c : Thread nD τ) arg7 fullShare d)
        ∗ owns (c : Thread nD τ) arg8 fullShare a8 ∗ owns (c : Thread nD τ) arg9 fullShare a9
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (accStep i x0 x1 x2 x3 (a8, a9)).1 ∗ owns (c : Thread nD τ) arg7 fullShare (accStep i x0 x1 x2 x3 (a8, a9)).2
            ∗ owns (c : Thread nD τ) arg8 fullShare (accStep i x0 x1 x2 x3 (a8, a9)).1 ∗ owns (c : Thread nD τ) arg9 fullShare (accStep i x0 x1 x2 x3 (a8, a9)).2) -∗ K ⟨⟩))
      ⊢ wp frame (wpE (defs₀ (F := F)) Variants.none c none) E (cc0__triplet_kernel i arg2 harg2 arg3 harg3 arg4 harg4 arg5 harg5 arg6 harg6 arg7 harg7 arg8 harg8 arg9 harg9) K := by
  simp only [cc0__triplet_kernel_eq_skeleton]; unfold cc0__triplet_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f8, %hf8, H8⟩, ⟨%f9, %hf9, H9⟩, Hk⟩
  obtain rfl := harg2.eq_unread hf0; obtain rfl := harg3.eq_unread hf1; obtain rfl := harg4.eq_unread hf2; obtain rfl := harg5.eq_unread hf3
  obtain rfl := harg8.eq_unread hf8; obtain rfl := harg9.eq_unread hf9
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    sl_unfold_words
    rw [read_store_whole _ _ hz2, View.readCov_unit_zero (S := S1024x1) _ hz2]
    simp only [load_whole_unread (s := S1024x128) _ _ hz2, load_whole_unread (s := S512x128) _ _ hz2, load_whole_unread (s := S1024x1) _ _ hz2, load_whole_unread (s := S1x512) _ _ hz2]
    rfl
  isplitl [H5]
  · iexists _; isplitr
    swap; · iexact H5
    ipureintro
    sl_unfold_words
    rw [read_store_whole _ _ hz2, View.readCov_unit_zero (S := S1024x1) _ hz2]
    simp only [load_whole_unread (s := S1024x128) _ _ hz2, load_whole_unread (s := S512x128) _ _ hz2, load_whole_unread (s := S1024x1) _ _ hz2, load_whole_unread (s := S1x512) _ _ hz2]
    rfl
  isplitl [H8]
  · iexists _; isplitr
    swap; · iexact H8
    ipureintro
    sl_unfold_words
    rw [read_store_whole _ _ hz2]
    simp only [load_whole_unread (s := S1024x128) _ _ hz2, load_whole_unread (s := S512x128) _ _ hz2, load_whole_unread (s := S1024x1) _ _ hz2, load_whole_unread (s := S1x512) _ _ hz2]
    rfl
  · iexists _; isplitr
    swap; · iexact H9
    ipureintro
    sl_unfold_words
    rw [read_store_whole _ _ hz2]
    simp only [load_whole_unread (s := S1024x128) _ _ hz2, load_whole_unread (s := S512x128) _ _ hz2, load_whole_unread (s := S1024x1) _ _ hz2, load_whole_unread (s := S1x512) _ _ hz2]
    rfl

end Cert.KernelIdeal.Hand

end
-- ==== Proof.KI.Body.lean ====
/-
  The body obligation of the one pipeline. Every input window's staging buffer holds its block at every point, fetched
  there or not. The two outputs' buffers are idle except at the last column block of a row block. At each point the
  body finds the accumulators as the invariant names them and leaves them at their update; by the point's place in
  its row block this is the reset-and-update, the plain update, or the update copied to the outputs.
-/
import proofs.«111471_j80668075754103_1_alg».proof.Proof.KI.RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Every input's staging buffer holds its block at every point, fetched there or not -/

theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)

/-! ## Where the windows are idle -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
/-- Output 0's buffer is idle wherever the point is not the last column block of its row block, -/
theorem idleAt0_4 : ∀ t : Fin cfg0.N, ¬cond0_1 (grid0.coords t) → cfg0.idle 4 (grid0.coords t) = true := by decide +kernel
/-- is not written back there, -/
theorem noFlush0_4 : ∀ t : Fin cfg0.N, ¬cond0_1 (grid0.coords t) → (cfg0.win 4).flush t = false := by decide +kernel
/-- and is live at the last column block. -/
theorem liveAt0_4 : ∀ t : Fin cfg0.N, cond0_1 (grid0.coords t) → cfg0.idle 4 (grid0.coords t) = false := by decide +kernel
/-- Output 1's buffer is idle wherever the point is not the last column block of its row block, -/
theorem idleAt0_5 : ∀ t : Fin cfg0.N, ¬cond0_1 (grid0.coords t) → cfg0.idle 5 (grid0.coords t) = true := by decide +kernel
/-- is not written back there, -/
theorem noFlush0_5 : ∀ t : Fin cfg0.N, ¬cond0_1 (grid0.coords t) → (cfg0.win 5).flush t = false := by decide +kernel
/-- and is live at the last column block. -/
theorem liveAt0_5 : ∀ t : Fin cfg0.N, cond0_1 (grid0.coords t) → cfg0.idle 5 (grid0.coords t) = false := by decide +kernel

/-! ## The body obligation, at a generic point -/

/-- What the body is called with at point `t`: the invariant, nothing owed, and each window's current staging buffer. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

/-- The same, with the invariant after the point and the inputs' buffers spelt out. -/
def bodyPost' (c : Dev nD) (t : Fin cfg0.N) : sProp 𝕄 :=
  iprop(iprop(iprop(owns (c : Thread nD τ) scM0_0 fullShare ((accAt m c t.val t.isLt).1) ∗ owns (c : Thread nD τ) scM0_1 fullShare ((accAt m c t.val t.isLt).2)) ∗ (∃ r, prngReg c r))
    ∗ (dats m 0 c).owesAt () t.castSucc
    ∗ owns (c : Thread nD τ) (ms0_0 t) fullShare (iblk m c 0 t)
    ∗ owns (c : Thread nD τ) (ms0_1 t) fullShare (iblk m c 1 t)
    ∗ owns (c : Thread nD τ) (ms0_2 t) fullShare (iblk m c 2 t)
    ∗ owns (c : Thread nD τ) (ms0_3 t) fullShare (iblk m c 3 t)
    ∗ (dats m 0 c).leavesExact 4 t
    ∗ (dats m 0 c).leavesExact 5 t)

theorem bodyPost_eq (c : Dev nD) (t : Fin cfg0.N) : bodyPost m c t = bodyPost' m c t := by
  unfold bodyPost bodyPost'
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]

set_option maxHeartbeats 1600000 in
/-- At the first column block of a row block: the accumulators are found at anything — the class's invariant before the
    grid's first point, what the row block before left afterwards — and left at the update of the reset values. -/
theorem sound_A (c : Dev nD) (t : Fin cfg0.N) (h0 : t.val % 16 = 0) (h1 : ¬t.val % 16 = 15) :
    bodyPre m c t ⊢ wp frame (wpE (defs₀ (F := F)) Variants.none c none) Set.univ (bodyAt0 t) (fun _ => bodyPost' m c t) := by
  have hc0 : cond0_0 (grid0.coords t) := (hcond0_0 t).mpr h0
  have hc1 : ¬cond0_1 (grid0.coords t) := fun h => h1 ((hcond0_1 t).mp h)
  unfold bodyPre bodyPost' bodyAt0
  simp only [before0_0, before0_1, before0_2, before0_3]
  rw [Dat.leavesExact_idle (dats m 0 c) 4 t (idleAt0_4 t hc1) (noFlush0_4 t hc1)]
  rw [Dat.leavesExact_idle (dats m 0 c) 5 t (idleAt0_5 t hc1) (noFlush0_5 t hc1)]
  rw [accAt_reset m c t h0]
  by_cases hz : t.val = 0
  · rw [PhiS_castSucc m c t, PhiS_zero m c _ _ hz, PhiA0_eq]
    iintro ⟨⟨⟨HS0, HS1⟩, Hg⟩, Ho, ⟨%d0, H0⟩, ⟨%d1, H1⟩, ⟨%d2, H2⟩, ⟨%d3, H3⟩, ⟨%d4, H4⟩, ⟨%d5, H5⟩⟩
    iapply (kernelRun0_A c (grid0.coords t) _ _ _ _ _ _ _ _ _ _ _ _ _ _ _ _ hc0 hc1 (iblk m c 0 t) (iblk m c 1 t) (iblk m c 2 t) (iblk m c 3 t) _ _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    iintro ⟨H0, H1, H2, H3, H4, H5, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexists _; iexact H4
    iexists _; iexact H5
  · rw [PhiS_castSucc m c t, PhiS_pos m c _ _ hz]
    iintro ⟨⟨⟨HS0, HS1⟩, Hg⟩, Ho, ⟨%d0, H0⟩, ⟨%d1, H1⟩, ⟨%d2, H2⟩, ⟨%d3, H3⟩, ⟨%d4, H4⟩, ⟨%d5, H5⟩⟩
    iapply (kernelRun0_A c (grid0.coords t) _ _ _ _ _ _ _ _ _ _ _ _ _ _ _ _ hc0 hc1 (iblk m c 0 t) (iblk m c 1 t) (iblk m c 2 t) (iblk m c 3 t) _ _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexists _; iexact HS0
    isplitl [HS1]; · iexists _; iexact HS1
    iintro ⟨H0, H1, H2, H3, H4, H5, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexists _; iexact H4
    iexists _; iexact H5

set_option maxHeartbeats 1600000 in
/-- At a column block that is neither the first nor the last of its row block: the accumulators are found at what the
    point before left and left at their update; the outputs' buffers are handed back untouched. -/
theorem sound_B (c : Dev nD) (t : Fin cfg0.N) (h0 : ¬t.val % 16 = 0) (h1 : ¬t.val % 16 = 15) :
    bodyPre m c t ⊢ wp frame (wpE (defs₀ (F := F)) Variants.none c none) Set.univ (bodyAt0 t) (fun _ => bodyPost' m c t) := by
  have hc0 : ¬cond0_0 (grid0.coords t) := fun h => h0 ((hcond0_0 t).mp h)
  have hc1 : ¬cond0_1 (grid0.coords t) := fun h => h1 ((hcond0_1 t).mp h)
  have hz : t.val ≠ 0 := fun h => h0 (by rw [h])
  unfold bodyPre bodyPost' bodyAt0
  simp only [before0_0, before0_1, before0_2, before0_3]
  rw [Dat.leavesExact_idle (dats m 0 c) 4 t (idleAt0_4 t hc1) (noFlush0_4 t hc1)]
  rw [Dat.leavesExact_idle (dats m 0 c) 5 t (idleAt0_5 t hc1) (noFlush0_5 t hc1)]
  rw [accAt_step m c t h0]
  rw [PhiS_castSucc m c t, PhiS_pos m c _ _ hz]
  iintro ⟨⟨⟨HS0, HS1⟩, Hg⟩, Ho, ⟨%d0, H0⟩, ⟨%d1, H1⟩, ⟨%d2, H2⟩, ⟨%d3, H3⟩, ⟨%d4, H4⟩, ⟨%d5, H5⟩⟩
  iapply (kernelRun0_B c (grid0.coords t) _ _ _ _ _ _ _ _ _ _ _ _ _ _ _ _ hc0 hc1 (iblk m c 0 t) (iblk m c 1 t) (iblk m c 2 t) (iblk m c 3 t) _ _ _ _ Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  iintro ⟨H0, H1, H2, H3, H4, H5, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexists _; iexact H4
  iexists _; iexact H5

set_option maxHeartbeats 1600000 in
/-- At the last column block of a row block: the accumulators are found at what the point before left and left at their
    update, which each output's buffer receives too. -/
theorem sound_C (c : Dev nD) (t : Fin cfg0.N) (h0 : ¬t.val % 16 = 0) (h1 : t.val % 16 = 15) :
    bodyPre m c t ⊢ wp frame (wpE (defs₀ (F := F)) Variants.none c none) Set.univ (bodyAt0 t) (fun _ => bodyPost' m c t) := by
  have hc0 : ¬cond0_0 (grid0.coords t) := fun h => h0 ((hcond0_0 t).mp h)
  have hc1 : cond0_1 (grid0.coords t) := (hcond0_1 t).mpr h1
  have hz : t.val ≠ 0 := fun h => h0 (by rw [h])
  unfold bodyPre bodyPost' bodyAt0
  simp only [before0_0, before0_1, before0_2, before0_3]
  rw [show (dats m 0 c).leavesExact 4 t = owns (c : Thread nD τ) (ms0_4 t) fullShare ((dats m 0 c).after 4 t) from by
    unfold Dat.leavesExact; rw [liveAt0_4 t hc1], after0_4]
  rw [show (dats m 0 c).leavesExact 5 t = owns (c : Thread nD τ) (ms0_5 t) fullShare ((dats m 0 c).after 5 t) from by
    unfold Dat.leavesExact; rw [liveAt0_5 t hc1], after0_5]
  rw [accAt_step m c t h0]
  rw [PhiS_castSucc m c t, PhiS_pos m c _ _ hz]
  iintro ⟨⟨⟨HS0, HS1⟩, Hg⟩, Ho, ⟨%d0, H0⟩, ⟨%d1, H1⟩, ⟨%d2, H2⟩, ⟨%d3, H3⟩, ⟨%d4, H4⟩, ⟨%d5, H5⟩⟩
  iapply (kernelRun0_C c (grid0.coords t) _ _ _ _ _ _ _ _ _ _ _ _ _ _ _ _ hc0 hc1 (iblk m c 0 t) (iblk m c 1 t) (iblk m c 2 t) (iblk m c 3 t) _ _ Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [HS0]; · iexact HS0
  isplitl [HS1]; · iexact HS1
  iintro ⟨H0, H1, H2, H3, H4, H5, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  iexact H5

/-- The body at any point, by its place in its row block. -/
theorem sound_body (c : Dev nD) (t : Fin cfg0.N) :
    bodyPre m c t ⊢ wp frame (wpE (defs₀ (F := F)) Variants.none c none) Set.univ (bodyAt0 t) (fun _ => bodyPost m c t) := by
  simp only [bodyPost_eq]
  by_cases h0 : t.val % 16 = 0
  · by_cases h1 : t.val % 16 = 15
    · exfalso; omega
    · exact sound_A m c t h0 h1
  · by_cases h1 : t.val % 16 = 15
    · exact sound_C m c t h0 h1
    · exact sound_B m c t h0 h1

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KI.Launch.lean ====
/-
  The launch of the idealized kernel: from the body obligation to the run of the whole program. The embeddings array is
  read through two windows, so the array's full share is dealt to them in halves at the region's entry and the halves are
  joined again at its exit; the host operations after the region then run within whole buffers.
-/
import proofs.«111471_j80668075754103_1_alg».proof.Proof.KI.Dats

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The host operations after the region, stretch by stretch. -/
abbrev tailOps : List (List (HloOp τ sig (Elt F))) := [hostOps1, hostOps1_1, hostOps1_2]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

/-- The program is the two reshapes of the labels, the region, and the twelve host operations after it: it reduces to the
    region continued by those operations, at the contents the reshapes leave. -/
theorem hmain0 (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- The operations after the region touch unscoped buffers only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 winFacts₀0.arr_unscoped]
  intro ops hops op hop
  simp only [List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)

/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop

/-- And write no array of the pipeline: each writes only its own result buffer. -/
theorem sfx_keeps : ∀ ops ∈ (tailOps : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl
  · simp only [hostOps1, List.mem_cons, List.mem_nil_iff, or_false] at hop
    rcases hop with rfl | rfl | rfl | rfl | rfl
    all_goals intro w; fin_cases w <;> simp only [StableHlo.nullary_writes, StableHlo.unary_writes, StableHlo.binary_writes, StableHlo.reshape_writes, Finset.mem_singleton] <;> exact StableHlo.devRef_ne_of_ne (by decide)
  · simp only [hostOps1_1, List.mem_cons, List.mem_nil_iff, or_false] at hop
    rcases hop with rfl | rfl | rfl
    all_goals intro w; fin_cases w <;> simp only [StableHlo.TRef.nullary, StableHlo.TRef.unary, StableHlo.TRef.binary, StableHlo.nullary_writes, StableHlo.unary_writes, StableHlo.binary_writes, StableHlo.reshape_writes, Finset.mem_singleton] <;> exact StableHlo.devRef_ne_of_ne (by decide)
  · simp only [hostOps1_2, List.mem_cons, List.mem_nil_iff, or_false] at hop
    rcases hop with rfl | rfl | rfl | rfl
    all_goals intro w; fin_cases w <;> simp only [StableHlo.nullary_writes, StableHlo.unary_writes, StableHlo.binary_writes, StableHlo.reshape_writes, Finset.mem_singleton] <;> exact StableHlo.devRef_ne_of_ne (by decide)

/-- The five distinct buffers behind the six windows' arrays. -/
theorem arrImage0 : Finset.univ.image (Pipeline.arrRef spec0) = ([main_arg0, main_v0, main_v1, main_v2_0, main_v2_1] : List (Ref sig .tc)).toFinset := by decide

/-- The buffers behind the arrays, one by one. -/
theorem arrBufs0_eq (c : Dev nD) (Vb : (b : Ref sig .tc) → Buf (Elt F) ((c.tc : Thread nD τ).loc b)) :
    (Pipeline.arrBufs spec0 c Vb : sProp 𝕄)
      = iprop((((c.tc : Thread nD τ).loc main_arg0) ↦{fullShare} Vb main_arg0) ∗ (((c.tc : Thread nD τ).loc main_v0) ↦{fullShare} Vb main_v0)
          ∗ (((c.tc : Thread nD τ).loc main_v1) ↦{fullShare} Vb main_v1) ∗ (((c.tc : Thread nD τ).loc main_v2_0) ↦{fullShare} Vb main_v2_0)
          ∗ (((c.tc : Thread nD τ).loc main_v2_1) ↦{fullShare} Vb main_v2_1)) := by
  unfold Pipeline.arrBufs
  exact bigSep_eq_bigSepL_of_eq [main_arg0, main_v0, main_v1, main_v2_0, main_v2_1] arrImage0 (by decide) _

/-- The windows' arrays as the proof data hold them, one by one: the embeddings in two halves, the others whole. -/
theorem arrays0_eq (c : Dev nD) (Fw : (w : Fin cfg0.W) → Buf (Elt F) ((cfg0.win w).arr.view.loc (c.tc : Thread nD τ))) :
    ((dats m 0 c).arrays Fw : sProp 𝕄)
      = iprop((((c.tc : Thread nD τ).loc main_arg0) ↦{fullShare.left} Fw 0) ∗ (((c.tc : Thread nD τ).loc main_arg0) ↦{fullShare.right} Fw 1)
          ∗ (((c.tc : Thread nD τ).loc main_v0) ↦{fullShare} Fw 2) ∗ (((c.tc : Thread nD τ).loc main_v1) ↦{fullShare} Fw 3)
          ∗ (((c.tc : Thread nD τ).loc main_v2_0) ↦{fullShare} Fw 4) ∗ (((c.tc : Thread nD τ).loc main_v2_1) ↦{fullShare} Fw 5)) := by
  unfold Dat.arrays
  rw [bigSep_W0]
  rw [(arr_whole0 0).set_eq_univ, (arr_whole0 2).set_eq_univ, (arr_whole0 3).set_eq_univ, (arr_whole0 4).set_eq_univ, (arr_whole0 5).set_eq_univ]
  rfl

/-- Whatever the operations after the region may touch, held at a valuation: the buffers behind the arrays and the
    buffers that bypass the region, each at the valuation. No array is among the bypassing buffers. -/
theorem held_tail0 (c : Dev nD) (Wv : Valuation τ sig (Elt F)) :
    (StableHlo.held (c.tc : Thread nD τ) (Pipeline.tailRefs sig Pipeline.Prefetch.none spec0) Wv : sProp 𝕄)
      = iprop(Pipeline.arrBufs spec0 c (fun b => Wv (Proc.devRef .tc b))
          ∗ Pipeline.unscopedRestP Pipeline.Prefetch.none spec0 c (fun b => Wv (Proc.devRef .tc b))) := by
  classical
  have hdisj : Disjoint (Finset.univ.image (Pipeline.arrRef spec0)) (Pipeline.restRefsP sig Pipeline.Prefetch.none spec0) :=
    Finset.disjoint_left.mpr fun b hb hr => (Finset.mem_sdiff.mp (Finset.mem_sdiff.mp hr).1).2 hb
  unfold StableHlo.held Pipeline.tailRefs Pipeline.arrBufs Pipeline.unscopedRestP
  rw [bigSep_map, bigSep_union hdisj]
  rfl

/-- Two windows are on one array only if they are the same window or the two windows on the embeddings. -/
theorem arrRef0_cases : ∀ w' w : Fin 6, Pipeline.arrRef spec0 w' = Pipeline.arrRef spec0 w → (w' = w ∨ (w' = 0 ∧ w = 1) ∨ (w' = 1 ∧ w = 0)) := by decide

/-- Reading the arrays' contents back by reference: when the two windows on the embeddings agree, every window's array
    is read at that window's contents. -/
theorem withArrays_arr0 (c : Dev nD) (Vv : Valuation τ sig (Elt F))
    (A : (w : Fin 6) → Buf (Elt F) ((spec0 w).arr.view.loc (c.tc : Thread nD τ))) (h01 : A 0 = A 1) (w : Fin 6) :
    Pipeline.withArrays spec0 c Vv A (Proc.devRef .tc (Pipeline.arrRef spec0 w)) = A w := by
  unfold Pipeline.withArrays
  have h : ∃ w', Proc.devRef .tc (Pipeline.arrRef spec0 w') = Proc.devRef (τ := τ) .tc (Pipeline.arrRef spec0 w) := ⟨w, rfl⟩
  rw [dif_pos h]
  suffices ∀ (w' : Fin 6) (e : Proc.devRef .tc (Pipeline.arrRef spec0 w') = Proc.devRef (τ := τ) .tc (Pipeline.arrRef spec0 w)),
      cast (congrArg (fun b' : DevRef τ sig => b'.ty.Contents (Elt F)) e) (A w') = A w from this _ h.choose_spec
  intro w' e
  rcases arrRef0_cases w' w (Proc.devRef_injective _ e) with rfl | ⟨rfl, rfl⟩ | ⟨rfl, rfl⟩
  · rfl
  · exact h01
  · exact h01.symm

/-- A whole buffer at the full share is the same buffer at the two halves of the share. -/
theorem pointsTo_halves (ℓ : Loc nD τ sig) (f : Buf (Elt F) ℓ) :
    (ℓ ↦{fullShare} f : sProp 𝕄) = iprop((ℓ ↦{fullShare.left} f) ∗ (ℓ ↦{fullShare.right} f)) :=
  BI.Entails.antisymm (pointsTo_share (PosShare.mem_left_op_right fullShare)).1 (pointsTo_share (PosShare.mem_left_op_right fullShare)).2

/-- The proof data's holding of the arrays, at contents read off one valuation of the buffers, is the five distinct
    buffers whole at that valuation: the two halves of the embeddings joined. -/
theorem arrays_arrBufs (c : Dev nD) (Fw : (w : Fin cfg0.W) → Buf (Elt F) ((cfg0.win w).arr.view.loc (c.tc : Thread nD τ)))
    (Vb : (b : Ref sig .tc) → Buf (Elt F) ((c.tc : Thread nD τ).loc b)) (hF : ∀ w, Fw w = Vb (Pipeline.arrRef spec0 w)) :
    ((dats m 0 c).arrays Fw : sProp 𝕄) = Pipeline.arrBufs spec0 c Vb := by
  rw [arrays0_eq, arrBufs0_eq, hF 0, hF 1, hF 2, hF 3, hF 4, hF 5, pointsTo_halves ((c.tc : Thread nD τ).loc main_arg0) (Vb main_arg0)]
  refine Eq.symm (BI.Entails.antisymm ?_ ?_)
  · exact _root_.Idealize.SL.BI.sep_assoc
  · exact _root_.Idealize.SL.BI.sep_assoc'

/-- At the region's entry: the five buffers behind the arrays, whole, are dealt to the six windows. -/
theorem hsplit0 (c : Dev nD) :
    (Pipeline.arrBufs spec0 c (V m c) : sProp 𝕄) ⊢ (dats m 0 c).arrays ((dats m 0 c).arrAt · 0) :=
  Entails.of_eq (arrays_arrBufs m c _ (V m c) fun w => A_eq m c w).symm

/-- The two windows on the embeddings end at the same contents: an input's array is never written back. -/
theorem arrAt_01 (c : Dev nD) (n : ℕ) : (dats m 0 c).arrAt 0 n = (dats m 0 c).arrAt 1 n :=
  ((dats m 0 c).arrAt_in 0 rfl n).trans (((A_eq m c 0).trans (A_eq m c 1).symm).trans ((dats m 0 c).arrAt_in 1 rfl n).symm)

/-- At the region's exit, with the arrays at any contents `A` on which the two windows on the embeddings agree: the
    buffers the later operations may touch, held at the exit valuation, are the proof data's arrays and the bypassing buffers. -/
theorem held_exit (c : Dev nD) (A : (w : Fin 6) → Buf (Elt F) ((spec0 w).arr.view.loc (c.tc : Thread nD τ))) (h01 : A 0 = A 1) :
    (StableHlo.held (c.tc : Thread nD τ) (Pipeline.tailRefs sig Pipeline.Prefetch.none spec0) (Pipeline.withArrays spec0 c (V0 m c) A) : sProp 𝕄)
      = iprop((dats m 0 c).arrays A
          ∗ Pipeline.unscopedRestP Pipeline.Prefetch.none spec0 c (fun b => V0 m c (Proc.devRef .tc b))) := by
  rw [held_tail0, arrays_arrBufs m c A (fun b => Pipeline.withArrays spec0 c (V0 m c) A (Proc.devRef .tc b))
    (fun w => (withArrays_arr0 c (V0 m c) A h01 w).symm)]
  refine congrArg (fun X : sProp 𝕄 => iprop(Pipeline.arrBufs spec0 c (fun b => Pipeline.withArrays spec0 c (V0 m c) A (Proc.devRef .tc b)) ∗ X)) ?_
  unfold Pipeline.unscopedRestP
  exact bigSep_congr fun b hb => by
    beta_reduce
    rw [Pipeline.withArrays_of_ne spec0 c (V0 m c) A b fun w e => (Finset.mem_sdiff.mp (Finset.mem_sdiff.mp hb).1).2
      (Finset.mem_image.mpr ⟨w, Finset.mem_univ _, e⟩)]

/-- The same after the later operations, which write no array. -/
theorem held_after (c : Dev nD) (A : (w : Fin 6) → Buf (Elt F) ((spec0 w).arr.view.loc (c.tc : Thread nD τ))) (h01 : A 0 = A 1) :
    (StableHlo.held (c.tc : Thread nD τ) (Pipeline.tailRefs sig Pipeline.Prefetch.none spec0)
        (StableHlo.after (tailOps (F := F)).flatten (Pipeline.withArrays spec0 c (V0 m c) A)) : sProp 𝕄)
      = iprop((dats m 0 c).arrays A
          ∗ Pipeline.unscopedRestP Pipeline.Prefetch.none spec0 c
              (fun b => StableHlo.after (tailOps (F := F)).flatten (Pipeline.withArrays spec0 c (V0 m c) A) (Proc.devRef .tc b))) := by
  have hk : ∀ w, A w = StableHlo.after (tailOps (F := F)).flatten (Pipeline.withArrays spec0 c (V0 m c) A) (Proc.devRef .tc (Pipeline.arrRef spec0 w)) := fun w => by
    rw [StableHlo.after_of_forall_not_mem (tailOps (F := F)).flatten (Pipeline.withArrays spec0 c (V0 m c) A) fun op hop => ?_, withArrays_arr0 c (V0 m c) A h01 w]
    obtain ⟨ops, hops, hop⟩ := List.mem_flatten.mp hop
    exact sfx_keeps ops hops op hop w
  rw [held_tail0, arrays_arrBufs m c A (fun b => StableHlo.after (tailOps (F := F)).flatten (Pipeline.withArrays spec0 c (V0 m c) A) (Proc.devRef .tc b)) hk]

set_option backward.isDefEq.respectTransparency.types false in
/-- The host operations after the region, from any exit contents `A` of the arrays on which the two windows on the
    embeddings agree: the two halves of the embeddings are joined, the operations run within whole buffers, writing no
    array, and the halves are dealt again. -/
theorem tail_run (c : Dev nD) (A : (w : Fin 6) → Buf (Elt F) ((spec0 w).arr.view.loc (c.tc : Thread nD τ))) (h01 : A 0 = A 1)
    (Q' : PUnit → sProp 𝕄) :
    iprop((iprop((dats m 0 c).arrays A
              ∗ Pipeline.unscopedRestP Pipeline.Prefetch.none spec0 c
                  (fun b => StableHlo.after (tailOps (F := F)).flatten (Pipeline.withArrays spec0 c (V0 m c) A) (Proc.devRef .tc b))) -∗ Q' ⟨⟩)
        ∗ boundary (c.tc : Thread nD τ) ∗ (dats m 0 c).arrays A
        ∗ Pipeline.unscopedRestP Pipeline.Prefetch.none spec0 c (fun b => V0 m c (Proc.devRef .tc b)))
      ⊢ wp frame (wpE (Pipeline.defs (fun q => (cfgs q).toPCfg (Val := Elt F)) defs₀) (Variants.lift Variants.none) (c.tc : Thread nD τ) none) Set.univ
          (Pipeline.chain ((tailOps (F := F)).map StableHlo.seq)) Q' := by
  rw [← List.append_nil ((tailOps (F := F)).map StableHlo.seq), ← held_exit m c A h01]
  iintro ⟨Hk, Hb⟩
  iapply (Pipeline.wp_seqs_then (fun q => (cfgs q).toPCfg (Val := Elt F)) defs₀ Variants.none c (Pipeline.tailRefs sig Pipeline.Prefetch.none spec0) [] tailOps sfx_sub sfx_fresh
    (Pipeline.withArrays spec0 c (V0 m c) A)) $$ Hb
  iintro Hb
  rw [Pipeline.chain_nil, wp_pure, held_after m c A h01]
  imodintro
  iapply Hk
  icases Hb with ⟨-, H⟩
  iexact H

/-- The same at what the proof data hold after the last point. -/
theorem htail0 (c : Dev nD) (Q' : PUnit → sProp 𝕄) :
    iprop((iprop((dats m 0 c).arrays ((dats m 0 c).arrAt · cfg0.N)
              ∗ Pipeline.unscopedRestP Pipeline.Prefetch.none spec0 c (Pipeline.afterTail₀ cfgs (dats m) 0 (V0 m) tailOps c)) -∗ Q' ⟨⟩)
        ∗ boundary (c.tc : Thread nD τ) ∗ (dats m 0 c).arrays ((dats m 0 c).arrAt · cfg0.N)
        ∗ Pipeline.unscopedRestP Pipeline.Prefetch.none spec0 c (fun b => V0 m c (Proc.devRef .tc b)))
      ⊢ wp frame (wpE (Pipeline.defs (fun q => (cfgs q).toPCfg (Val := Elt F)) defs₀) (Variants.lift Variants.none) (c.tc : Thread nD τ) none) Set.univ
          (Pipeline.chain ((tailOps (F := F)).map StableHlo.seq)) Q' :=
  tail_run m c (fun w => (dats m 0 c).arrAt w cfg0.N) (arrAt_01 m c cfg0.N) Q'

/-! ## The run -/

set_option backward.isDefEq.respectTransparency.types false in
/-- At the compiled mesh, for any values, from any memory with zero counters: every weakly fair execution of the program on
    the TensorCores terminates, and every final state has every array of the pipeline at what the proof data compute and
    every other unscoped buffer as the operations after the region leave it. -/
theorem run_main (hbody : ∀ c : Dev nD, BodyObligation (dats (F := F) m 0 c) (defs₀ (F := F)) Variants.none () Set.univ) :
    θ_run defs (onTc (τ := τ) (main (F := F))) (s₀ m ρ)
      (Pipeline.FramePost cfgs (dats m) 0 (Pipeline.afterTail₀ cfgs (dats m) 0 (V0 m) tailOps)) := by
  classical
  exact Pipeline.θ_run_region_pf_tail (fun q => (cfgs q).toPCfg (Val := Elt F)) (fun q => (cfgs q).toPCfg_adm) (dats m) () cellOf_inj (0 : Fin 1)
    winFacts₀0 (Pipeline.OwnSemFacts.none spec0) (Pipeline.PreFacts.none spec0) emb₁ defs₀ Variants.none m ρ main
    (fun _ => Pipeline.chain ((tailOps (F := F)).map StableHlo.seq)) (fun c => (hbody c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := fun c b => V0 m c (Proc.devRef .tc b)) (hmain := hmain0 m Variants.none)
    (hsplit := hsplit0 m)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (fun b => V0 m c (Proc.devRef .tc b)))
    (Z' := fun c => Pipeline.unscopedRestP (Ix := Unit) (Name := ℕ) (U := UR sig nD τ) (Lvl := ℕ) Pipeline.Prefetch.none spec0 c (Pipeline.afterTail₀ cfgs (dats m) 0 (V0 m) tailOps c))
    (hX := fun c => by
      iintro ⟨HU, -, -, -, Hp, -⟩; imodintro
      isplitl [Hp]; · iexists _; iexact Hp
      iexact HU)
    (hin := fun c => (show _ ⊢ Pipeline.ΦA spec0 c from by
      unfold Pipeline.ΦA; iintro ⟨Hp, -, Hr⟩
      isplitl [Hr] <;> iassumption).trans (hin m c))
    (hout := fun c => (hout m c).trans (by
      rw [Pipeline.ownSems0_none]; unfold Pipeline.ΦA
      iintro ⟨Hr, Hp⟩
      isplitl [Hp]; · iexact Hp
      isplitr; · iempintro
      iexact Hr))
    (htail := htail0 m)
    (QY := fun c s => ∀ b ∈ Pipeline.restRefsP sig Pipeline.Prefetch.none spec0, s.mem ((c.tc : Thread nD τ).loc b) = Pipeline.afterTail₀ cfgs (dats m) 0 (V0 m) tailOps c b)
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b) (Pipeline.afterTail₀ cfgs (dats m) 0 (V0 m) tailOps c) s')
      isplitl [HU] <;> iassumption)
    (hQ := fun s h c => ⟨(h c).1, Pipeline.rest_of_restP Pipeline.Prefetch.none spec0 _ c (Pipeline.afterTail₀ cfgs (dats m) 0 (V0 m) tailOps c) s (fun k => k.elim0) (h c).2.1 (h c).2.2⟩)

/-! ## The argument arrays end unchanged -/

/-- No operation after the region writes an argument of the program: each writes only its own result buffer. -/
theorem tail_keeps : ∀ ops ∈ (tailOps : List (List (HloOp τ sig (Elt F)))), ∀ op ∈ ops,
    ∀ b ∈ ([main_arg0, main_arg1, main_arg2] : List (Ref sig .tc)), Proc.devRef .tc b ∉ op.writes := by
  intro ops hops op hop
  simp only [List.mem_cons, List.mem_nil_iff, or_false] at hops
  rcases hops with rfl | rfl | rfl
  · simp only [hostOps1, List.mem_cons, List.mem_nil_iff, or_false] at hop
    rcases hop with rfl | rfl | rfl | rfl | rfl
    all_goals intro b hb; simp only [List.mem_cons, List.mem_nil_iff, or_false] at hb; rcases hb with rfl | rfl | rfl <;> simp only [StableHlo.nullary_writes, StableHlo.unary_writes, StableHlo.binary_writes, StableHlo.reshape_writes, Finset.mem_singleton] <;> exact StableHlo.devRef_ne_of_ne (by decide)
  · simp only [hostOps1_1, List.mem_cons, List.mem_nil_iff, or_false] at hop
    rcases hop with rfl | rfl | rfl
    all_goals intro b hb; simp only [List.mem_cons, List.mem_nil_iff, or_false] at hb; rcases hb with rfl | rfl | rfl <;> simp only [StableHlo.TRef.nullary, StableHlo.TRef.unary, StableHlo.TRef.binary, StableHlo.nullary_writes, StableHlo.unary_writes, StableHlo.binary_writes, StableHlo.reshape_writes, Finset.mem_singleton] <;> exact StableHlo.devRef_ne_of_ne (by decide)
  · simp only [hostOps1_2, List.mem_cons, List.mem_nil_iff, or_false] at hop
    rcases hop with rfl | rfl | rfl | rfl
    all_goals intro b hb; simp only [List.mem_cons, List.mem_nil_iff, or_false] at hb; rcases hb with rfl | rfl | rfl <;> simp only [StableHlo.nullary_writes, StableHlo.unary_writes, StableHlo.binary_writes, StableHlo.reshape_writes, Finset.mem_singleton] <;> exact StableHlo.devRef_ne_of_ne (by decide)

/-- Nor does a reshape of the labels before the region. -/
theorem head_keeps : ∀ op ∈ (hostOps0 : List (HloOp τ sig (Elt F))),
    ∀ b ∈ ([main_arg0, main_arg1, main_arg2] : List (Ref sig .tc)), Proc.devRef .tc b ∉ op.writes := by
  intro op hop
  simp only [hostOps0, List.mem_cons, List.mem_nil_iff, or_false] at hop
  rcases hop with rfl | rfl
  all_goals intro b hb; simp only [List.mem_cons, List.mem_nil_iff, or_false] at hb; rcases hb with rfl | rfl | rfl <;> simp only [StableHlo.reshape_writes, Finset.mem_singleton] <;> exact StableHlo.devRef_ne_of_ne (by decide)

/-- An argument of the program is, when the region is entered, as the launch found it. -/
theorem V0_arg (c : Dev nD) (b : Ref sig .tc) (hb : b ∈ ([main_arg0, main_arg1, main_arg2] : List (Ref sig .tc))) :
    V0 m c (Proc.devRef .tc b) = m ((c.tc : Thread nD τ).loc b) := by
  show StableHlo.after (List.flatten [hostOps0]) (fun b => m (c, b)) (Proc.devRef .tc b) = _
  rw [StableHlo.after_of_forall_not_mem _ _ fun op hop => ?_]
  rw [List.flatten_cons, List.flatten_nil, List.append_nil] at hop
  exact head_keeps op hop b hb

/-- A bypassing argument of the program is, after the operations that follow the region, as the launch found it. -/
theorem afterTail_arg (c : Dev nD) (b : Ref sig .tc) (hb : b ∈ ([main_arg0, main_arg1, main_arg2] : List (Ref sig .tc)))
    (hne : ∀ w, Pipeline.arrRef spec0 w ≠ b) :
    Pipeline.afterTail₀ cfgs (dats m) 0 (V0 m) tailOps c b = m ((c.tc : Thread nD τ).loc b) := by
  unfold Pipeline.afterTail₀
  rw [StableHlo.after_of_forall_not_mem _ _ fun op hop => ?_, Pipeline.withArrays_of_ne _ c (V0 m c) _ b hne, V0_arg m c b hb]
  obtain ⟨ops, hops, hop⟩ := List.mem_flatten.mp hop
  exact tail_keeps ops hops op hop b hb

/-- From the run's post: the three arguments of the program end as the launch found them. The embeddings are an input
    window's array, never written back; the labels and the margin bypass the region and no host operation writes them. -/
theorem framePost_args (r : PUnit × MemSt nD τ sig (Elt F))
    (h : Pipeline.FramePost cfgs (dats m) 0 (Pipeline.afterTail₀ cfgs (dats m) 0 (V0 m) tailOps) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine ⟨?_, ?_, ?_⟩
  · exact ((h c).1 0).trans (((dats m 0 c).arrAt_in 0 rfl _).trans ((A_eq m c 0).trans (V0_arg m c main_arg0 (by simp))))
  · exact ((h c).2 main_arg1 (Pipeline.mem_restRefs_of main_arg1 rfl (by decide))).trans (afterTail_arg m c main_arg1 (by simp) (by decide))
  · exact ((h c).2 main_arg2 (Pipeline.mem_restRefs_of main_arg2 rfl (by decide))).trans (afterTail_arg m c main_arg2 (by simp) (by decide))

/-- THE FRAME of the program: it runs, and its three arguments end unchanged. -/
theorem frame_ki (hbody : ∀ c : Dev nD, BodyObligation (dats (F := F) m 0 c) (defs₀ (F := F)) Variants.none () Set.univ) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => framePost_args m r h c) (run_main m ρ hbody)

end Cert.KernelIdeal.Hand

end
-- ==== Proof.K.Base.lean ====
/-
  What every part of the word-level kernel's frame and value proof is stated over.
  The grid has 8 × 16 points, numbered row-major: point t is row block t / 16 and column block t % 16.
  At each point the body sees a block of 1024 rows of the embeddings (window 0) with their labels (window 2),
  and a block of 512 rows of the same embeddings read as columns of the distance matrix (window 1) with
  their labels (window 3). Two scratch buffers carry, between the points of one row block, the running maximum of the
  masked distances (positives) and the running minimum of the penalised distances (negatives); they are reset at
  column block 0 and copied to the two outputs (windows 4 and 5) at column block 15.
-/
import proofs.«111471_j80668075754103_1_alg».proof.Proof.Gen.Kernel.Launch
import proofs.«111471_j80668075754103_1_alg».proof.Proof.Gen.Kernel.Skeleton
import proofs.«111471_j80668075754103_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers as the region finds them -/

/-- Core `c`'s buffer contents when the region is entered: the launch memory after the two reshapes of the labels. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The two conditions of the body, over the grid -/

/-- "This is column block 0": the accumulators are reset. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)

/-- "This is column block 15": the accumulators are copied out. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-! ## The memrefs the body is called with -/

abbrev ms0_0 (t : Fin cfg0.N) : Memref sig .tc .vmem S1024x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x1 .f32 := win0_5.stage (cfg0.slots t 5)
abbrev hs0_5 (t : Fin cfg0.N) : (ms0_5 t).IsWhole := hstage0_5 ((cfg0.slots t 5).cast nbuf0_5)
/-- The two accumulators: whole scoped buffers of the kernel's own. -/
abbrev scM0_0 : Memref sig .tc .vmem S1024x1 .f32 := Memref.whole cc0_scratch0
abbrev scM0_1 : Memref sig .tc .vmem S1024x1 .f32 := Memref.whole cc0_scratch1

/-! ## What the accumulators hold after each point -/

/-- One point's update of the two accumulators `(a8, a9)`, as the body's payloads over the point's four input blocks:
    the running maximum of the masked distances and the running minimum of the penalised distances. -/
def accStep (i : grid0.Coords) (x0 : Vec F S1024x128 .f32) (x1 : Vec F S512x128 .f32) (x2 : Vec F S1024x1 .i32) (x3 : Vec F S1x512 .i32)
    (a : Vec F S1024x1 .f32 × Vec F S1024x1 .f32) : Vec F S1024x1 .f32 × Vec F S1024x1 .f32 :=
  (k0_pay2 (k0_pay6 x0 x1) (k0_pay7 i) x2 x3 a.1, k0_pay3 (k0_pay6 x0 x1) x2 x3 a.2)

/-- The accumulators after the body at position `n`: at column block 0 the update of the reset values (zero and +inf),
    otherwise the update of what the point before left. -/
def accAt (c : Dev nD) : (n : ℕ) → n < cfg0.N → Vec F S1024x1 .f32 × Vec F S1024x1 .f32
  | 0, hn => accStep (grid0.coords ⟨0, hn⟩) (iblk m c 0 ⟨0, hn⟩) (iblk m c 1 ⟨0, hn⟩) (iblk m c 2 ⟨0, hn⟩) (iblk m c 3 ⟨0, hn⟩) (k0_pay4, k0_pay5)
  | n + 1, hn =>
    if (n + 1) % 16 = 0 then
      accStep (grid0.coords ⟨n + 1, hn⟩) (iblk m c 0 ⟨n + 1, hn⟩) (iblk m c 1 ⟨n + 1, hn⟩) (iblk m c 2 ⟨n + 1, hn⟩) (iblk m c 3 ⟨n + 1, hn⟩) (k0_pay4, k0_pay5)
    else
      accStep (grid0.coords ⟨n + 1, hn⟩) (iblk m c 0 ⟨n + 1, hn⟩) (iblk m c 1 ⟨n + 1, hn⟩) (iblk m c 2 ⟨n + 1, hn⟩) (iblk m c 3 ⟨n + 1, hn⟩) (accAt c n (Nat.lt_of_succ_lt hn))

/-- At column block 0: the update of the reset values. -/
theorem accAt_reset (c : Dev nD) (t : Fin cfg0.N) (h0 : t.val % 16 = 0) :
    accAt m c t.val t.isLt = accStep (grid0.coords t) (iblk m c 0 t) (iblk m c 1 t) (iblk m c 2 t) (iblk m c 3 t) (k0_pay4, k0_pay5) := by
  obtain ⟨n, hn⟩ := t
  cases n with
  | zero => rfl
  | succ n => exact (if_pos h0).trans rfl

/-- At any later column block: the update of what the point before left. -/
theorem accAt_step (c : Dev nD) (t : Fin cfg0.N) (h0 : ¬ t.val % 16 = 0) :
    accAt m c t.val t.isLt = accStep (grid0.coords t) (iblk m c 0 t) (iblk m c 1 t) (iblk m c 2 t) (iblk m c 3 t)
      (accAt m c (t.val - 1) (Nat.lt_of_le_of_lt (Nat.sub_le _ _) t.isLt)) := by
  obtain ⟨n, hn⟩ := t
  cases n with
  | zero => exact absurd (Nat.zero_mod _) h0
  | succ n => exact (if_neg h0).trans rfl

/-! ## The class's invariant with the accumulators as memrefs -/

/-- Before the first point: both accumulators at anything, the generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Hand

end
-- ==== Proof.K.Dats.lean ====
/-
  The proof data of the one pipeline. Every input window's staging buffer holds the window's block of its array at every
  point (the body never stores into an input). The two outputs' staging buffers are written only at column block 15,
  where each receives the accumulator's value; elsewhere they are idle. Between points the invariant holds both
  accumulators at what the point before left in them. The embeddings array is read through two windows (as rows and
  as columns), so each of the two holds one half of its share; every other array is held whole.
-/
import proofs.«111471_j80668075754103_1_alg».proof.Proof.K.Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The region invariant before position `n`: before the first point both accumulators at anything; afterwards each at
    what the point before left in it. The generator register at some state throughout. -/
def PhiS (c : Dev nD) : (n : ℕ) → n ≤ cfg0.N → sProp 𝕄
  | 0, _ => Pipeline.ΦA spec0 c
  | n + 1, hn => iprop(iprop(owns (c : Thread nD τ) scM0_0 fullShare ((accAt m c n hn).1) ∗ owns (c : Thread nD τ) scM0_1 fullShare ((accAt m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((accAt m c n hn).1) ∗ owns (c : Thread nD τ) scM0_1 fullShare ((accAt m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((accAt m c (n - 1) (by omega)).1) ∗ owns (c : Thread nD τ) scM0_1 fullShare ((accAt m c (n - 1) (by omega)).2)) ∗ (∃ r, prngReg c r)) := by
  cases n with
  | zero => exact absurd rfl hz
  | succ n => rfl

/-- The proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (accAt m c t.val t.isLt).1
    | ⟨5, _⟩ => (accAt m c t.val t.isLt).2
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (accAt m c t.val t.isLt).1 := by dsimp only [dats]
theorem after0_5 (c : Dev nD) (t : Fin cfg0.N) : (dats m 0 c).after 5 t = (accAt m c t.val t.isLt).2 := by dsimp only [dats]

theorem q0_0 (c : Dev nD) : (dats m 0 c).q 0 = fullShare.left := by dsimp only [dats]
theorem q0_1 (c : Dev nD) : (dats m 0 c).q 1 = fullShare.right := by dsimp only [dats]
theorem q0_2 (c : Dev nD) : (dats m 0 c).q 2 = fullShare := by dsimp only [dats]
theorem q0_3 (c : Dev nD) : (dats m 0 c).q 3 = fullShare := by dsimp only [dats]

theorem owed_zero (c : Dev nD) (t : Fin (cfg0.N + 1)) : (dats m 0 c).owed t = 0 := rfl

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the class's back: the accumulators' named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    · iexists _; iexact HS1
  iexact Hg

theorem hout (c : Dev nD) : (dats m 0 c).Φ (Fin.last cfg0.N) ⊢ Pipeline.ΦA spec0 c :=
  Phi_out m c _ (by rw [Fin.val_last]; have : cfg0.N = 128 := N_0; omega)

end Cert.Kernel.Hand

end
-- ==== Proof.K.RunB.lean ====
/-
  The body at a point that is neither the first nor the last column block of its row block. Both accumulators are
  read, updated with the point's tile of distances and stored back whole; the four input blocks and the two output
  buffers are handed back as they were found.
-/
import proofs.«111471_j80668075754103_1_alg».proof.Proof.K.Dats
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## Whole-buffer loads and stores read back -/

theorem hz2 : (![0, 0] : Fin 2 → Nat) = fun _ => 0 := funext fun a => by fin_cases a <;> rfl

/-- A load of the whole of a whole memref held at `x` reads `x`. -/
theorem load_whole_unread {s : Shape} {e : EltTy} (mr : Memref sig .tc .vmem s e) (h : mr.IsWhole) {off : Fin s.rank → Nat}
    (hoff : off = fun _ => 0) (inb : ∀ a, off a + s.size a ≤ s.size a) (x : s.Idx → Elt F e) :
    mr.view.readAt (Elt F) (Rect.unit off s.size inb).toLoadRect (h.unread x) = x := by
  rw [View.readAt_eq_ld, h.read_unread, View.ld_unit_zero hoff]

/-- After a store of the whole buffer, made last, the buffer reads as the stored value, whatever was stored before. -/
theorem read_store_whole {s : Shape} {e : EltTy} (v : View sig .tc .vmem s e) (f : v.ty.Contents (Elt F)) {off : Fin s.rank → Nat}
    (hoff : off = fun _ => 0) (inb : ∀ a, off a + s.size a ≤ s.size a) (w : s.Idx → Elt F e) (L : List (View.Piece (Elt F) s e)) :
    v.read (Elt F) (v.writes (Elt F) f ((⟨Rect.unit off s.size inb, w⟩ : View.Piece (Elt F) s e) :: L)) = w := by
  rw [View.read_writes_eq_canon _ _ _ (fun y => ⟨_, List.mem_cons_self, View.mem_set_unit_zero hoff inb y⟩), View.canon_cons_unit_zero hoff]

set_option maxHeartbeats 1000000 in
/-- The body at a point that is neither the first nor the last column block of its row block: both accumulators updated from what they held, nothing else changed. -/
theorem kernelRun0_B (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i)
    (x0 : Vec F S1024x128 .f32) (x1 : Vec F S512x128 .f32) (x2 : Vec F S1024x1 .i32) (x3 : Vec F S1x512 .i32) (a8 a9 xi4 xi5 : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xi4 ∗ owns (c : Thread nD τ) arg7 fullShare xi5
        ∗ owns (c : Thread nD τ) arg8 fullShare a8 ∗ owns (c : Thread nD τ) arg9 fullShare a9
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ owns (c : Thread nD τ) arg7 fullShare xi5
            ∗ owns (c : Thread nD τ) arg8 fullShare (accStep i x0 x1 x2 x3 (a8, a9)).1 ∗ owns (c : Thread nD τ) arg9 fullShare (accStep i x0 x1 x2 x3 (a8, a9)).2) -∗ K ⟨⟩))
      ⊢ wp frame (wpE (defs₀ (F := F)) Variants.none c none) E (cc0__triplet_kernel i arg2 harg2 arg3 harg3 arg4 harg4 arg5 harg5 arg6 harg6 arg7 harg7 arg8 harg8 arg9 harg9) K := by
  simp only [cc0__triplet_kernel_eq_skeleton]; unfold cc0__triplet_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f8, %hf8, H8⟩, ⟨%f9, %hf9, H9⟩, Hk⟩
  obtain rfl := harg2.eq_unread hf0; obtain rfl := harg3.eq_unread hf1; obtain rfl := harg4.eq_unread hf2; obtain rfl := harg5.eq_unread hf3
  obtain rfl := harg8.eq_unread hf8; obtain rfl := harg9.eq_unread hf9
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact hf4
    iexact H4
  isplitl [H5]
  · iexists _; isplitr; · ipureintro; exact hf5
    iexact H5
  isplitl [H8]
  · iexists _; isplitr
    swap; · iexact H8
    ipureintro
    rw [read_store_whole _ _ hz2]
    simp only [load_whole_unread (s := S1024x128) _ _ hz2, load_whole_unread (s := S512x128) _ _ hz2, load_whole_unread (s := S1024x1) _ _ hz2, load_whole_unread (s := S1x512) _ _ hz2]
    rfl
  · iexists _; isplitr
    swap; · iexact H9
    ipureintro
    rw [read_store_whole _ _ hz2]
    simp only [load_whole_unread (s := S1024x128) _ _ hz2, load_whole_unread (s := S512x128) _ _ hz2, load_whole_unread (s := S1024x1) _ _ hz2, load_whole_unread (s := S1x512) _ _ hz2]
    rfl

end Cert.Kernel.Hand

end
-- ==== Proof.K.RunA.lean ====
/-
  The body at the first column block of a row block. The accumulators are first reset — the maximum to zero, the minimum
  to +inf — whatever they held; every later load of an accumulator reads what was last stored into it, so the update is
  that of the reset values. The inputs and the two output buffers are handed back as they were found.
-/
import proofs.«111471_j80668075754103_1_alg».proof.Proof.K.RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body at the first column block of a row block: the accumulators are reset (to zero and to +inf) whatever they held, then updated. -/
theorem kernelRun0_A (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i)
    (x0 : Vec F S1024x128 .f32) (x1 : Vec F S512x128 .f32) (x2 : Vec F S1024x1 .i32) (x3 : Vec F S1x512 .i32) (xi4 xi5 : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xi4 ∗ owns (c : Thread nD τ) arg7 fullShare xi5
        ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ owns (c : Thread nD τ) arg7 fullShare xi5
            ∗ owns (c : Thread nD τ) arg8 fullShare (accStep i x0 x1 x2 x3 (k0_pay4, k0_pay5)).1 ∗ owns (c : Thread nD τ) arg9 fullShare (accStep i x0 x1 x2 x3 (k0_pay4, k0_pay5)).2) -∗ K ⟨⟩))
      ⊢ wp frame (wpE (defs₀ (F := F)) Variants.none c none) E (cc0__triplet_kernel i arg2 harg2 arg3 harg3 arg4 harg4 arg5 harg5 arg6 harg6 arg7 harg7 arg8 harg8 arg9 harg9) K := by
  simp only [cc0__triplet_kernel_eq_skeleton]; unfold cc0__triplet_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d8, %f8, -, H8⟩, ⟨%d9, %f9, -, H9⟩, Hk⟩
  obtain rfl := harg2.eq_unread hf0; obtain rfl := harg3.eq_unread hf1; obtain rfl := harg4.eq_unread hf2; obtain rfl := harg5.eq_unread hf3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact hf4
    iexact H4
  isplitl [H5]
  · iexists _; isplitr; · ipureintro; exact hf5
    iexact H5
  isplitl [H8]
  · iexists _; isplitr
    swap; · iexact H8
    ipureintro
    rw [read_store_whole _ _ hz2]
    sl_unfold_words
    rw [View.readCov_unit_zero (S := S1024x1) _ hz2]
    simp only [load_whole_unread (s := S1024x128) _ _ hz2, load_whole_unread (s := S512x128) _ _ hz2, load_whole_unread (s := S1024x1) _ _ hz2, load_whole_unread (s := S1x512) _ _ hz2]
    rfl
  · iexists _; isplitr
    swap; · iexact H9
    ipureintro
    rw [read_store_whole _ _ hz2]
    sl_unfold_words
    rw [View.readCov_unit_zero (S := S1024x1) _ hz2]
    simp only [load_whole_unread (s := S1024x128) _ _ hz2, load_whole_unread (s := S512x128) _ _ hz2, load_whole_unread (s := S1024x1) _ _ hz2, load_whole_unread (s := S1x512) _ _ hz2]
    rfl

end Cert.Kernel.Hand

end
-- ==== Proof.K.RunC.lean ====
/-
  The body at the last column block of a row block. Both accumulators are updated from what they held and stored back
  whole; then each is loaded again — reading what was just stored — and stored whole into its output buffer, whatever
  that buffer held. The inputs are handed back as they were found.
-/
import proofs.«111471_j80668075754103_1_alg».proof.Proof.K.RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body at the last column block of a row block: both accumulators updated from what they held, and their new values copied to the two outputs. -/
theorem kernelRun0_C (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x128 .f32) (x1 : Vec F S512x128 .f32) (x2 : Vec F S1024x1 .i32) (x3 : Vec F S1x512 .i32) (a8 a9 : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ (∃ d, owns (c : Thread nD τ) arg7 fullShare d)
        ∗ owns (c : Thread nD τ) arg8 fullShare a8 ∗ owns (c : Thread nD τ) arg9 fullShare a9
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (accStep i x0 x1 x2 x3 (a8, a9)).1 ∗ owns (c : Thread nD τ) arg7 fullShare (accStep i x0 x1 x2 x3 (a8, a9)).2
            ∗ owns (c : Thread nD τ) arg8 fullShare (accStep i x0 x1 x2 x3 (a8, a9)).1 ∗ owns (c : Thread nD τ) arg9 fullShare (accStep i x0 x1 x2 x3 (a8, a9)).2) -∗ K ⟨⟩))
      ⊢ wp frame (wpE (defs₀ (F := F)) Variants.none c none) E (cc0__triplet_kernel i arg2 harg2 arg3 harg3 arg4 harg4 arg5 harg5 arg6 harg6 arg7 harg7 arg8 harg8 arg9 harg9) K := by
  simp only [cc0__triplet_kernel_eq_skeleton]; unfold cc0__triplet_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f8, %hf8, H8⟩, ⟨%f9, %hf9, H9⟩, Hk⟩
  obtain rfl := harg2.eq_unread hf0; obtain rfl := harg3.eq_unread hf1; obtain rfl := harg4.eq_unread hf2; obtain rfl := harg5.eq_unread hf3
  obtain rfl := harg8.eq_unread hf8; obtain rfl := harg9.eq_unread hf9
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    sl_unfold_words
    rw [read_store_whole _ _ hz2, View.readCov_unit_zero (S := S1024x1) _ hz2]
    simp only [load_whole_unread (s := S1024x128) _ _ hz2, load_whole_unread (s := S512x128) _ _ hz2, load_whole_unread (s := S1024x1) _ _ hz2, load_whole_unread (s := S1x512) _ _ hz2]
    rfl
  isplitl [H5]
  · iexists _; isplitr
    swap; · iexact H5
    ipureintro
    sl_unfold_words
    rw [read_store_whole _ _ hz2, View.readCov_unit_zero (S := S1024x1) _ hz2]
    simp only [load_whole_unread (s := S1024x128) _ _ hz2, load_whole_unread (s := S512x128) _ _ hz2, load_whole_unread (s := S1024x1) _ _ hz2, load_whole_unread (s := S1x512) _ _ hz2]
    rfl
  isplitl [H8]
  · iexists _; isplitr
    swap; · iexact H8
    ipureintro
    sl_unfold_words
    rw [read_store_whole _ _ hz2]
    simp only [load_whole_unread (s := S1024x128) _ _ hz2, load_whole_unread (s := S512x128) _ _ hz2, load_whole_unread (s := S1024x1) _ _ hz2, load_whole_unread (s := S1x512) _ _ hz2]
    rfl
  · iexists _; isplitr
    swap; · iexact H9
    ipureintro
    sl_unfold_words
    rw [read_store_whole _ _ hz2]
    simp only [load_whole_unread (s := S1024x128) _ _ hz2, load_whole_unread (s := S512x128) _ _ hz2, load_whole_unread (s := S1024x1) _ _ hz2, load_whole_unread (s := S1x512) _ _ hz2]
    rfl

end Cert.Kernel.Hand

end
-- ==== Proof.K.Body.lean ====
/-
  The body obligation of the one pipeline. Every input window's staging buffer holds its block at every point, fetched
  there or not. The two outputs' buffers are idle except at the last column block of a row block. At each point the
  body finds the accumulators as the invariant names them and leaves them at their update; by the point's place in
  its row block this is the reset-and-update, the plain update, or the update copied to the outputs.
-/
import proofs.«111471_j80668075754103_1_alg».proof.Proof.K.RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Every input's staging buffer holds its block at every point, fetched there or not -/

theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)

/-! ## Where the windows are idle -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
/-- Output 0's buffer is idle wherever the point is not the last column block of its row block, -/
theorem idleAt0_4 : ∀ t : Fin cfg0.N, ¬cond0_1 (grid0.coords t) → cfg0.idle 4 (grid0.coords t) = true := by decide +kernel
/-- is not written back there, -/
theorem noFlush0_4 : ∀ t : Fin cfg0.N, ¬cond0_1 (grid0.coords t) → (cfg0.win 4).flush t = false := by decide +kernel
/-- and is live at the last column block. -/
theorem liveAt0_4 : ∀ t : Fin cfg0.N, cond0_1 (grid0.coords t) → cfg0.idle 4 (grid0.coords t) = false := by decide +kernel
/-- Output 1's buffer is idle wherever the point is not the last column block of its row block, -/
theorem idleAt0_5 : ∀ t : Fin cfg0.N, ¬cond0_1 (grid0.coords t) → cfg0.idle 5 (grid0.coords t) = true := by decide +kernel
/-- is not written back there, -/
theorem noFlush0_5 : ∀ t : Fin cfg0.N, ¬cond0_1 (grid0.coords t) → (cfg0.win 5).flush t = false := by decide +kernel
/-- and is live at the last column block. -/
theorem liveAt0_5 : ∀ t : Fin cfg0.N, cond0_1 (grid0.coords t) → cfg0.idle 5 (grid0.coords t) = false := by decide +kernel

/-! ## The body obligation, at a generic point -/

/-- What the body is called with at point `t`: the invariant, nothing owed, and each window's current staging buffer. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

/-- The same, with the invariant after the point and the inputs' buffers spelt out. -/
def bodyPost' (c : Dev nD) (t : Fin cfg0.N) : sProp 𝕄 :=
  iprop(iprop(iprop(owns (c : Thread nD τ) scM0_0 fullShare ((accAt m c t.val t.isLt).1) ∗ owns (c : Thread nD τ) scM0_1 fullShare ((accAt m c t.val t.isLt).2)) ∗ (∃ r, prngReg c r))
    ∗ (dats m 0 c).owesAt () t.castSucc
    ∗ owns (c : Thread nD τ) (ms0_0 t) fullShare (iblk m c 0 t)
    ∗ owns (c : Thread nD τ) (ms0_1 t) fullShare (iblk m c 1 t)
    ∗ owns (c : Thread nD τ) (ms0_2 t) fullShare (iblk m c 2 t)
    ∗ owns (c : Thread nD τ) (ms0_3 t) fullShare (iblk m c 3 t)
    ∗ (dats m 0 c).leavesExact 4 t
    ∗ (dats m 0 c).leavesExact 5 t)

theorem bodyPost_eq (c : Dev nD) (t : Fin cfg0.N) : bodyPost m c t = bodyPost' m c t := by
  unfold bodyPost bodyPost'
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]

set_option maxHeartbeats 1600000 in
/-- At the first column block of a row block: the accumulators are found at anything — the class's invariant before the
    grid's first point, what the row block before left afterwards — and left at the update of the reset values. -/
theorem sound_A (c : Dev nD) (t : Fin cfg0.N) (h0 : t.val % 16 = 0) (h1 : ¬t.val % 16 = 15) :
    bodyPre m c t ⊢ wp frame (wpE (defs₀ (F := F)) Variants.none c none) Set.univ (bodyAt0 t) (fun _ => bodyPost' m c t) := by
  have hc0 : cond0_0 (grid0.coords t) := (hcond0_0 t).mpr h0
  have hc1 : ¬cond0_1 (grid0.coords t) := fun h => h1 ((hcond0_1 t).mp h)
  unfold bodyPre bodyPost' bodyAt0
  simp only [before0_0, before0_1, before0_2, before0_3]
  rw [Dat.leavesExact_idle (dats m 0 c) 4 t (idleAt0_4 t hc1) (noFlush0_4 t hc1)]
  rw [Dat.leavesExact_idle (dats m 0 c) 5 t (idleAt0_5 t hc1) (noFlush0_5 t hc1)]
  rw [accAt_reset m c t h0]
  by_cases hz : t.val = 0
  · rw [PhiS_castSucc m c t, PhiS_zero m c _ _ hz, PhiA0_eq]
    iintro ⟨⟨⟨HS0, HS1⟩, Hg⟩, Ho, ⟨%d0, H0⟩, ⟨%d1, H1⟩, ⟨%d2, H2⟩, ⟨%d3, H3⟩, ⟨%d4, H4⟩, ⟨%d5, H5⟩⟩
    iapply (kernelRun0_A c (grid0.coords t) _ _ _ _ _ _ _ _ _ _ _ _ _ _ _ _ hc0 hc1 (iblk m c 0 t) (iblk m c 1 t) (iblk m c 2 t) (iblk m c 3 t) _ _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    iintro ⟨H0, H1, H2, H3, H4, H5, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexists _; iexact H4
    iexists _; iexact H5
  · rw [PhiS_castSucc m c t, PhiS_pos m c _ _ hz]
    iintro ⟨⟨⟨HS0, HS1⟩, Hg⟩, Ho, ⟨%d0, H0⟩, ⟨%d1, H1⟩, ⟨%d2, H2⟩, ⟨%d3, H3⟩, ⟨%d4, H4⟩, ⟨%d5, H5⟩⟩
    iapply (kernelRun0_A c (grid0.coords t) _ _ _ _ _ _ _ _ _ _ _ _ _ _ _ _ hc0 hc1 (iblk m c 0 t) (iblk m c 1 t) (iblk m c 2 t) (iblk m c 3 t) _ _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexists _; iexact HS0
    isplitl [HS1]; · iexists _; iexact HS1
    iintro ⟨H0, H1, H2, H3, H4, H5, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexists _; iexact H4
    iexists _; iexact H5

set_option maxHeartbeats 1600000 in
/-- At a column block that is neither the first nor the last of its row block: the accumulators are found at what the
    point before left and left at their update; the outputs' buffers are handed back untouched. -/
theorem sound_B (c : Dev nD) (t : Fin cfg0.N) (h0 : ¬t.val % 16 = 0) (h1 : ¬t.val % 16 = 15) :
    bodyPre m c t ⊢ wp frame (wpE (defs₀ (F := F)) Variants.none c none) Set.univ (bodyAt0 t) (fun _ => bodyPost' m c t) := by
  have hc0 : ¬cond0_0 (grid0.coords t) := fun h => h0 ((hcond0_0 t).mp h)
  have hc1 : ¬cond0_1 (grid0.coords t) := fun h => h1 ((hcond0_1 t).mp h)
  have hz : t.val ≠ 0 := fun h => h0 (by rw [h])
  unfold bodyPre bodyPost' bodyAt0
  simp only [before0_0, before0_1, before0_2, before0_3]
  rw [Dat.leavesExact_idle (dats m 0 c) 4 t (idleAt0_4 t hc1) (noFlush0_4 t hc1)]
  rw [Dat.leavesExact_idle (dats m 0 c) 5 t (idleAt0_5 t hc1) (noFlush0_5 t hc1)]
  rw [accAt_step m c t h0]
  rw [PhiS_castSucc m c t, PhiS_pos m c _ _ hz]
  iintro ⟨⟨⟨HS0, HS1⟩, Hg⟩, Ho, ⟨%d0, H0⟩, ⟨%d1, H1⟩, ⟨%d2, H2⟩, ⟨%d3, H3⟩, ⟨%d4, H4⟩, ⟨%d5, H5⟩⟩
  iapply (kernelRun0_B c (grid0.coords t) _ _ _ _ _ _ _ _ _ _ _ _ _ _ _ _ hc0 hc1 (iblk m c 0 t) (iblk m c 1 t) (iblk m c 2 t) (iblk m c 3 t) _ _ _ _ Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  iintro ⟨H0, H1, H2, H3, H4, H5, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexists _; iexact H4
  iexists _; iexact H5

set_option maxHeartbeats 1600000 in
/-- At the last column block of a row block: the accumulators are found at what the point before left and left at their
    update, which each output's buffer receives too. -/
theorem sound_C (c : Dev nD) (t : Fin cfg0.N) (h0 : ¬t.val % 16 = 0) (h1 : t.val % 16 = 15) :
    bodyPre m c t ⊢ wp frame (wpE (defs₀ (F := F)) Variants.none c none) Set.univ (bodyAt0 t) (fun _ => bodyPost' m c t) := by
  have hc0 : ¬cond0_0 (grid0.coords t) := fun h => h0 ((hcond0_0 t).mp h)
  have hc1 : cond0_1 (grid0.coords t) := (hcond0_1 t).mpr h1
  have hz : t.val ≠ 0 := fun h => h0 (by rw [h])
  unfold bodyPre bodyPost' bodyAt0
  simp only [before0_0, before0_1, before0_2, before0_3]
  rw [show (dats m 0 c).leavesExact 4 t = owns (c : Thread nD τ) (ms0_4 t) fullShare ((dats m 0 c).after 4 t) from by
    unfold Dat.leavesExact; rw [liveAt0_4 t hc1], after0_4]
  rw [show (dats m 0 c).leavesExact 5 t = owns (c : Thread nD τ) (ms0_5 t) fullShare ((dats m 0 c).after 5 t) from by
    unfold Dat.leavesExact; rw [liveAt0_5 t hc1], after0_5]
  rw [accAt_step m c t h0]
  rw [PhiS_castSucc m c t, PhiS_pos m c _ _ hz]
  iintro ⟨⟨⟨HS0, HS1⟩, Hg⟩, Ho, ⟨%d0, H0⟩, ⟨%d1, H1⟩, ⟨%d2, H2⟩, ⟨%d3, H3⟩, ⟨%d4, H4⟩, ⟨%d5, H5⟩⟩
  iapply (kernelRun0_C c (grid0.coords t) _ _ _ _ _ _ _ _ _ _ _ _ _ _ _ _ hc0 hc1 (iblk m c 0 t) (iblk m c 1 t) (iblk m c 2 t) (iblk m c 3 t) _ _ Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [HS0]; · iexact HS0
  isplitl [HS1]; · iexact HS1
  iintro ⟨H0, H1, H2, H3, H4, H5, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  iexact H5

/-- The body at any point, by its place in its row block. -/
theorem sound_body (c : Dev nD) (t : Fin cfg0.N) :
    bodyPre m c t ⊢ wp frame (wpE (defs₀ (F := F)) Variants.none c none) Set.univ (bodyAt0 t) (fun _ => bodyPost m c t) := by
  simp only [bodyPost_eq]
  by_cases h0 : t.val % 16 = 0
  · by_cases h1 : t.val % 16 = 15
    · exfalso; omega
    · exact sound_A m c t h0 h1
  · by_cases h1 : t.val % 16 = 15
    · exact sound_C m c t h0 h1
    · exact sound_B m c t h0 h1

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.K.Launch.lean ====
/-
  The launch of the idealized kernel: from the body obligation to the run of the whole program. The embeddings array is
  read through two windows, so the array's full share is dealt to them in halves at the region's entry and the halves are
  joined again at its exit; the host operations after the region then run within whole buffers.
-/
import proofs.«111471_j80668075754103_1_alg».proof.Proof.K.Dats

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The host operations after the region, stretch by stretch. -/
abbrev tailOps : List (List (HloOp τ sig (Elt F))) := [hostOps1, hostOps1_1, hostOps1_2]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

/-- The program is the two reshapes of the labels, the region, and the twelve host operations after it: it reduces to the
    region continued by those operations, at the contents the reshapes leave. -/
theorem hmain0 (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- The operations after the region touch unscoped buffers only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 winFacts₀0.arr_unscoped]
  intro ops hops op hop
  simp only [List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)

/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop

/-- And write no array of the pipeline: each writes only its own result buffer. -/
theorem sfx_keeps : ∀ ops ∈ (tailOps : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl
  · simp only [hostOps1, List.mem_cons, List.mem_nil_iff, or_false] at hop
    rcases hop with rfl | rfl | rfl | rfl | rfl
    all_goals intro w; fin_cases w <;> simp only [StableHlo.nullary_writes, StableHlo.unary_writes, StableHlo.binary_writes, StableHlo.reshape_writes, Finset.mem_singleton] <;> exact StableHlo.devRef_ne_of_ne (by decide)
  · simp only [hostOps1_1, List.mem_cons, List.mem_nil_iff, or_false] at hop
    rcases hop with rfl | rfl | rfl
    all_goals intro w; fin_cases w <;> simp only [StableHlo.TRef.nullary, StableHlo.TRef.unary, StableHlo.TRef.binary, StableHlo.nullary_writes, StableHlo.unary_writes, StableHlo.binary_writes, StableHlo.reshape_writes, Finset.mem_singleton] <;> exact StableHlo.devRef_ne_of_ne (by decide)
  · simp only [hostOps1_2, List.mem_cons, List.mem_nil_iff, or_false] at hop
    rcases hop with rfl | rfl | rfl | rfl
    all_goals intro w; fin_cases w <;> simp only [StableHlo.nullary_writes, StableHlo.unary_writes, StableHlo.binary_writes, StableHlo.reshape_writes, Finset.mem_singleton] <;> exact StableHlo.devRef_ne_of_ne (by decide)

/-- The five distinct buffers behind the six windows' arrays. -/
theorem arrImage0 : Finset.univ.image (Pipeline.arrRef spec0) = ([main_arg0, main_v0, main_v1, main_v2_0, main_v2_1] : List (Ref sig .tc)).toFinset := by decide

/-- The buffers behind the arrays, one by one. -/
theorem arrBufs0_eq (c : Dev nD) (Vb : (b : Ref sig .tc) → Buf (Elt F) ((c.tc : Thread nD τ).loc b)) :
    (Pipeline.arrBufs spec0 c Vb : sProp 𝕄)
      = iprop((((c.tc : Thread nD τ).loc main_arg0) ↦{fullShare} Vb main_arg0) ∗ (((c.tc : Thread nD τ).loc main_v0) ↦{fullShare} Vb main_v0)
          ∗ (((c.tc : Thread nD τ).loc main_v1) ↦{fullShare} Vb main_v1) ∗ (((c.tc : Thread nD τ).loc main_v2_0) ↦{fullShare} Vb main_v2_0)
          ∗ (((c.tc : Thread nD τ).loc main_v2_1) ↦{fullShare} Vb main_v2_1)) := by
  unfold Pipeline.arrBufs
  exact bigSep_eq_bigSepL_of_eq [main_arg0, main_v0, main_v1, main_v2_0, main_v2_1] arrImage0 (by decide) _

/-- The windows' arrays as the proof data hold them, one by one: the embeddings in two halves, the others whole. -/
theorem arrays0_eq (c : Dev nD) (Fw : (w : Fin cfg0.W) → Buf (Elt F) ((cfg0.win w).arr.view.loc (c.tc : Thread nD τ))) :
    ((dats m 0 c).arrays Fw : sProp 𝕄)
      = iprop((((c.tc : Thread nD τ).loc main_arg0) ↦{fullShare.left} Fw 0) ∗ (((c.tc : Thread nD τ).loc main_arg0) ↦{fullShare.right} Fw 1)
          ∗ (((c.tc : Thread nD τ).loc main_v0) ↦{fullShare} Fw 2) ∗ (((c.tc : Thread nD τ).loc main_v1) ↦{fullShare} Fw 3)
          ∗ (((c.tc : Thread nD τ).loc main_v2_0) ↦{fullShare} Fw 4) ∗ (((c.tc : Thread nD τ).loc main_v2_1) ↦{fullShare} Fw 5)) := by
  unfold Dat.arrays
  rw [bigSep_W0]
  rw [(arr_whole0 0).set_eq_univ, (arr_whole0 2).set_eq_univ, (arr_whole0 3).set_eq_univ, (arr_whole0 4).set_eq_univ, (arr_whole0 5).set_eq_univ]
  rfl

/-- Whatever the operations after the region may touch, held at a valuation: the buffers behind the arrays and the
    buffers that bypass the region, each at the valuation. No array is among the bypassing buffers. -/
theorem held_tail0 (c : Dev nD) (Wv : Valuation τ sig (Elt F)) :
    (StableHlo.held (c.tc : Thread nD τ) (Pipeline.tailRefs sig Pipeline.Prefetch.none spec0) Wv : sProp 𝕄)
      = iprop(Pipeline.arrBufs spec0 c (fun b => Wv (Proc.devRef .tc b))
          ∗ Pipeline.unscopedRestP Pipeline.Prefetch.none spec0 c (fun b => Wv (Proc.devRef .tc b))) := by
  classical
  have hdisj : Disjoint (Finset.univ.image (Pipeline.arrRef spec0)) (Pipeline.restRefsP sig Pipeline.Prefetch.none spec0) :=
    Finset.disjoint_left.mpr fun b hb hr => (Finset.mem_sdiff.mp (Finset.mem_sdiff.mp hr).1).2 hb
  unfold StableHlo.held Pipeline.tailRefs Pipeline.arrBufs Pipeline.unscopedRestP
  rw [bigSep_map, bigSep_union hdisj]
  rfl

/-- Two windows are on one array only if they are the same window or the two windows on the embeddings. -/
theorem arrRef0_cases : ∀ w' w : Fin 6, Pipeline.arrRef spec0 w' = Pipeline.arrRef spec0 w → (w' = w ∨ (w' = 0 ∧ w = 1) ∨ (w' = 1 ∧ w = 0)) := by decide

/-- Reading the arrays' contents back by reference: when the two windows on the embeddings agree, every window's array
    is read at that window's contents. -/
theorem withArrays_arr0 (c : Dev nD) (Vv : Valuation τ sig (Elt F))
    (A : (w : Fin 6) → Buf (Elt F) ((spec0 w).arr.view.loc (c.tc : Thread nD τ))) (h01 : A 0 = A 1) (w : Fin 6) :
    Pipeline.withArrays spec0 c Vv A (Proc.devRef .tc (Pipeline.arrRef spec0 w)) = A w := by
  unfold Pipeline.withArrays
  have h : ∃ w', Proc.devRef .tc (Pipeline.arrRef spec0 w') = Proc.devRef (τ := τ) .tc (Pipeline.arrRef spec0 w) := ⟨w, rfl⟩
  rw [dif_pos h]
  suffices ∀ (w' : Fin 6) (e : Proc.devRef .tc (Pipeline.arrRef spec0 w') = Proc.devRef (τ := τ) .tc (Pipeline.arrRef spec0 w)),
      cast (congrArg (fun b' : DevRef τ sig => b'.ty.Contents (Elt F)) e) (A w') = A w from this _ h.choose_spec
  intro w' e
  rcases arrRef0_cases w' w (Proc.devRef_injective _ e) with rfl | ⟨rfl, rfl⟩ | ⟨rfl, rfl⟩
  · rfl
  · exact h01
  · exact h01.symm

/-- A whole buffer at the full share is the same buffer at the two halves of the share. -/
theorem pointsTo_halves (ℓ : Loc nD τ sig) (f : Buf (Elt F) ℓ) :
    (ℓ ↦{fullShare} f : sProp 𝕄) = iprop((ℓ ↦{fullShare.left} f) ∗ (ℓ ↦{fullShare.right} f)) :=
  BI.Entails.antisymm (pointsTo_share (PosShare.mem_left_op_right fullShare)).1 (pointsTo_share (PosShare.mem_left_op_right fullShare)).2

/-- The proof data's holding of the arrays, at contents read off one valuation of the buffers, is the five distinct
    buffers whole at that valuation: the two halves of the embeddings joined. -/
theorem arrays_arrBufs (c : Dev nD) (Fw : (w : Fin cfg0.W) → Buf (Elt F) ((cfg0.win w).arr.view.loc (c.tc : Thread nD τ)))
    (Vb : (b : Ref sig .tc) → Buf (Elt F) ((c.tc : Thread nD τ).loc b)) (hF : ∀ w, Fw w = Vb (Pipeline.arrRef spec0 w)) :
    ((dats m 0 c).arrays Fw : sProp 𝕄) = Pipeline.arrBufs spec0 c Vb := by
  rw [arrays0_eq, arrBufs0_eq, hF 0, hF 1, hF 2, hF 3, hF 4, hF 5, pointsTo_halves ((c.tc : Thread nD τ).loc main_arg0) (Vb main_arg0)]
  refine Eq.symm (BI.Entails.antisymm ?_ ?_)
  · exact _root_.Idealize.SL.BI.sep_assoc
  · exact _root_.Idealize.SL.BI.sep_assoc'

/-- At the region's entry: the five buffers behind the arrays, whole, are dealt to the six windows. -/
theorem hsplit0 (c : Dev nD) :
    (Pipeline.arrBufs spec0 c (V m c) : sProp 𝕄) ⊢ (dats m 0 c).arrays ((dats m 0 c).arrAt · 0) :=
  Entails.of_eq (arrays_arrBufs m c _ (V m c) fun w => A_eq m c w).symm

/-- The two windows on the embeddings end at the same contents: an input's array is never written back. -/
theorem arrAt_01 (c : Dev nD) (n : ℕ) : (dats m 0 c).arrAt 0 n = (dats m 0 c).arrAt 1 n :=
  ((dats m 0 c).arrAt_in 0 rfl n).trans (((A_eq m c 0).trans (A_eq m c 1).symm).trans ((dats m 0 c).arrAt_in 1 rfl n).symm)

/-- At the region's exit, with the arrays at any contents `A` on which the two windows on the embeddings agree: the
    buffers the later operations may touch, held at the exit valuation, are the proof data's arrays and the bypassing buffers. -/
theorem held_exit (c : Dev nD) (A : (w : Fin 6) → Buf (Elt F) ((spec0 w).arr.view.loc (c.tc : Thread nD τ))) (h01 : A 0 = A 1) :
    (StableHlo.held (c.tc : Thread nD τ) (Pipeline.tailRefs sig Pipeline.Prefetch.none spec0) (Pipeline.withArrays spec0 c (V0 m c) A) : sProp 𝕄)
      = iprop((dats m 0 c).arrays A
          ∗ Pipeline.unscopedRestP Pipeline.Prefetch.none spec0 c (fun b => V0 m c (Proc.devRef .tc b))) := by
  rw [held_tail0, arrays_arrBufs m c A (fun b => Pipeline.withArrays spec0 c (V0 m c) A (Proc.devRef .tc b))
    (fun w => (withArrays_arr0 c (V0 m c) A h01 w).symm)]
  refine congrArg (fun X : sProp 𝕄 => iprop(Pipeline.arrBufs spec0 c (fun b => Pipeline.withArrays spec0 c (V0 m c) A (Proc.devRef .tc b)) ∗ X)) ?_
  unfold Pipeline.unscopedRestP
  exact bigSep_congr fun b hb => by
    beta_reduce
    rw [Pipeline.withArrays_of_ne spec0 c (V0 m c) A b fun w e => (Finset.mem_sdiff.mp (Finset.mem_sdiff.mp hb).1).2
      (Finset.mem_image.mpr ⟨w, Finset.mem_univ _, e⟩)]

/-- The same after the later operations, which write no array. -/
theorem held_after (c : Dev nD) (A : (w : Fin 6) → Buf (Elt F) ((spec0 w).arr.view.loc (c.tc : Thread nD τ))) (h01 : A 0 = A 1) :
    (StableHlo.held (c.tc : Thread nD τ) (Pipeline.tailRefs sig Pipeline.Prefetch.none spec0)
        (StableHlo.after (tailOps (F := F)).flatten (Pipeline.withArrays spec0 c (V0 m c) A)) : sProp 𝕄)
      = iprop((dats m 0 c).arrays A
          ∗ Pipeline.unscopedRestP Pipeline.Prefetch.none spec0 c
              (fun b => StableHlo.after (tailOps (F := F)).flatten (Pipeline.withArrays spec0 c (V0 m c) A) (Proc.devRef .tc b))) := by
  have hk : ∀ w, A w = StableHlo.after (tailOps (F := F)).flatten (Pipeline.withArrays spec0 c (V0 m c) A) (Proc.devRef .tc (Pipeline.arrRef spec0 w)) := fun w => by
    rw [StableHlo.after_of_forall_not_mem (tailOps (F := F)).flatten (Pipeline.withArrays spec0 c (V0 m c) A) fun op hop => ?_, withArrays_arr0 c (V0 m c) A h01 w]
    obtain ⟨ops, hops, hop⟩ := List.mem_flatten.mp hop
    exact sfx_keeps ops hops op hop w
  rw [held_tail0, arrays_arrBufs m c A (fun b => StableHlo.after (tailOps (F := F)).flatten (Pipeline.withArrays spec0 c (V0 m c) A) (Proc.devRef .tc b)) hk]

set_option backward.isDefEq.respectTransparency.types false in
/-- The host operations after the region, from any exit contents `A` of the arrays on which the two windows on the
    embeddings agree: the two halves of the embeddings are joined, the operations run within whole buffers, writing no
    array, and the halves are dealt again. -/
theorem tail_run (c : Dev nD) (A : (w : Fin 6) → Buf (Elt F) ((spec0 w).arr.view.loc (c.tc : Thread nD τ))) (h01 : A 0 = A 1)
    (Q' : PUnit → sProp 𝕄) :
    iprop((iprop((dats m 0 c).arrays A
              ∗ Pipeline.unscopedRestP Pipeline.Prefetch.none spec0 c
                  (fun b => StableHlo.after (tailOps (F := F)).flatten (Pipeline.withArrays spec0 c (V0 m c) A) (Proc.devRef .tc b))) -∗ Q' ⟨⟩)
        ∗ boundary (c.tc : Thread nD τ) ∗ (dats m 0 c).arrays A
        ∗ Pipeline.unscopedRestP Pipeline.Prefetch.none spec0 c (fun b => V0 m c (Proc.devRef .tc b)))
      ⊢ wp frame (wpE (Pipeline.defs (fun q => (cfgs q).toPCfg (Val := Elt F)) defs₀) (Variants.lift Variants.none) (c.tc : Thread nD τ) none) Set.univ
          (Pipeline.chain ((tailOps (F := F)).map StableHlo.seq)) Q' := by
  rw [← List.append_nil ((tailOps (F := F)).map StableHlo.seq), ← held_exit m c A h01]
  iintro ⟨Hk, Hb⟩
  iapply (Pipeline.wp_seqs_then (fun q => (cfgs q).toPCfg (Val := Elt F)) defs₀ Variants.none c (Pipeline.tailRefs sig Pipeline.Prefetch.none spec0) [] tailOps sfx_sub sfx_fresh
    (Pipeline.withArrays spec0 c (V0 m c) A)) $$ Hb
  iintro Hb
  rw [Pipeline.chain_nil, wp_pure, held_after m c A h01]
  imodintro
  iapply Hk
  icases Hb with ⟨-, H⟩
  iexact H

/-- The same at what the proof data hold after the last point. -/
theorem htail0 (c : Dev nD) (Q' : PUnit → sProp 𝕄) :
    iprop((iprop((dats m 0 c).arrays ((dats m 0 c).arrAt · cfg0.N)
              ∗ Pipeline.unscopedRestP Pipeline.Prefetch.none spec0 c (Pipeline.afterTail₀ cfgs (dats m) 0 (V0 m) tailOps c)) -∗ Q' ⟨⟩)
        ∗ boundary (c.tc : Thread nD τ) ∗ (dats m 0 c).arrays ((dats m 0 c).arrAt · cfg0.N)
        ∗ Pipeline.unscopedRestP Pipeline.Prefetch.none spec0 c (fun b => V0 m c (Proc.devRef .tc b)))
      ⊢ wp frame (wpE (Pipeline.defs (fun q => (cfgs q).toPCfg (Val := Elt F)) defs₀) (Variants.lift Variants.none) (c.tc : Thread nD τ) none) Set.univ
          (Pipeline.chain ((tailOps (F := F)).map StableHlo.seq)) Q' :=
  tail_run m c (fun w => (dats m 0 c).arrAt w cfg0.N) (arrAt_01 m c cfg0.N) Q'

/-! ## The run -/

set_option backward.isDefEq.respectTransparency.types false in
/-- At the compiled mesh, for any values, from any memory with zero counters: every weakly fair execution of the program on
    the TensorCores terminates, and every final state has every array of the pipeline at what the proof data compute and
    every other unscoped buffer as the operations after the region leave it. -/
theorem run_main (hbody : ∀ c : Dev nD, BodyObligation (dats (F := F) m 0 c) (defs₀ (F := F)) Variants.none () Set.univ) :
    θ_run defs (onTc (τ := τ) (main (F := F))) (s₀ m ρ)
      (Pipeline.FramePost cfgs (dats m) 0 (Pipeline.afterTail₀ cfgs (dats m) 0 (V0 m) tailOps)) := by
  classical
  exact Pipeline.θ_run_region_pf_tail (fun q => (cfgs q).toPCfg (Val := Elt F)) (fun q => (cfgs q).toPCfg_adm) (dats m) () cellOf_inj (0 : Fin 1)
    winFacts₀0 (Pipeline.OwnSemFacts.none spec0) (Pipeline.PreFacts.none spec0) emb₁ defs₀ Variants.none m ρ main
    (fun _ => Pipeline.chain ((tailOps (F := F)).map StableHlo.seq)) (fun c => (hbody c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := fun c b => V0 m c (Proc.devRef .tc b)) (hmain := hmain0 m Variants.none)
    (hsplit := hsplit0 m)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (fun b => V0 m c (Proc.devRef .tc b)))
    (Z' := fun c => Pipeline.unscopedRestP (Ix := Unit) (Name := ℕ) (U := UR sig nD τ) (Lvl := ℕ) Pipeline.Prefetch.none spec0 c (Pipeline.afterTail₀ cfgs (dats m) 0 (V0 m) tailOps c))
    (hX := fun c => by
      iintro ⟨HU, -, -, -, Hp, -⟩; imodintro
      isplitl [Hp]; · iexists _; iexact Hp
      iexact HU)
    (hin := fun c => (show _ ⊢ Pipeline.ΦA spec0 c from by
      unfold Pipeline.ΦA; iintro ⟨Hp, -, Hr⟩
      isplitl [Hr] <;> iassumption).trans (hin m c))
    (hout := fun c => (hout m c).trans (by
      rw [Pipeline.ownSems0_none]; unfold Pipeline.ΦA
      iintro ⟨Hr, Hp⟩
      isplitl [Hp]; · iexact Hp
      isplitr; · iempintro
      iexact Hr))
    (htail := htail0 m)
    (QY := fun c s => ∀ b ∈ Pipeline.restRefsP sig Pipeline.Prefetch.none spec0, s.mem ((c.tc : Thread nD τ).loc b) = Pipeline.afterTail₀ cfgs (dats m) 0 (V0 m) tailOps c b)
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b) (Pipeline.afterTail₀ cfgs (dats m) 0 (V0 m) tailOps c) s')
      isplitl [HU] <;> iassumption)
    (hQ := fun s h c => ⟨(h c).1, Pipeline.rest_of_restP Pipeline.Prefetch.none spec0 _ c (Pipeline.afterTail₀ cfgs (dats m) 0 (V0 m) tailOps c) s (fun k => k.elim0) (h c).2.1 (h c).2.2⟩)

/-! ## The argument arrays end unchanged -/

/-- No operation after the region writes an argument of the program: each writes only its own result buffer. -/
theorem tail_keeps : ∀ ops ∈ (tailOps : List (List (HloOp τ sig (Elt F)))), ∀ op ∈ ops,
    ∀ b ∈ ([main_arg0, main_arg1, main_arg2] : List (Ref sig .tc)), Proc.devRef .tc b ∉ op.writes := by
  intro ops hops op hop
  simp only [List.mem_cons, List.mem_nil_iff, or_false] at hops
  rcases hops with rfl | rfl | rfl
  · simp only [hostOps1, List.mem_cons, List.mem_nil_iff, or_false] at hop
    rcases hop with rfl | rfl | rfl | rfl | rfl
    all_goals intro b hb; simp only [List.mem_cons, List.mem_nil_iff, or_false] at hb; rcases hb with rfl | rfl | rfl <;> simp only [StableHlo.nullary_writes, StableHlo.unary_writes, StableHlo.binary_writes, StableHlo.reshape_writes, Finset.mem_singleton] <;> exact StableHlo.devRef_ne_of_ne (by decide)
  · simp only [hostOps1_1, List.mem_cons, List.mem_nil_iff, or_false] at hop
    rcases hop with rfl | rfl | rfl
    all_goals intro b hb; simp only [List.mem_cons, List.mem_nil_iff, or_false] at hb; rcases hb with rfl | rfl | rfl <;> simp only [StableHlo.TRef.nullary, StableHlo.TRef.unary, StableHlo.TRef.binary, StableHlo.nullary_writes, StableHlo.unary_writes, StableHlo.binary_writes, StableHlo.reshape_writes, Finset.mem_singleton] <;> exact StableHlo.devRef_ne_of_ne (by decide)
  · simp only [hostOps1_2, List.mem_cons, List.mem_nil_iff, or_false] at hop
    rcases hop with rfl | rfl | rfl | rfl
    all_goals intro b hb; simp only [List.mem_cons, List.mem_nil_iff, or_false] at hb; rcases hb with rfl | rfl | rfl <;> simp only [StableHlo.nullary_writes, StableHlo.unary_writes, StableHlo.binary_writes, StableHlo.reshape_writes, Finset.mem_singleton] <;> exact StableHlo.devRef_ne_of_ne (by decide)

/-- Nor does a reshape of the labels before the region. -/
theorem head_keeps : ∀ op ∈ (hostOps0 : List (HloOp τ sig (Elt F))),
    ∀ b ∈ ([main_arg0, main_arg1, main_arg2] : List (Ref sig .tc)), Proc.devRef .tc b ∉ op.writes := by
  intro op hop
  simp only [hostOps0, List.mem_cons, List.mem_nil_iff, or_false] at hop
  rcases hop with rfl | rfl
  all_goals intro b hb; simp only [List.mem_cons, List.mem_nil_iff, or_false] at hb; rcases hb with rfl | rfl | rfl <;> simp only [StableHlo.reshape_writes, Finset.mem_singleton] <;> exact StableHlo.devRef_ne_of_ne (by decide)

/-- An argument of the program is, when the region is entered, as the launch found it. -/
theorem V0_arg (c : Dev nD) (b : Ref sig .tc) (hb : b ∈ ([main_arg0, main_arg1, main_arg2] : List (Ref sig .tc))) :
    V0 m c (Proc.devRef .tc b) = m ((c.tc : Thread nD τ).loc b) := by
  show StableHlo.after (List.flatten [hostOps0]) (fun b => m (c, b)) (Proc.devRef .tc b) = _
  rw [StableHlo.after_of_forall_not_mem _ _ fun op hop => ?_]
  rw [List.flatten_cons, List.flatten_nil, List.append_nil] at hop
  exact head_keeps op hop b hb

/-- A bypassing argument of the program is, after the operations that follow the region, as the launch found it. -/
theorem afterTail_arg (c : Dev nD) (b : Ref sig .tc) (hb : b ∈ ([main_arg0, main_arg1, main_arg2] : List (Ref sig .tc)))
    (hne : ∀ w, Pipeline.arrRef spec0 w ≠ b) :
    Pipeline.afterTail₀ cfgs (dats m) 0 (V0 m) tailOps c b = m ((c.tc : Thread nD τ).loc b) := by
  unfold Pipeline.afterTail₀
  rw [StableHlo.after_of_forall_not_mem _ _ fun op hop => ?_, Pipeline.withArrays_of_ne _ c (V0 m c) _ b hne, V0_arg m c b hb]
  obtain ⟨ops, hops, hop⟩ := List.mem_flatten.mp hop
  exact tail_keeps ops hops op hop b hb

/-- From the run's post: the three arguments of the program end as the launch found them. The embeddings are an input
    window's array, never written back; the labels and the margin bypass the region and no host operation writes them. -/
theorem framePost_args (r : PUnit × MemSt nD τ sig (Elt F))
    (h : Pipeline.FramePost cfgs (dats m) 0 (Pipeline.afterTail₀ cfgs (dats m) 0 (V0 m) tailOps) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine ⟨?_, ?_, ?_⟩
  · exact ((h c).1 0).trans (((dats m 0 c).arrAt_in 0 rfl _).trans ((A_eq m c 0).trans (V0_arg m c main_arg0 (by simp))))
  · exact ((h c).2 main_arg1 (Pipeline.mem_restRefs_of main_arg1 rfl (by decide))).trans (afterTail_arg m c main_arg1 (by simp) (by decide))
  · exact ((h c).2 main_arg2 (Pipeline.mem_restRefs_of main_arg2 rfl (by decide))).trans (afterTail_arg m c main_arg2 (by simp) (by decide))

/-- THE FRAME of the program: it runs, and its three arguments end unchanged. -/
theorem frame_ki (hbody : ∀ c : Dev nD, BodyObligation (dats (F := F) m 0 c) (defs₀ (F := F)) Variants.none () Set.univ) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => framePost_args m r h c) (run_main m ρ hbody)

end Cert.Kernel.Hand

end
-- ==== Proof.Val.XL.lean ====
/-
  The embeddings and the labels as plain functions of a row (and an entry), read off the buffers as the region finds
  them. The two reshapes before the region do not touch the embeddings, so these are the launch memory's.
-/
import proofs.«111471_j80668075754103_1_alg».proof.Proof.KI.Dats
import Idealize.ShloMosaic.Lib.ValueIdx

set_option maxRecDepth 16384

noncomputable section

namespace Cert.KernelIdeal.HandValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Cert.KernelIdeal.Hand Idealize.ShloMosaic.ValueIdx

variable (m : (ℓ : Loc nD τ sig) → Buf (Elt Ideal) ℓ)

/-- Entry k of embedding r. -/
def X (c : Dev nD) : Fin 8192 → Fin 128 → EReal :=
  fun r k => (m ((c.tc : Thread nD τ).loc main_arg0) : (⟨S8192x128, .f32⟩ : BufTy).Contents (Elt Ideal)) (ix2 r k)

/-- The label of row r. -/
def L (c : Dev nD) : Fin 8192 → BitVec 32 :=
  fun r => (m ((c.tc : Thread nD τ).loc main_arg1) : (⟨S8192, .i32⟩ : BufTy).Contents (Elt Ideal)) (ix1 r)

/-- The embeddings as the region finds them are the launch memory's. -/
theorem V_arg0 (c : Dev nD) : V (F := Ideal) m c main_arg0 = m ((c.tc : Thread nD τ).loc main_arg0) := by
  show StableHlo.after (List.flatten [hostOps0]) (fun b => m (c, b)) (Proc.devRef .tc main_arg0) = _
  simp only [hostOps0, List.flatten_cons, List.flatten_nil, List.append_nil]
  after_results

end Cert.KernelIdeal.HandValue

end
-- ==== Proof.Val.Spec.lean ====
/-
  The mathematics of the hardest-positive / hardest-negative distances, stated once over the extended reals with no
  program in sight. `x r k` is entry k of embedding r, `ℓ r` its label.
  The squared distance of rows r and c is clamped at zero, |x_r|² + |x_c|² − 2⟨x_r, x_c⟩; the distance is its square root
  where that is positive and zero elsewhere. For row r the positive value of column c is the distance when the labels
  agree and c ≠ r, and zero otherwise; the negative value is the distance when the labels differ, and the distance plus a
  large constant otherwise. `pos r` is the largest positive value over all columns, `neg r` the smallest negative value.
-/
import Idealize.ShloMosaic.PureOps.Ideal
import Idealize.ShloMosaic.PureOps.Ideal.Laws

noncomputable section

namespace Cert.Spec

open Idealize.ShloMosaic

/-- The literal 2. -/
abbrev two : EReal := Ideal.ofBits .f32 0x40000000#32
/-- The literal 1 000 000. -/
abbrev big : EReal := Ideal.ofBits .f32 0x49742400#32

variable (x : Fin 8192 → Fin 128 → EReal) (ℓ : Fin 8192 → BitVec 32)

/-- |x_r|². -/
def sq (r : Fin 8192) : EReal := ∑ k : Fin 128, x r k * x r k
/-- ⟨x_r, x_c⟩. -/
def gram (r c : Fin 8192) : EReal := ∑ k : Fin 128, x r k * x c k
/-- The squared distance, clamped at zero. -/
def d2 (r c : Fin 8192) : EReal := max (sq x r + sq x c - two * gram x r c) 0
/-- The distance: the root where the squared distance is positive, zero elsewhere. -/
def dist (r c : Fin 8192) : EReal := if 0 < d2 x r c then Ideal.sqrt (d2 x r c) else 0
/-- What column c offers row r as a positive. -/
def posVal (r c : Fin 8192) : EReal := if ℓ r = ℓ c ∧ r ≠ c then dist x r c else 0
/-- What column c offers row r as a negative. -/
def negVal (r c : Fin 8192) : EReal := if ℓ r = ℓ c then dist x r c + big else dist x r c
/-- The hardest positive of row r. -/
def pos (r : Fin 8192) : EReal := Finset.univ.sup (posVal x ℓ r)
/-- The hardest negative of row r. -/
def neg (r : Fin 8192) : EReal := Finset.univ.inf (negVal x ℓ r)

end Cert.Spec

end
-- ==== Proof.Val.RefAlg.lean ====
/-
  Facts about the extended reals that the reading of the reference needs, with no program in sight.
  A maximum folded from −∞ over a finite family is the family's supremum, and a minimum folded from +∞ its infimum.
  A root guarded twice by "the argument is positive" is the root where the argument is positive and zero elsewhere.
  A truth value turned into a number is one or zero; two row numbers below 8192 are equal exactly when their 32-bit
  words are. With s the agreement of two labels (one or zero) and e the diagonal (one or zero, and one only where the
  labels agree), d·(s − e) is d where the labels agree off the diagonal and zero elsewhere, since 1 − 0 = 1,
  1 − 1 = 0 − 0 = 0, d·1 = d and d·0 = 0 for every extended real d, infinite or not; and d + (1 − (1 − s))·B is d + B
  where the labels agree and d + 0·B = d where they differ.
-/
import Idealize.ShloMosaic.PureOps.Ideal
import Idealize.ShloMosaic.PureOps.Ideal.Laws
import Idealize.ShloMosaic.Lib.IdealHost

noncomputable section

namespace Cert.ReferenceIdeal.RefValue

open Idealize.ShloMosaic

/-- Folding a maximum from −∞ over a finite family is its supremum. -/
theorem fold_max_bot {ι : Type} (s : Finset ι) (f : ι → EReal) : s.fold max ⊥ f = s.sup f := by
  classical
  induction s using Finset.induction_on with
  | empty => simp
  | insert a s ha ih => rw [Finset.fold_insert ha, Finset.sup_insert, ih]

/-- Folding a minimum from +∞ over a finite family is its infimum. -/
theorem fold_min_top {ι : Type} (s : Finset ι) (f : ι → EReal) : s.fold min ⊤ f = s.inf f := by
  classical
  induction s using Finset.induction_on with
  | empty => simp
  | insert a s ha ih => rw [Finset.fold_insert ha, Finset.inf_insert, ih]

/-- The pattern of −∞. -/
theorem ofBits_neg_inf : Ideal.ofBits .f32 0xFF800000#32 = (⊥ : EReal) := by simp [Ideal.ofBits, Ideal.ieee]
/-- The pattern of +∞. -/
theorem ofBits_pos_inf : Ideal.ofBits .f32 0x7F800000#32 = (⊤ : EReal) := by simp [Ideal.ofBits, Ideal.ieee]

/-- The root taken only where its argument is positive: the guard inside the root changes nothing there. -/
theorem guarded_root (d e : EReal) :
    Scalar.select (Ideal.cmp .ogt d 0) (Ideal.sqrt (Scalar.select (Ideal.cmp .ogt d 0) d e)) (0 : EReal)
      = if 0 < d then Ideal.sqrt d else 0 := by
  unfold Scalar.select Ideal.cmp
  by_cases h : 0 < d
  · simp [h]
  · simp [h]

/-- A truth value as a word, read as an unsigned number, is one or zero. -/
theorem uitofp_ofBool (p : Bool) : FloatOps.uitofp (F := Ideal) .f32 (BitVec.ofBool p) = if p then (1 : EReal) else 0 := by
  cases p
  · show (((0#1 : BitVec 1).toNat : ℝ) : EReal) = 0
    simp
  · show (((1#1 : BitVec 1).toNat : ℝ) : EReal) = 1
    simp

/-- Two row numbers below 8192 are equal exactly when their 32-bit words are. -/
theorem word_eq_iff (r c : Fin 8192) : (IntOp.addi (BitVec.ofNat 32 r.val) 0#32 == BitVec.ofNat 32 c.val) = decide (r = c) := by
  unfold IntOp.addi
  rw [BitVec.add_zero]
  by_cases h : r = c
  · subst h; simp
  · have : BitVec.ofNat 32 r.val ≠ BitVec.ofNat 32 c.val := by
      intro e
      have e' := congrArg BitVec.toNat e
      simp only [BitVec.toNat_ofNat] at e'
      apply h; apply Fin.ext; omega
    simp [h, this]

/-- One minus one, among the extended reals. -/
theorem one_sub_one : (1 : EReal) - 1 = 0 := by
  have h : ((1 : ℝ) : EReal) - ((1 : ℝ) : EReal) = ((0 : ℝ) : EReal) := by rw [← EReal.coe_sub]; norm_num
  simpa using h

/-- The distance times (agreement minus diagonal): the distance where the labels agree off the diagonal, zero elsewhere. -/
theorem pos_mask (d : EReal) (p q : Prop) [Decidable p] [Decidable q] (hq : q → p) :
    d * ((if p then (1 : EReal) else 0) - (if q then (1 : EReal) else 0)) = if p ∧ ¬ q then d else 0 := by
  by_cases hp : p
  · by_cases hq' : q
    · simp [hp, hq', one_sub_one]
    · simp [hp, hq']
  · have hq' : ¬ q := fun h => hp (hq h)
    simp [hp, hq']

/-- The distance plus (one minus (one minus agreement)) times the large constant. -/
theorem neg_mask (d big : EReal) (p : Prop) [Decidable p] :
    d + ((1 : EReal) - ((1 : EReal) - (if p then (1 : EReal) else 0))) * big = if p then d + big else d := by
  by_cases hp : p
  · simp [hp, one_sub_one]
  · simp [hp, one_sub_one]

end Cert.ReferenceIdeal.RefValue
end
-- ==== Proof.Val.RefIdx.lean ====
/-
  The reference's intermediate arrays read entry by entry. With x the embeddings and ℓ the labels:
  the row sums of squares are |x_r|² (the sum starts from the literal zero, and 0 + s = s); the product of x with its
  transpose is the inner product ⟨x_r, x_c⟩; their combination clamped at zero is the clamped squared distance; the
  twice-guarded root is the distance. The label comparison turned into a number is one where the labels agree and zero
  elsewhere, and the comparison of the two coordinate counters is one on the diagonal and zero elsewhere. The two masked
  arrays are then, entry by entry, what a column offers a row as a positive and as a negative.
-/
import proofs.«111471_j80668075754103_1_alg».proof.Proof.Gen.ReferenceIdeal.Read
import proofs.«111471_j80668075754103_1_alg».proof.Proof.Val.Spec
import Idealize.ShloMosaic.Lib.IdealHost
import proofs.«111471_j80668075754103_1_alg».proof.Proof.Val.RefAlg

noncomputable section

namespace Cert.ReferenceIdeal.RefValue

open Cert.ReferenceIdeal Cert.ReferenceIdeal.Gen Cert.ReferenceIdeal.Read Idealize.ShloMosaic
open Idealize.ShloMosaic.ValueIdx (ix0 ix1 ix2 eq_ix1 eq_ix2)

/-- The embeddings as a matrix of extended reals. -/
abbrev mat (x : (⟨S8192x128, .f32⟩ : BufTy).Contents (Elt Ideal)) : Fin 8192 → Fin 128 → EReal := fun r k => x (ix2 r k)
/-- The labels as a vector of words. -/
abbrev labs (lab : (⟨S8192, .i32⟩ : BufTy).Contents (Elt Ideal)) : Fin 8192 → BitVec 32 := fun r => lab (ix1 r)

variable (x : (⟨S8192x128, .f32⟩ : BufTy).Contents (Elt Ideal)) (lab : (⟨S8192, .i32⟩ : BufTy).Contents (Elt Ideal))

/-- The row sum of squares. -/
theorem sq_at (r : Fin 8192) : val_main_v1 (F := Ideal) x (ix1 r) = Cert.Spec.sq (mat x) r := by
  rw [val_main_v1_apply, val_main_cst_apply, Ideal.ofBits_def, Ideal.ofBits_zero_f32, zero_add]
  unfold Cert.Spec.sq
  refine Finset.sum_congr rfl fun k _ => ?_
  rw [val_main_v0_apply, Ideal.mulf_def]
  have e : idx_main_v1 (ix1 r) k = ix2 r k := funext fun a => by match a with | ⟨0, _⟩ => rfl | ⟨1, _⟩ => rfl
  rw [e]

/-- The inner product of two rows. -/
theorem gram_at (r c : Fin 8192) : val_main_v8 (F := Ideal) x (ix2 r c) = Cert.Spec.gram (mat x) r c := by
  rw [val_main_v8_apply]
  unfold Cert.Spec.gram
  refine Finset.sum_congr rfl fun k _ => ?_
  rw [val_main_v7_apply]
  have e1 : lidx_main_v8 (ix2 r c) k = ix2 r k := funext fun a => by match a with | ⟨0, _⟩ => rfl | ⟨1, _⟩ => rfl
  have e2 : idx_main_v7 (ridx_main_v8 (ix2 r c) k) = ix2 c k := funext fun a => by match a with | ⟨0, _⟩ => rfl | ⟨1, _⟩ => rfl
  rw [e1, e2]

/-- The clamped squared distance. -/
theorem d2_at (r c : Fin 8192) : val_main_v13 (F := Ideal) x (ix2 r c) = Cert.Spec.d2 (mat x) r c := by
  rw [val_main_v13_apply, val_main_v11_apply, val_main_v6_apply, val_main_v10_apply, val_main_v4_apply, val_main_v5_apply,
    val_main_v2_apply, val_main_v3_apply, val_main_v9_apply, val_main_v12_apply, val_main_cst_0_apply, val_main_cst_1_apply, gram_at]
  have e1 : idx_main_v2 (idx_main_v4 (ix2 r c)) = ix1 r := funext fun a => by match a with | ⟨0, _⟩ => rfl
  have e2 : idx_main_v3 (idx_main_v5 (ix2 r c)) = ix1 c := funext fun a => by match a with | ⟨0, _⟩ => rfl
  rw [e1, e2, sq_at, sq_at]
  simp only [Ideal.ofBits_def, Ideal.addf_def, Ideal.subf_def, Ideal.mulf_def, Ideal.maximumf_def, Ideal.ofBits_zero_f32]
  rfl

/-- The distance: the root of the clamped squared distance where that is positive, zero elsewhere. -/
theorem dist_at (r c : Fin 8192) : val_main_v18 (F := Ideal) x (ix2 r c) = Cert.Spec.dist (mat x) r c := by
  rw [val_main_v18_apply, val_main_v17_apply, val_main_v16_apply, val_main_v15_apply, d2_at,
    val_main_v14_apply, val_main_cst_2_apply, val_main_call0_v1_apply, val_main_call0_v0_apply, val_main_cst_3_apply,
    val_main_call1_v1_apply, val_main_call1_v0_apply, val_main_cst_4_apply]
  simp only [Ideal.ofBits_def, Ideal.cmpf_def, Ideal.hostUnary_sqrt_def, Ideal.ofBits_zero_f32]
  exact guarded_root _ _

/-- The agreement of two labels as a number. -/
theorem same_at (r c : Fin 8192) :
    val_main_v24 (F := Ideal) lab (ix2 r c) = if labs lab r = labs lab c then (1 : EReal) else 0 := by
  rw [val_main_v24_apply, val_main_v23_apply, val_main_v21_apply, val_main_v22_apply, val_main_v19_apply, val_main_v20_apply]
  have e1 : idx_main_v19 (idx_main_v21 (ix2 r c)) = ix1 r := funext fun a => by match a with | ⟨0, _⟩ => rfl
  have e2 : idx_main_v20 (idx_main_v22 (ix2 r c)) = ix1 c := funext fun a => by match a with | ⟨0, _⟩ => rfl
  rw [e1, e2]
  show FloatOps.uitofp (F := Ideal) .f32 (BitVec.ofBool (lab (ix1 r) == lab (ix1 c))) = _
  rw [uitofp_ofBool]
  simp only [beq_iff_eq]

/-- The diagonal as a number. -/
theorem eye_at (r c : Fin 8192) :
    val_main_v30 (F := Ideal) (ix2 r c) = if r = c then (1 : EReal) else 0 := by
  rw [val_main_v30_apply, val_main_v29_apply, val_main_v28_apply, val_main_v25_apply, val_main_v26_apply, val_main_v27_apply, val_main_c_apply]
  show FloatOps.uitofp (F := Ideal) .f32 (BitVec.ofBool (IntOp.addi (BitVec.ofNat 32 r.val) 0#32 == BitVec.ofNat 32 c.val)) = _
  rw [word_eq_iff, uitofp_ofBool]
  simp only [decide_eq_true_eq]

/-- What a column offers a row as a positive. -/
theorem posVal_at (r c : Fin 8192) : val_main_v34 (F := Ideal) x lab (ix2 r c) = Cert.Spec.posVal (mat x) (labs lab) r c := by
  rw [val_main_v34_apply, dist_at, val_main_v31_apply, same_at, eye_at]
  simp only [Ideal.mulf_def, Ideal.subf_def]
  rw [pos_mask _ _ _ (fun h : r = c => by rw [h])]
  rfl

/-- What a column offers a row as a negative. -/
theorem negVal_at (r c : Fin 8192) : val_main_v40 (F := Ideal) x lab (ix2 r c) = Cert.Spec.negVal (mat x) (labs lab) r c := by
  rw [val_main_v40_apply, dist_at, val_main_v39_apply, val_main_v37_apply, val_main_v33_apply, same_at, val_main_v36_apply, val_main_v32_apply,
    val_main_v38_apply, val_main_cst_7_apply, val_main_cst_5_apply, val_main_cst_8_apply]
  simp only [Ideal.ofBits_def, Ideal.addf_def, Ideal.mulf_def, Ideal.subf_def, Ideal.ofBits_one_f32]
  rw [neg_mask]
  rfl

end Cert.ReferenceIdeal.RefValue
end
-- ==== Proof.Val.RefVal.lean ====
/-
  The value the reference computes, as a function of the specification's hardest positives and negatives.
  The reference ends with the same few operations whatever its two reduced arrays hold: subtract, add the margin,
  clamp at zero, sum from zero, divide by 8192; they are kept as one function of the two arrays and the margin.
  The first reduced array is, row by row, a maximum over the columns started from −∞ of what each column offers as a
  positive, which is the supremum over all columns: the hardest positive. The second is a minimum started from +∞ of what
  each column offers as a negative, the infimum: the hardest negative. The program also terminates without fault and
  leaves its arguments unchanged.
-/
import proofs.«111471_j80668075754103_1_alg».proof.Proof.Gen.ReferenceIdeal.Run
import proofs.«111471_j80668075754103_1_alg».proof.Proof.Gen.ReferenceIdeal.Read
import proofs.«111471_j80668075754103_1_alg».proof.Proof.Val.Spec
import proofs.«111471_j80668075754103_1_alg».proof.Proof.Val.RefIdx
import proofs.«111471_j80668075754103_1_alg».proof.Defs

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo
open Idealize.ShloMosaic.ValueIdx (ix0 ix1 ix2 eq_ix1 eq_ix2)

/-- The reference program runs to the end without fault and leaves its three arguments as they were: its run, with what
    it says of the result dropped. -/
theorem frame_ri [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.Value.run (F := Ideal) m ρ)

/-- From the hardest positives and hardest negatives to the loss: the mean over the 8192 rows of
    max(pos − neg + margin, 0), as the sum from zero divided by 8192. One function, never opened. -/
def refTail (pos neg : (⟨S8192, .f32⟩ : BufTy).Contents (Elt Ideal)) (margin : (⟨S_, .f32⟩ : BufTy).Contents (Elt Ideal)) :
    (⟨S_, .f32⟩ : BufTy).Contents (Elt Ideal) :=
  Host.divf (F := Ideal)
    (Host.reduceAdd (F := Ideal)
      (maximumf (addf (subf pos neg) (broadcastInDim S8192 ![] bcast_S_S8192 margin))
        (broadcastInDim S8192 ![] bcast_S_S8192 (constant (F := Ideal) S_ .f32 0x00000000#32)))
      (constant (F := Ideal) S_ .f32 0x00000000#32) reducesTo_S8192_S_d0 h_S_)
    (constant (F := Ideal) S_ .f32 0x46000000#32)

variable (x : (⟨S8192x128, .f32⟩ : BufTy).Contents (Elt Ideal)) (lab : (⟨S8192, .i32⟩ : BufTy).Contents (Elt Ideal))
  (mg : (⟨S_, .f32⟩ : BufTy).Contents (Elt Ideal))

/-- The reference's result is that function of its two reduced arrays and the margin. -/
theorem val_tail :
    val_main_v47 (F := Ideal) x lab mg = refTail (val_main_v35 (F := Ideal) x lab) (val_main_v41 (F := Ideal) x lab) mg := by
  unfold val_main_v47 val_main_v46 val_main_v45 val_main_v44 val_main_v43 val_main_v42 val_main_call2_v0 val_main_call2_cst val_main_cst_10 val_main_cst_11 refTail
  rfl

/-- Row r with column k put back is the entry (r, k). -/
theorem lift_col (h : S8192x8192.Reduces [1] S8192) (r : Fin 8192) (k : Fin (S8192x8192.size 1)) :
    h.lift (ix1 r) k = ix2 r (⟨k.val, k.isLt⟩ : Fin 8192) := by
  funext c; apply Fin.ext
  match c with
  | ⟨0, _⟩ => rfl
  | ⟨1, _⟩ => rfl

/-- The maximum over the columns, taken from −∞, is the hardest positive. -/
theorem pos_at (r : Fin 8192) : val_main_v35 (F := Ideal) x lab (ix1 r) = Cert.Spec.pos (mat x) (labs lab) r := by
  have h : S8192x8192.Reduces [1] S8192 := by decide
  unfold val_main_v35
  rw [Host.reduce_eq_fold_single FloatOps.maximumf _ _ reducesTo_S8192x8192_S8192_d1 h h_S_]
  have hi : val_main_cst_6 (F := Ideal) (Shape.Idx.first h_S_) = (⊥ : EReal) := ofBits_neg_inf
  rw [hi]
  have hf : (val_main_v34 (F := Ideal) x lab ∘ h.lift (ix1 r)) = fun k : Fin 8192 => Cert.Spec.posVal (mat x) (labs lab) r k :=
    funext fun k => (congrArg (val_main_v34 (F := Ideal) x lab) (lift_col h r k)).trans (posVal_at x lab r _)
  exact (congrArg (fun f => Finset.fold max (⊥ : EReal) f (Finset.univ : Finset (Fin 8192))) hf).trans (fold_max_bot _ _)

/-- The minimum over the columns, taken from +∞, is the hardest negative. -/
theorem neg_at (r : Fin 8192) : val_main_v41 (F := Ideal) x lab (ix1 r) = Cert.Spec.neg (mat x) (labs lab) r := by
  have h : S8192x8192.Reduces [1] S8192 := by decide
  unfold val_main_v41
  rw [Host.reduce_eq_fold_single FloatOps.minimumf _ _ reducesTo_S8192x8192_S8192_d1 h h_S_]
  have hi : val_main_cst_9 (F := Ideal) (Shape.Idx.first h_S_) = (⊤ : EReal) := ofBits_pos_inf
  rw [hi]
  have hf : (val_main_v40 (F := Ideal) x lab ∘ h.lift (ix1 r)) = fun k : Fin 8192 => Cert.Spec.negVal (mat x) (labs lab) r k :=
    funext fun k => (congrArg (val_main_v40 (F := Ideal) x lab) (lift_col h r k)).trans (negVal_at x lab r _)
  exact (congrArg (fun f => Finset.fold min (⊤ : EReal) f (Finset.univ : Finset (Fin 8192))) hf).trans (fold_min_top _ _)

/-- The reference's result, as a function of the hardest positives and negatives of the specification. -/
theorem ref_value :
    val_main_v47 (F := Ideal) x lab mg
      = refTail (fun r => Cert.Spec.pos (fun r k => x (ix2 r k)) (fun r => lab (ix1 r)) (r 0))
          (fun r => Cert.Spec.neg (fun r k => x (ix2 r k)) (fun r => lab (ix1 r)) (r 0)) mg := by
  have hp : val_main_v35 (F := Ideal) x lab = fun r => Cert.Spec.pos (fun r k => x (ix2 r k)) (fun r => lab (ix1 r)) (r 0) :=
    funext fun r => (congrArg (val_main_v35 (F := Ideal) x lab) (eq_ix1 r)).trans (pos_at x lab (r 0))
  have hn : val_main_v41 (F := Ideal) x lab = fun r => Cert.Spec.neg (fun r k => x (ix2 r k)) (fun r => lab (ix1 r)) (r 0) :=
    funext fun r => (congrArg (val_main_v41 (F := Ideal) x lab) (eq_ix1 r)).trans (neg_at x lab (r 0))
  rw [val_tail, hp, hn]

/-- The reference's run with its result named by the specification: every weakly fair execution terminates without
    fault, the result is the loss of the hardest positives and negatives of the embeddings and labels the run started
    from, and the arguments are unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v47)
          = refTail
              (fun r => Cert.Spec.pos (fun r k => (m ((c.tc : Thread nD τ).loc main_arg0) : (⟨S8192x128, .f32⟩ : BufTy).Contents (Elt Ideal)) (ix2 r k))
                (fun r => (m ((c.tc : Thread nD τ).loc main_arg1) : (⟨S8192, .i32⟩ : BufTy).Contents (Elt Ideal)) (ix1 r)) (r 0))
              (fun r => Cert.Spec.neg (fun r k => (m ((c.tc : Thread nD τ).loc main_arg0) : (⟨S8192x128, .f32⟩ : BufTy).Contents (Elt Ideal)) (ix2 r k))
                (fun r => (m ((c.tc : Thread nD τ).loc main_arg1) : (⟨S8192, .i32⟩ : BufTy).Contents (Elt Ideal)) (ix1 r)) (r 0))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono
    (fun _ h c => ⟨(h c).1.trans ((val_main_v47_eq m c).trans (ref_value _ _ _)), (h c).2⟩)
    (Cert.ReferenceIdeal.Value.run (F := Ideal) m ρ)

end Cert.ReferenceIdeal.RefValue
end
-- ==== Proof.Val.KPoint.lean ====
/-
  One grid point's update of the two accumulators, read entry by entry over the extended reals.
  At point t the body sees rows 1024 (t / 16) … of the embeddings (the row block) and rows 512 (t % 16) … (the column
  block). Entry (p, q) of its distance tile is the distance of row p of the row block and row q of the column block: the
  three sums |x_r|², |x_c|², ⟨x_r, x_c⟩ are a lane sum, a lane sum transposed and a matrix product into a zero
  accumulator, and the change of float format before the product is the identity on extended reals. The "same element"
  mask compares the global row and column numbers as 32-bit words, which never wrap below 2^32; the "labels agree" mask
  compares the row's label with the column's. The positive accumulator becomes the larger of what it held and the lane
  maximum of "distance where the labels agree off the diagonal, zero elsewhere"; the negative accumulator the smaller of
  what it held and the lane minimum of "distance where the labels differ, distance plus a large constant elsewhere". A lane
  maximum from −∞ is a supremum over the 512 columns, a lane minimum from +∞ an infimum.
-/
import proofs.«111471_j80668075754103_1_alg».proof.Proof.KI.Dats
import proofs.«111471_j80668075754103_1_alg».proof.Proof.Val.Spec
import proofs.«111471_j80668075754103_1_alg».proof.Proof.Val.XL
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.HandValue

open Idealize.ShloMosaic Idealize.ShloMosaic.TcCoe Idealize.ShloMosaic.Tactic Idealize.ShloMosaic.ValueIdx
open Idealize.SL.Sem
open Cert.KernelIdeal Cert.KernelIdeal.Gen Cert.KernelIdeal.Hand

section Layout
variable {α : Type}

/-- A vector viewed as a column: entry `(p, 0)` of the column is entry `p` of the vector. -/
theorem shapeCast_a_a1_apply {a : ℕ} (x : (⟨1, ![a]⟩ : Shape).Idx → α) (h : (⟨1, ![a]⟩ : Shape).ShapeCasts ⟨2, ![a, 1]⟩)
    (p : Fin a) (z : Fin 1) : shapeCast ⟨2, ![a, 1]⟩ x h (ix2 p z) = x (ix1 p) := by
  refine shapeCast_apply x h (ix2 p z) (ix1 p) ?_
  rw [Shape.rowMajor_val_one, Shape.rowMajor_val_two]
  show p.val = p.val * 1 + z.val
  have := z.isLt
  omega

/-- A column repeated along the lanes: entry `(p, c)` is the column's entry `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The distance of one row against one column -/

/-- The distance of two vectors of 128 entries: the root of the clamped `|u|² + |v|² − 2⟨u, v⟩` where that is positive, zero elsewhere. -/
def distOf (u v : Fin 128 → EReal) : EReal :=
  if 0 < max ((∑ k, u k * u k) + (∑ k, v k * v k) - Cert.Spec.two * ∑ k, u k * v k) 0
  then Ideal.sqrt (max ((∑ k, u k * u k) + (∑ k, v k * v k) - Cert.Spec.two * ∑ k, u k * v k) 0) else 0

theorem dist_eq_distOf (x : Fin 8192 → Fin 128 → EReal) (r c : Fin 8192) : Cert.Spec.dist x r c = distOf (x r) (x c) := rfl

/-- The same, as the body computes it from the three sums. -/
def distPt (A B C : EReal) : EReal :=
  Scalar.select (Ideal.cmp .ogt (max (A + B - Ideal.ofBits .f32 0x40000000#32 * C) (Ideal.ofBits .f32 0x00000000#32)) (Ideal.ofBits .f32 0x00000000#32))
    (Ideal.sqrt (Scalar.select (Ideal.cmp .ogt (max (A + B - Ideal.ofBits .f32 0x40000000#32 * C) (Ideal.ofBits .f32 0x00000000#32)) (Ideal.ofBits .f32 0x00000000#32))
      (max (A + B - Ideal.ofBits .f32 0x40000000#32 * C) (Ideal.ofBits .f32 0x00000000#32)) (Ideal.ofBits .f32 0x3F800000#32)))
    (Ideal.ofBits .f32 0x00000000#32)

theorem distPt_eq (A B C : EReal) :
    distPt A B C = if 0 < max (A + B - Cert.Spec.two * C) 0 then Ideal.sqrt (max (A + B - Cert.Spec.two * C) 0) else 0 := by
  unfold distPt
  rw [Ideal.ofBits_zero_f32]
  by_cases h : 0 < max (A + B - Cert.Spec.two * C) 0
  · simp [Scalar.select, Ideal.cmp, h, Cert.Spec.two]
  · simp [Scalar.select, Ideal.cmp, h, Cert.Spec.two]

/-- The squared norms of the rows, repeated along the lanes. -/
def sqRow (x0 : Vec Ideal S1024x128 .f32) : FVec Ideal S1024x512 .f32 :=
  broadcastTo S1024x512 (shapeCast S1024x1 (multiReduction (F := Ideal) .add [1] S1024 (mulf x0 x0) 0x00000000#32 reduces_S1024x128_S1024 (.inl rfl) rfl) shapeCasts_S1024_S1024x1) broadcasts_S1024x1_S1024x512
/-- The squared norms of the columns, repeated along the rows. -/
def sqCol (x1 : Vec Ideal S512x128 .f32) : FVec Ideal S1024x512 .f32 :=
  broadcastTo S1024x512 (transpose S1x512 [1, 0] (shapeCast S512x1 (multiReduction (F := Ideal) .add [1] S512 (mulf x1 x1) 0x00000000#32 reduces_S512x128_S512 (.inl rfl) rfl) shapeCasts_S512_S512x1) transposes_S512x1_p1_0_S1x512) broadcasts_S1x512_S1024x512
/-- The inner products of the rows with the columns. -/
def gramV (x0 : Vec Ideal S1024x128 .f32) (x1 : Vec Ideal S512x128 .f32) : FVec Ideal S1024x512 .f32 :=
  matmul dot_S1024x128_S128x512_S1024x512_1_0_0_1_n_n none (truncf .bf16 x0 bitsLt_bf16_f32)
    (transpose S128x512 [1, 0] (truncf .bf16 x1 bitsLt_bf16_f32) transposes_S512x128_p1_0_S128x512) (constant (F := Ideal) S1024x512 .f32 0x00000000#32)

theorem pay6_eq (x0 : Vec Ideal S1024x128 .f32) (x1 : Vec Ideal S512x128 .f32) (j : S1024x512.Idx) :
    k0_pay6 (F := Ideal) x0 x1 j = distPt (sqRow x0 j) (sqCol x1 j) (gramV x0 x1 j) := rfl

theorem sqRow_apply (x0 : FVec Ideal S1024x128 .f32) (p : Fin 1024) (q : Fin 512) :
    sqRow x0 (ix2 p q) = ∑ k : Fin 128, x0 (ix2 p k) * x0 (ix2 p k) := by
  unfold sqRow
  refine (broadcastTo_a1_ab_apply _ _ p q).trans ?_
  refine (shapeCast_a_a1_apply _ _ p 0).trans ?_
  refine (Ideal.multiReduction_add_single (mulf (F := Ideal) (φ := .f32) x0 x0) 0x00000000#32 reduces_S1024x128_S1024 (.inl rfl) rfl (ix1 p)).trans ?_
  show ∑ k : Fin 128, mulf (F := Ideal) (φ := .f32) x0 x0 (reduces_S1024x128_S1024.lift (ix1 p) k) = _
  refine Finset.sum_congr rfl fun k _ => ?_
  have e : reduces_S1024x128_S1024.lift (ix1 p) k = ix2 p k :=
    funext fun a => Fin.ext (by match a with | ⟨0, _⟩ => rfl | ⟨1, _⟩ => rfl)
  rw [e]; rfl

theorem sqCol_apply (x1 : FVec Ideal S512x128 .f32) (p : Fin 1024) (q : Fin 512) :
    sqCol x1 (ix2 p q) = ∑ k : Fin 128, x1 (ix2 q k) * x1 (ix2 q k) := by
  unfold sqCol
  refine (broadcastTo_1b_ab_apply _ _ p q).trans ?_
  refine (transpose_ix2_apply _ _ (0 : Fin 1) q).trans ?_
  refine (shapeCast_a_a1_apply _ _ q 0).trans ?_
  refine (Ideal.multiReduction_add_single (mulf (F := Ideal) (φ := .f32) x1 x1) 0x00000000#32 reduces_S512x128_S512 (.inl rfl) rfl (ix1 q)).trans ?_
  show ∑ k : Fin 128, mulf (F := Ideal) (φ := .f32) x1 x1 (reduces_S512x128_S512.lift (ix1 q) k) = _
  refine Finset.sum_congr rfl fun k _ => ?_
  have e : reduces_S512x128_S512.lift (ix1 q) k = ix2 q k :=
    funext fun a => Fin.ext (by match a with | ⟨0, _⟩ => rfl | ⟨1, _⟩ => rfl)
  rw [e]; rfl

theorem dot_lhs_0 (i : S1024x512.Idx) (k : dot_S1024x128_S128x512_S1024x512_1_0_0_1_n_n.contr.Idx) :
    (dot_S1024x128_S128x512_S1024x512_1_0_0_1_n_n.lhsIdx i k 0).val = (i 0).val := by
  unfold DotDims.lhsIdx
  rw [dif_neg (show ¬(0 : Fin S1024x128.rank) ∈ dot_S1024x128_S128x512_S1024x512_1_0_0_1_n_n.lhsBatch by decide), dif_pos (show (0 : Fin S1024x128.rank) ∈ dot_S1024x128_S128x512_S1024x512_1_0_0_1_n_n.lhsNonContracting by decide)]
  rfl
theorem dot_lhs_1 (i : S1024x512.Idx) (k : dot_S1024x128_S128x512_S1024x512_1_0_0_1_n_n.contr.Idx) :
    (dot_S1024x128_S128x512_S1024x512_1_0_0_1_n_n.lhsIdx i k 1).val = (k ⟨0, by decide⟩).val :=
  dot_S1024x128_S128x512_S1024x512_1_0_0_1_n_n.lhsIdx_val_of_single rfl i k
theorem dot_rhs_0 (i : S1024x512.Idx) (k : dot_S1024x128_S128x512_S1024x512_1_0_0_1_n_n.contr.Idx) :
    (dot_S1024x128_S128x512_S1024x512_1_0_0_1_n_n.rhsIdx i k 0).val = (k ⟨0, by decide⟩).val :=
  dot_S1024x128_S128x512_S1024x512_1_0_0_1_n_n.rhsIdx_val_of_single rfl i k
theorem dot_rhs_1 (i : S1024x512.Idx) (k : dot_S1024x128_S128x512_S1024x512_1_0_0_1_n_n.contr.Idx) :
    (dot_S1024x128_S128x512_S1024x512_1_0_0_1_n_n.rhsIdx i k 1).val = (i 1).val := by
  unfold DotDims.rhsIdx
  rw [dif_neg (show ¬(1 : Fin S128x512.rank) ∈ dot_S1024x128_S128x512_S1024x512_1_0_0_1_n_n.rhsBatch by decide), dif_pos (show (1 : Fin S128x512.rank) ∈ dot_S1024x128_S128x512_S1024x512_1_0_0_1_n_n.rhsNonContracting by decide)]
  rfl

theorem gramV_apply (x0 : FVec Ideal S1024x128 .f32) (x1 : FVec Ideal S512x128 .f32) (p : Fin 1024) (q : Fin 512) :
    gramV x0 x1 (ix2 p q) = ∑ k : Fin 128, x0 (ix2 p k) * x1 (ix2 q k) := by
  unfold gramV
  refine (Ideal.matmul_constant_zero_apply dot_S1024x128_S128x512_S1024x512_1_0_0_1_n_n none _ _ (ix2 p q)).trans ?_
  rw [← Equiv.sum_comp (contrEquiv1 dot_S1024x128_S128x512_S1024x512_1_0_0_1_n_n 128 rfl rfl).symm]
  refine Finset.sum_congr rfl fun k _ => ?_
  have hk := contrEquiv1_symm_val dot_S1024x128_S128x512_S1024x512_1_0_0_1_n_n 128 rfl rfl k
  have el : dot_S1024x128_S128x512_S1024x512_1_0_0_1_n_n.lhsIdx (ix2 p q) ((contrEquiv1 dot_S1024x128_S128x512_S1024x512_1_0_0_1_n_n 128 rfl rfl).symm k) = ix2 p k :=
    funext fun a => Fin.ext (by
      match a with
      | ⟨0, _⟩ => exact dot_lhs_0 _ _
      | ⟨1, _⟩ => exact (dot_lhs_1 _ _).trans hk)
  have er : dot_S1024x128_S128x512_S1024x512_1_0_0_1_n_n.rhsIdx (ix2 p q) ((contrEquiv1 dot_S1024x128_S128x512_S1024x512_1_0_0_1_n_n 128 rfl rfl).symm k) = ix2 k q :=
    funext fun a => Fin.ext (by
      match a with
      | ⟨0, _⟩ => exact (dot_rhs_0 _ _).trans hk
      | ⟨1, _⟩ => exact dot_rhs_1 _ _)
  rw [el, er]
  refine congrArg (x0 (ix2 p k) * ·) ?_
  exact transpose_ix2_apply (truncf (F := Ideal) (φ := .f32) .bf16 x1 bitsLt_bf16_f32) transposes_S512x128_p1_0_S128x512 k q

/-- THE DISTANCE TILE: entry `(p, q)` of the body's distance tile is the distance of row `p` of the row block and row `q` of the column block. -/
theorem pay6_apply (x0 : Vec Ideal S1024x128 .f32) (x1 : Vec Ideal S512x128 .f32) (p : Fin 1024) (q : Fin 512) :
    k0_pay6 (F := Ideal) x0 x1 (ix2 p q) = distOf (fun k => x0 (ix2 p k)) (fun k => x1 (ix2 q k)) := by
  rw [pay6_eq, sqRow_apply, sqCol_apply, gramV_apply, distPt_eq]
  rfl

/-! ## The masks -/

section Bits
variable {α : Type}

theorem cmpi_eq (a b : BitVec 32) : IntOp.cmpi .eq a b = if a = b then 1#1 else 0#1 := by
  unfold IntOp.cmpi
  by_cases h : a = b
  · subst h; simp
  · have hb : (a == b) = false := beq_false_of_ne h
    simp [hb, h]

theorem select_pos_bit (a b : BitVec 32) (s : BitVec 1) (u w : α) :
    Scalar.select (IntOp.andi (IntOp.cmpi .eq a b) (IntOp.xori s 1#1)) u w = if a = b ∧ ¬ s = 1#1 then u else w := by
  rw [cmpi_eq]
  rcases BitVec.eq_zero_or_eq_one s with h | h <;> subst h <;> by_cases hab : a = b <;>
    simp [Scalar.select, IntOp.andi, IntOp.xori, hab]

theorem select_neg_bit (a b : BitVec 32) (u w : α) :
    Scalar.select (IntOp.xori (IntOp.cmpi .eq a b) 1#1) u w = if a = b then w else u := by
  rw [cmpi_eq]
  by_cases hab : a = b <;> simp [Scalar.select, IntOp.xori, hab]

end Bits

/-- Global row and column numbers as 32-bit words: below `2^32` nothing wraps, so the words agree exactly when the numbers do. -/
theorem word_eq_iff (a b p q : ℕ) (ha : a < 8) (hb : b < 16) (hp : p < 1024) (hq : q < 512) :
    (IntOp.addi (Scalar.muli (BitVec.ofNat 32 a) 1024#32) (BitVec.ofNat 32 p)
        = IntOp.addi (Scalar.muli (BitVec.ofNat 32 b) 512#32) (BitVec.ofNat 32 q)) ↔ 1024 * a + p = 512 * b + q := by
  simp only [IntOp.addi, Scalar.muli, IntOp.muli]
  rw [← BitVec.toNat_inj]
  simp only [BitVec.toNat_add, BitVec.toNat_mul, BitVec.toNat_ofNat]
  omega

/-- The "same element" mask at `(p, q)`: set exactly when the global row number equals the global column number. -/
theorem pay7_apply (i : grid0.Coords) (p : Fin 1024) (q : Fin 512) :
    k0_pay7 i (ix2 p q) = 1#1 ↔ 1024 * (i 0).val + p.val = 512 * (i 1).val + q.val := by
  unfold k0_pay7
  dsimp only
  show IntOp.cmpi .eq (IntOp.addi _ (iota .tc S1024x512 32 [0] iota_S1024x512_d0_w32 (ix2 p q)))
      (IntOp.addi _ (iota .tc S1024x512 32 [1] iota_S1024x512_d1_w32 (ix2 p q))) = 1#1 ↔ _
  rw [iota_single_apply, iota_single_apply]
  show IntOp.cmpi .eq (IntOp.addi (Scalar.muli (BitVec.ofNat 32 (i 0).val) 1024#32) (BitVec.ofNat 32 p.val))
      (IntOp.addi (Scalar.muli (BitVec.ofNat 32 (i 1).val) 512#32) (BitVec.ofNat 32 q.val)) = 1#1 ↔ _
  have h0 : (i 0).val < 8 := (i 0).isLt
  have h1 : (i 1).val < 16 := (i 1).isLt
  rw [← word_eq_iff (i 0).val (i 1).val p.val q.val h0 h1 p.isLt q.isLt, cmpi_eq]
  split <;> simp [*]

/-- The "labels agree" mask at `(p, q)`: the label of row `p` against the label of column `q`. -/
theorem pay1_apply (x2 : Vec Ideal S1024x1 .i32) (x3 : Vec Ideal S1x512 .i32) (p : Fin 1024) (q : Fin 512) :
    k0_pay1 (F := Ideal) x2 x3 (ix2 p q) = IntOp.cmpi .eq (x2 (ix2 p (0 : Fin 1))) (x3 (ix2 (0 : Fin 1) q)) := by
  unfold k0_pay1
  rw [shapeCast_self, shapeCast_self]
  show IntOp.cmpi .eq (broadcastTo S1024x512 x2 broadcasts_S1024x1_S1024x512 (ix2 p q)) (broadcastTo S1024x512 x3 broadcasts_S1x512_S1024x512 (ix2 p q)) = _
  rw [broadcastTo_a1_ab_apply, broadcastTo_1b_ab_apply]

/-! ## The lane maximum and minimum -/

/-- A lane minimum is the fold of `min` from the accumulator's value over the lane's coordinates. -/
theorem multiReduction_minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

theorem ofBits_neg_inf : Ideal.ofBits .f32 0xFF800000#32 = ⊥ := by simp [Ideal.ofBits, Ideal.ieee]
theorem ofBits_pos_inf : Ideal.ofBits .f32 0x7F800000#32 = ⊤ := by simp [Ideal.ofBits, Ideal.ieee]

theorem fold_max_bot_eq_sup {ι : Type} (s : Finset ι) (f : ι → EReal) : s.fold max ⊥ f = s.sup f := rfl
theorem fold_min_top_eq_inf {ι : Type} (s : Finset ι) (f : ι → EReal) : s.fold min ⊤ f = s.inf f := rfl

/-- What each column offers each row as a positive, as the body computes it: the distance where the labels agree and the
    element is not on the diagonal, zero elsewhere. -/
def posTile (v30 : FVec Ideal S1024x512 .f32) (v39 : IVec S1024x512 1) (x2 : Vec Ideal S1024x1 .i32) (x3 : Vec Ideal S1x512 .i32) :
    FVec Ideal S1024x512 .f32 :=
  select (andi (k0_pay1 (F := Ideal) x2 x3) (xori v39 (constantI S1024x512 1 1#1))) v30
    (broadcast S1024x512 (Scalar.ofBits (F := Ideal) .f32 0x00000000#32))

/-- What each column offers each row as a negative: the distance where the labels differ, the distance plus the large
    constant elsewhere. -/
def negTile (v30 : FVec Ideal S1024x512 .f32) (x2 : Vec Ideal S1024x1 .i32) (x3 : Vec Ideal S1x512 .i32) :
    FVec Ideal S1024x512 .f32 :=
  select (xori (k0_pay1 (F := Ideal) x2 x3) (constantI S1024x512 1 1#1)) v30
    (addf (F := Ideal) (φ := .f32) v30 (broadcast S1024x512 (Scalar.ofBits (F := Ideal) .f32 0x49742400#32)))

theorem pay2_eq (v30 : FVec Ideal S1024x512 .f32) (v39 : IVec S1024x512 1) (x2 : Vec Ideal S1024x1 .i32) (x3 : Vec Ideal S1x512 .i32)
    (a8 : Vec Ideal S1024x1 .f32) :
    k0_pay2 (F := Ideal) v30 v39 x2 x3 a8
      = shapeCast S1024x1 (maximumf (F := Ideal) (φ := .f32) a8 (shapeCast S1024x1 (multiReduction (F := Ideal) .maximumf [1] S1024
          (posTile v30 v39 x2 x3) 0xFF800000#32 reduces_S1024x512_S1024 (.inl rfl) rfl) shapeCasts_S1024_S1024x1)) shapeCasts_S1024x1_S1024x1 := rfl

theorem pay3_eq (v30 : FVec Ideal S1024x512 .f32) (x2 : Vec Ideal S1024x1 .i32) (x3 : Vec Ideal S1x512 .i32)
    (a9 : Vec Ideal S1024x1 .f32) :
    k0_pay3 (F := Ideal) v30 x2 x3 a9
      = shapeCast S1024x1 (minimumf (F := Ideal) (φ := .f32) a9 (shapeCast S1024x1 (multiReduction (F := Ideal) .minimumf [1] S1024
          (negTile v30 x2 x3) 0x7F800000#32 reduces_S1024x512_S1024 (.inl rfl) rfl) shapeCasts_S1024_S1024x1)) shapeCasts_S1024x1_S1024x1 := rfl

theorem posTile_apply (v30 : FVec Ideal S1024x512 .f32) (v39 : IVec S1024x512 1) (x2 : Vec Ideal S1024x1 .i32) (x3 : Vec Ideal S1x512 .i32)
    (p : Fin 1024) (q : Fin 512) :
    posTile v30 v39 x2 x3 (ix2 p q)
      = if x2 (ix2 p (0 : Fin 1)) = x3 (ix2 (0 : Fin 1) q) ∧ ¬ v39 (ix2 p q) = 1#1 then v30 (ix2 p q) else 0 := by
  show Scalar.select (IntOp.andi (k0_pay1 (F := Ideal) x2 x3 (ix2 p q)) (IntOp.xori (v39 (ix2 p q)) 1#1)) (v30 (ix2 p q))
      (Ideal.ofBits .f32 0x00000000#32) = _
  rw [pay1_apply, select_pos_bit, Ideal.ofBits_zero_f32]

theorem negTile_apply (v30 : FVec Ideal S1024x512 .f32) (x2 : Vec Ideal S1024x1 .i32) (x3 : Vec Ideal S1x512 .i32)
    (p : Fin 1024) (q : Fin 512) :
    negTile v30 x2 x3 (ix2 p q)
      = if x2 (ix2 p (0 : Fin 1)) = x3 (ix2 (0 : Fin 1) q) then v30 (ix2 p q) + Cert.Spec.big else v30 (ix2 p q) := by
  show Scalar.select (IntOp.xori (k0_pay1 (F := Ideal) x2 x3 (ix2 p q)) 1#1) (v30 (ix2 p q))
      (v30 (ix2 p q) + Ideal.ofBits .f32 0x49742400#32) = _
  rw [pay1_apply, select_neg_bit]

theorem lift_lane (p : Fin 1024) (q : Fin 512) : reduces_S1024x512_S1024.lift (ix1 p) q = ix2 p q :=
  funext fun a => Fin.ext (by match a with | ⟨0, _⟩ => rfl | ⟨1, _⟩ => rfl)

/-- THE POSITIVE ACCUMULATOR'S UPDATE at row `p`: the larger of what it held and the largest positive value the 512 columns of
    this block offer. -/
theorem pay2_apply (v30 : FVec Ideal S1024x512 .f32) (v39 : IVec S1024x512 1) (x2 : Vec Ideal S1024x1 .i32) (x3 : Vec Ideal S1x512 .i32)
    (a8 : Vec Ideal S1024x1 .f32) (p : Fin 1024) (z : Fin 1) :
    k0_pay2 (F := Ideal) v30 v39 x2 x3 a8 (ix2 p z)
      = max (a8 (ix2 p z)) (Finset.univ.sup fun q : Fin 512 =>
          if x2 (ix2 p (0 : Fin 1)) = x3 (ix2 (0 : Fin 1) q) ∧ ¬ v39 (ix2 p q) = 1#1 then v30 (ix2 p q) else 0) := by
  rw [pay2_eq, shapeCast_self]
  show max (a8 (ix2 p z)) _ = _
  refine congrArg (max (a8 (ix2 p z))) ?_
  refine (shapeCast_a_a1_apply _ _ p z).trans ?_
  refine (Ideal.multiReduction_maximumf_single (posTile v30 v39 x2 x3) 0xFF800000#32 reduces_S1024x512_S1024 (.inl rfl) rfl (ix1 p)).trans ?_
  show (Finset.univ : Finset (Fin 512)).fold max (Ideal.ofBits .f32 0xFF800000#32)
      (fun q : Fin 512 => posTile v30 v39 x2 x3 (reduces_S1024x512_S1024.lift (ix1 p) q)) = _
  rw [ofBits_neg_inf, fold_max_bot_eq_sup]
  refine Finset.sup_congr rfl fun q _ => ?_
  show posTile v30 v39 x2 x3 (reduces_S1024x512_S1024.lift (ix1 p) q) = _
  rw [lift_lane, posTile_apply]

/-- THE NEGATIVE ACCUMULATOR'S UPDATE at row `p`: the smaller of what it held and the smallest negative value the 512 columns
    of this block offer. -/
theorem pay3_apply (v30 : FVec Ideal S1024x512 .f32) (x2 : Vec Ideal S1024x1 .i32) (x3 : Vec Ideal S1x512 .i32)
    (a9 : Vec Ideal S1024x1 .f32) (p : Fin 1024) (z : Fin 1) :
    k0_pay3 (F := Ideal) v30 x2 x3 a9 (ix2 p z)
      = min (a9 (ix2 p z)) (Finset.univ.inf fun q : Fin 512 =>
          if x2 (ix2 p (0 : Fin 1)) = x3 (ix2 (0 : Fin 1) q) then v30 (ix2 p q) + Cert.Spec.big else v30 (ix2 p q)) := by
  rw [pay3_eq, shapeCast_self]
  show min (a9 (ix2 p z)) _ = _
  refine congrArg (min (a9 (ix2 p z))) ?_
  refine (shapeCast_a_a1_apply _ _ p z).trans ?_
  refine (multiReduction_minimumf_single (negTile v30 x2 x3) 0x7F800000#32 reduces_S1024x512_S1024 (.inl rfl) rfl (ix1 p)).trans ?_
  show (Finset.univ : Finset (Fin 512)).fold min (Ideal.ofBits .f32 0x7F800000#32)
      (fun q : Fin 512 => negTile v30 x2 x3 (reduces_S1024x512_S1024.lift (ix1 p) q)) = _
  rw [ofBits_pos_inf, fold_min_top_eq_inf]
  refine Finset.inf_congr rfl fun q _ => ?_
  show negTile v30 x2 x3 (reduces_S1024x512_S1024.lift (ix1 p) q) = _
  rw [lift_lane, negTile_apply]

/-! ## The arrays and the blocks -/

variable (m : (ℓ : Loc nD τ sig) → Buf (Elt Ideal) ℓ)

/-- The embeddings as the region finds them, read at an entry. -/
theorem V_arg0_apply (c : Dev nD) (r : Fin 8192) (k : Fin 128) : V (F := Ideal) m c main_arg0 (ix2 r k) = X m c r k :=
  congrFun (V_arg0 m c) (ix2 r k)

/-- The labels as a column are the labels. -/
theorem V_v0 (c : Dev nD) (r : Fin 8192) (z : Fin 1) : V (F := Ideal) m c main_v0 (ix2 r z) = L m c r := by
  have e : (V (F := Ideal) m c main_v0 : S8192x1.Idx → BitVec 32)
      = shapeCast S8192x1 (m ((c : Thread nD τ).loc main_arg1)) shapeCasts_S8192_S8192x1 := by
    dsimp only [V, V0, Gen.hostOps0]; simp only [List.flatten_cons, List.flatten_nil, List.append_nil]; after_results; rfl
  show (V (F := Ideal) m c main_v0 : S8192x1.Idx → BitVec 32) (ix2 r z) = _
  rw [e]
  exact shapeCast_a_a1_apply _ _ r z

/-- The labels as a row are the labels. -/
theorem V_v1 (c : Dev nD) (r : Fin 8192) (z : Fin 1) : V (F := Ideal) m c main_v1 (ix2 z r) = L m c r := by
  have e : (V (F := Ideal) m c main_v1 : S1x8192.Idx → BitVec 32)
      = shapeCast S1x8192 (m ((c : Thread nD τ).loc main_arg1)) shapeCasts_S8192_S1x8192 := by
    dsimp only [V, V0, Gen.hostOps0]; simp only [List.flatten_cons, List.flatten_nil, List.append_nil]; after_results; rfl
  show (V (F := Ideal) m c main_v1 : S1x8192.Idx → BitVec 32) (ix2 z r) = _
  rw [e]
  refine (shapeCast_apply _ _ (ix2 z r) (ix1 r) ?_).trans rfl
  rw [Shape.rowMajor_val_one, Shape.rowMajor_val_two]
  show r.val = z.val * 8192 + r.val
  have := z.isLt
  omega

/-- The global row number of row `p` of the row block of point `t`. -/
def rowOf (t : Fin cfg0.N) (p : Fin 1024) : Fin 8192 :=
  ⟨1024 * (t.val / 16) + p.val, by have h := t.isLt; have hN : cfg0.N = 128 := N_0; have := p.isLt; omega⟩
/-- The global column number of column `q` of the column block of point `t`. -/
def colOf (t : Fin cfg0.N) (q : Fin 512) : Fin 8192 :=
  ⟨512 * (t.val % 16) + q.val, by have := q.isLt; omega⟩

/-- The grid is row-major: point `t` is row block `t / 16`, column block `t % 16`; the six windows' block indices there. -/
theorem coords_facts : ∀ t : Fin cfg0.N, (grid0.coords t 0).val = t.val / 16 ∧ (grid0.coords t 1).val = t.val % 16 :=
  (by decide +kernel : ∀ t : Fin grid0.N, (grid0.coords t 0).val = t.val / 16 ∧ (grid0.coords t 1).val = t.val % 16)
theorem idx_facts0 : ∀ t : Fin cfg0.N, win0_0.index t (0 : Fin 2) = t.val / 16 ∧ win0_0.index t (1 : Fin 2) = 0 :=
  (by decide +kernel : ∀ t : Fin grid0.N, win0_0.index t (0 : Fin 2) = t.val / 16 ∧ win0_0.index t (1 : Fin 2) = 0)
theorem idx_facts1 : ∀ t : Fin cfg0.N, win0_1.index t (0 : Fin 2) = t.val % 16 ∧ win0_1.index t (1 : Fin 2) = 0 :=
  (by decide +kernel : ∀ t : Fin grid0.N, win0_1.index t (0 : Fin 2) = t.val % 16 ∧ win0_1.index t (1 : Fin 2) = 0)
theorem idx_facts2 : ∀ t : Fin cfg0.N, win0_2.index t (0 : Fin 2) = t.val / 16 ∧ win0_2.index t (1 : Fin 2) = 0 :=
  (by decide +kernel : ∀ t : Fin grid0.N, win0_2.index t (0 : Fin 2) = t.val / 16 ∧ win0_2.index t (1 : Fin 2) = 0)
theorem idx_facts3 : ∀ t : Fin cfg0.N, win0_3.index t (0 : Fin 2) = 0 ∧ win0_3.index t (1 : Fin 2) = t.val % 16 :=
  (by decide +kernel : ∀ t : Fin grid0.N, win0_3.index t (0 : Fin 2) = 0 ∧ win0_3.index t (1 : Fin 2) = t.val % 16)

/-- Row `p` of the row block at point `t` is embedding `1024 (t / 16) + p`. -/
theorem iblk0_apply (c : Dev nD) (t : Fin cfg0.N) (p : Fin 1024) (k : Fin 128) :
    (iblk (F := Ideal) m c 0 t : Vec Ideal S1024x128 .f32) (ix2 p k) = X m c (rowOf t p) k := by
  refine Eq.trans ?_ (V_arg0_apply m c (rowOf t p) k)
  unfold iblk
  rw [View.read_apply]
  show V (F := Ideal) m c main_arg0 _ = V (F := Ideal) m c main_arg0 _
  refine congrArg (V (F := Ideal) m c main_arg0) (funext fun a => Fin.ext ?_)
  match a with
  | ⟨0, _⟩ => show win0_0.index t 0 * 1024 + 1 * p.val = 1024 * (t.val / 16) + p.val; rw [(idx_facts0 t).1]; omega
  | ⟨1, _⟩ => show win0_0.index t 1 * 128 + 1 * k.val = k.val; rw [(idx_facts0 t).2]; omega

/-- Row `q` of the column block at point `t` is embedding `512 (t % 16) + q`. -/
theorem iblk1_apply (c : Dev nD) (t : Fin cfg0.N) (q : Fin 512) (k : Fin 128) :
    (iblk (F := Ideal) m c 1 t : Vec Ideal S512x128 .f32) (ix2 q k) = X m c (colOf t q) k := by
  refine Eq.trans ?_ (V_arg0_apply m c (colOf t q) k)
  unfold iblk
  rw [View.read_apply]
  show V (F := Ideal) m c main_arg0 _ = V (F := Ideal) m c main_arg0 _
  refine congrArg (V (F := Ideal) m c main_arg0) (funext fun a => Fin.ext ?_)
  match a with
  | ⟨0, _⟩ => show win0_1.index t 0 * 512 + 1 * q.val = 512 * (t.val % 16) + q.val; rw [(idx_facts1 t).1]; omega
  | ⟨1, _⟩ => show win0_1.index t 1 * 128 + 1 * k.val = k.val; rw [(idx_facts1 t).2]; omega

/-- The row block's labels. -/
theorem iblk2_apply (c : Dev nD) (t : Fin cfg0.N) (p : Fin 1024) (z : Fin 1) :
    (iblk (F := Ideal) m c 2 t : Vec Ideal S1024x1 .i32) (ix2 p z) = L m c (rowOf t p) := by
  refine Eq.trans ?_ (V_v0 m c (rowOf t p) z)
  unfold iblk
  rw [View.read_apply]
  show V (F := Ideal) m c main_v0 _ = V (F := Ideal) m c main_v0 _
  refine congrArg (V (F := Ideal) m c main_v0) (funext fun a => Fin.ext ?_)
  match a with
  | ⟨0, _⟩ => show win0_2.index t 0 * 1024 + 1 * p.val = 1024 * (t.val / 16) + p.val; rw [(idx_facts2 t).1]; omega
  | ⟨1, _⟩ => show win0_2.index t 1 * 1 + 1 * z.val = z.val; rw [(idx_facts2 t).2]; omega

/-- The column block's labels. -/
theorem iblk3_apply (c : Dev nD) (t : Fin cfg0.N) (q : Fin 512) (z : Fin 1) :
    (iblk (F := Ideal) m c 3 t : Vec Ideal S1x512 .i32) (ix2 z q) = L m c (colOf t q) := by
  refine Eq.trans ?_ (V_v1 m c (colOf t q) z)
  unfold iblk
  rw [View.read_apply]
  show V (F := Ideal) m c main_v1 _ = V (F := Ideal) m c main_v1 _
  refine congrArg (V (F := Ideal) m c main_v1) (funext fun a => Fin.ext ?_)
  match a with
  | ⟨0, _⟩ => show win0_3.index t 0 * 1 + 1 * z.val = z.val; rw [(idx_facts3 t).1]; omega
  | ⟨1, _⟩ => show win0_3.index t 1 * 512 + 1 * q.val = 512 * (t.val % 16) + q.val; rw [(idx_facts3 t).2]; omega

/-! ## One point's update, as the specification's values -/

theorem rowOf_ne_colOf (t : Fin cfg0.N) (p : Fin 1024) (q : Fin 512) :
    rowOf t p ≠ colOf t q ↔ ¬ (1024 * (grid0.coords t 0).val + p.val = 512 * (grid0.coords t 1).val + q.val) := by
  rw [(coords_facts t).1, (coords_facts t).2, Ne, Fin.ext_iff]
  rfl

/-- The positive accumulator after the body at point `t`, at row `p`: the larger of what it held and the largest positive value the
    point's 512 columns offer the row. -/
theorem step_pos (c : Dev nD) (t : Fin cfg0.N) (a : Vec Ideal S1024x1 .f32 × Vec Ideal S1024x1 .f32) (p : Fin 1024) :
    (accStep (F := Ideal) (grid0.coords t) (iblk m c 0 t) (iblk m c 1 t) (iblk m c 2 t) (iblk m c 3 t) a).1 (ix2 p (0 : Fin 1))
      = max (a.1 (ix2 p (0 : Fin 1))) (Finset.univ.sup fun q : Fin 512 => Cert.Spec.posVal (X m c) (L m c) (rowOf t p) (colOf t q)) := by
  show k0_pay2 (F := Ideal) (k0_pay6 (F := Ideal) (iblk m c 0 t) (iblk m c 1 t)) (k0_pay7 (grid0.coords t)) (iblk m c 2 t) (iblk m c 3 t) a.1 (ix2 p (0 : Fin 1)) = _
  refine (pay2_apply (k0_pay6 (F := Ideal) (iblk m c 0 t) (iblk m c 1 t)) (k0_pay7 (grid0.coords t)) (iblk m c 2 t) (iblk m c 3 t) a.1 p 0).trans ?_
  refine congrArg (max (a.1 (ix2 p (0 : Fin 1)))) (Finset.sup_congr rfl fun q _ => ?_)
  rw [iblk2_apply m c t p 0, iblk3_apply m c t q 0, pay6_apply (iblk m c 0 t) (iblk m c 1 t) p q]
  have hx0 : (fun k => (iblk (F := Ideal) m c 0 t : Vec Ideal S1024x128 .f32) (ix2 p k)) = X m c (rowOf t p) :=
    funext fun k => iblk0_apply m c t p k
  have hx1 : (fun k => (iblk (F := Ideal) m c 1 t : Vec Ideal S512x128 .f32) (ix2 q k)) = X m c (colOf t q) :=
    funext fun k => iblk1_apply m c t q k
  rw [hx0, hx1]
  have hc : (L m c (rowOf t p) = L m c (colOf t q) ∧ ¬ k0_pay7 (grid0.coords t) (ix2 p q) = 1#1)
      ↔ (L m c (rowOf t p) = L m c (colOf t q) ∧ rowOf t p ≠ colOf t q) := by
    rw [pay7_apply (grid0.coords t) p q, ← rowOf_ne_colOf t p q]
  unfold Cert.Spec.posVal
  rw [dist_eq_distOf]
  exact if_congr hc rfl rfl

/-- The negative accumulator after the body at point `t`, at row `p`: the smaller of what it held and the smallest negative value
    the point's 512 columns offer the row. -/
theorem step_neg (c : Dev nD) (t : Fin cfg0.N) (a : Vec Ideal S1024x1 .f32 × Vec Ideal S1024x1 .f32) (p : Fin 1024) :
    (accStep (F := Ideal) (grid0.coords t) (iblk m c 0 t) (iblk m c 1 t) (iblk m c 2 t) (iblk m c 3 t) a).2 (ix2 p (0 : Fin 1))
      = min (a.2 (ix2 p (0 : Fin 1))) (Finset.univ.inf fun q : Fin 512 => Cert.Spec.negVal (X m c) (L m c) (rowOf t p) (colOf t q)) := by
  show k0_pay3 (F := Ideal) (k0_pay6 (F := Ideal) (iblk m c 0 t) (iblk m c 1 t)) (iblk m c 2 t) (iblk m c 3 t) a.2 (ix2 p (0 : Fin 1)) = _
  refine (pay3_apply (k0_pay6 (F := Ideal) (iblk m c 0 t) (iblk m c 1 t)) (iblk m c 2 t) (iblk m c 3 t) a.2 p 0).trans ?_
  refine congrArg (min (a.2 (ix2 p (0 : Fin 1)))) (Finset.inf_congr rfl fun q _ => ?_)
  rw [iblk2_apply m c t p 0, iblk3_apply m c t q 0, pay6_apply (iblk m c 0 t) (iblk m c 1 t) p q]
  have hx0 : (fun k => (iblk (F := Ideal) m c 0 t : Vec Ideal S1024x128 .f32) (ix2 p k)) = X m c (rowOf t p) :=
    funext fun k => iblk0_apply m c t p k
  have hx1 : (fun k => (iblk (F := Ideal) m c 1 t : Vec Ideal S512x128 .f32) (ix2 q k)) = X m c (colOf t q) :=
    funext fun k => iblk1_apply m c t q k
  rw [hx0, hx1]
  unfold Cert.Spec.negVal
  rw [dist_eq_distOf]

/-- The reset values at a row: zero and +∞. -/
theorem pay4_apply (p : Fin 1024) (z : Fin 1) : k0_pay4 (F := Ideal) (ix2 p z) = 0 := by
  unfold k0_pay4
  rw [shapeCast_self]
  exact Ideal.ofBits_zero_f32
theorem pay5_apply (p : Fin 1024) (z : Fin 1) : k0_pay5 (F := Ideal) (ix2 p z) = ⊤ := by
  unfold k0_pay5
  rw [shapeCast_self]
  exact ofBits_pos_inf

end Cert.KernelIdeal.HandValue
end
-- ==== Proof.Val.KAcc.lean ====
/-
  The two accumulators after each point, row by row. Within one row block the column blocks are visited left to right;
  after column block j the positive accumulator at a row dominates every positive value the columns below 512 (j + 1)
  offer the row and never exceeds the row's hardest positive, and dually the negative accumulator is below every negative
  value of those columns and never below the row's hardest negative. The reset values fit: zero is what the diagonal
  column offers as a positive, and +∞ is above everything. After column block 15 every column has been seen, so the
  bounds meet: the accumulators hold the hardest positive and the hardest negative.
-/
import proofs.«111471_j80668075754103_1_alg».proof.Proof.Val.KPoint

set_option maxRecDepth 16384

noncomputable section

namespace Cert.KernelIdeal.HandValue

open Idealize.ShloMosaic Idealize.ShloMosaic.TcCoe Idealize.ShloMosaic.Tactic Idealize.ShloMosaic.ValueIdx
open Idealize.SL.Sem
open Cert.KernelIdeal Cert.KernelIdeal.Gen Cert.KernelIdeal.Hand

/-! ## Growing a running maximum or minimum by one block of 512 columns -/

theorem sup_block_step (f : Fin 8192 → EReal) (j : ℕ) (hj : j < 16) (old : EReal)
    (hlow : ∀ col : Fin 8192, col.val < 512 * j → f col ≤ old) (hup : old ≤ Finset.univ.sup f)
    (g : Fin 512 → EReal) (hg : ∀ q : Fin 512, g q = f ⟨512 * j + q.val, by have := q.isLt; omega⟩) :
    (∀ col : Fin 8192, col.val < 512 * (j + 1) → f col ≤ max old (Finset.univ.sup g))
      ∧ max old (Finset.univ.sup g) ≤ Finset.univ.sup f := by
  constructor
  · intro col hcol
    by_cases h : col.val < 512 * j
    · exact (hlow col h).trans (le_max_left _ _)
    · have hq : col.val - 512 * j < 512 := by omega
      have e : f col = g ⟨col.val - 512 * j, hq⟩ := by
        rw [hg]; exact congrArg f (Fin.ext (by show col.val = 512 * j + (col.val - 512 * j); omega))
      rw [e]
      exact (Finset.le_sup (f := g) (Finset.mem_univ _)).trans (le_max_right _ _)
  · refine max_le hup (Finset.sup_le fun q _ => ?_)
    rw [hg]
    exact Finset.le_sup (f := f) (Finset.mem_univ _)

theorem inf_block_step (f : Fin 8192 → EReal) (j : ℕ) (hj : j < 16) (old : EReal)
    (hlow : ∀ col : Fin 8192, col.val < 512 * j → old ≤ f col) (hup : Finset.univ.inf f ≤ old)
    (g : Fin 512 → EReal) (hg : ∀ q : Fin 512, g q = f ⟨512 * j + q.val, by have := q.isLt; omega⟩) :
    (∀ col : Fin 8192, col.val < 512 * (j + 1) → min old (Finset.univ.inf g) ≤ f col)
      ∧ Finset.univ.inf f ≤ min old (Finset.univ.inf g) := by
  constructor
  · intro col hcol
    by_cases h : col.val < 512 * j
    · exact (min_le_left _ _).trans (hlow col h)
    · have hq : col.val - 512 * j < 512 := by omega
      have e : f col = g ⟨col.val - 512 * j, hq⟩ := by
        rw [hg]; exact congrArg f (Fin.ext (by show col.val = 512 * j + (col.val - 512 * j); omega))
      rw [e]
      exact (min_le_right _ _).trans (Finset.inf_le (f := g) (Finset.mem_univ _))
  · refine le_min hup (Finset.le_inf fun q _ => ?_)
    rw [hg]
    exact Finset.inf_le (f := f) (Finset.mem_univ _)

/-! ## The invariant of the accumulators -/

variable (m : (ℓ : Loc nD τ sig) → Buf (Elt Ideal) ℓ)

/-- The diagonal column offers zero as a positive, so zero never exceeds the hardest positive. -/
theorem zero_le_pos (c : Dev nD) (r : Fin 8192) : (0 : EReal) ≤ Cert.Spec.pos (X m c) (L m c) r := by
  have h : Cert.Spec.posVal (X m c) (L m c) r r = 0 := by simp [Cert.Spec.posVal]
  rw [← h]
  exact Finset.le_sup (f := Cert.Spec.posVal (X m c) (L m c) r) (Finset.mem_univ r)

/-- After the body at position `n` (column block `n % 16` of row block `n / 16`), at row `p` of the block. -/
def Inv (c : Dev nD) (n : ℕ) (hn : n < cfg0.N) (p : Fin 1024) : Prop :=
  (∀ col : Fin 8192, col.val < 512 * (n % 16 + 1) →
      Cert.Spec.posVal (X m c) (L m c) (rowOf ⟨n, hn⟩ p) col ≤ (accAt (F := Ideal) m c n hn).1 (ix2 p (0 : Fin 1)))
  ∧ (accAt (F := Ideal) m c n hn).1 (ix2 p (0 : Fin 1)) ≤ Cert.Spec.pos (X m c) (L m c) (rowOf ⟨n, hn⟩ p)
  ∧ (∀ col : Fin 8192, col.val < 512 * (n % 16 + 1) →
      (accAt (F := Ideal) m c n hn).2 (ix2 p (0 : Fin 1)) ≤ Cert.Spec.negVal (X m c) (L m c) (rowOf ⟨n, hn⟩ p) col)
  ∧ Cert.Spec.neg (X m c) (L m c) (rowOf ⟨n, hn⟩ p) ≤ (accAt (F := Ideal) m c n hn).2 (ix2 p (0 : Fin 1))

/-- At column block 0 the update starts from the reset values. -/
theorem inv_reset (c : Dev nD) (t : Fin cfg0.N) (h0 : t.val % 16 = 0) (p : Fin 1024) : Inv m c t.val t.isLt p := by
  unfold Inv
  rw [accAt_reset m c t h0, step_pos m c t _ p, step_neg m c t _ p]
  show (∀ col : Fin 8192, col.val < 512 * (t.val % 16 + 1) → Cert.Spec.posVal (X m c) (L m c) (rowOf t p) col ≤ max (k0_pay4 (F := Ideal) (ix2 p (0 : Fin 1))) _)
    ∧ max (k0_pay4 (F := Ideal) (ix2 p (0 : Fin 1))) _ ≤ Cert.Spec.pos (X m c) (L m c) (rowOf t p)
    ∧ (∀ col : Fin 8192, col.val < 512 * (t.val % 16 + 1) → min (k0_pay5 (F := Ideal) (ix2 p (0 : Fin 1))) _ ≤ Cert.Spec.negVal (X m c) (L m c) (rowOf t p) col)
    ∧ Cert.Spec.neg (X m c) (L m c) (rowOf t p) ≤ min (k0_pay5 (F := Ideal) (ix2 p (0 : Fin 1))) _
  rw [pay4_apply, pay5_apply]
  have hj : t.val % 16 < 16 := Nat.mod_lt _ (by decide)
  have P := sup_block_step (Cert.Spec.posVal (X m c) (L m c) (rowOf t p)) (t.val % 16) hj 0
    (fun col h => absurd h (by omega)) (zero_le_pos m c (rowOf t p))
    (fun q => Cert.Spec.posVal (X m c) (L m c) (rowOf t p) (colOf t q)) (fun q => rfl)
  have Q := inf_block_step (Cert.Spec.negVal (X m c) (L m c) (rowOf t p)) (t.val % 16) hj ⊤
    (fun col h => absurd h (by omega)) le_top
    (fun q => Cert.Spec.negVal (X m c) (L m c) (rowOf t p) (colOf t q)) (fun q => rfl)
  exact ⟨P.1, P.2, Q.1, Q.2⟩

/-- At a later column block the update starts from what the point before left, which satisfies the invariant for one block
    of columns fewer and the same row. -/
theorem inv_step (c : Dev nD) (t : Fin cfg0.N) (h0 : ¬ t.val % 16 = 0) (p : Fin 1024)
    (ih : Inv m c (t.val - 1) (Nat.lt_of_le_of_lt (Nat.sub_le _ _) t.isLt) p) : Inv m c t.val t.isLt p := by
  unfold Inv at ih ⊢
  have hrow : rowOf ⟨t.val - 1, Nat.lt_of_le_of_lt (Nat.sub_le _ _) t.isLt⟩ p = rowOf t p :=
    Fin.ext (by show 1024 * ((t.val - 1) / 16) + p.val = 1024 * (t.val / 16) + p.val; omega)
  have hcols : (t.val - 1) % 16 + 1 = t.val % 16 := by omega
  rw [hrow, hcols] at ih
  obtain ⟨i1, i2, i3, i4⟩ := ih
  rw [accAt_step m c t h0, step_pos m c t _ p, step_neg m c t _ p]
  have hj : t.val % 16 < 16 := Nat.mod_lt _ (by decide)
  have P := sup_block_step (Cert.Spec.posVal (X m c) (L m c) (rowOf t p)) (t.val % 16) hj _ i1 i2
    (fun q => Cert.Spec.posVal (X m c) (L m c) (rowOf t p) (colOf t q)) (fun q => rfl)
  have Q := inf_block_step (Cert.Spec.negVal (X m c) (L m c) (rowOf t p)) (t.val % 16) hj _ i3 i4
    (fun q => Cert.Spec.negVal (X m c) (L m c) (rowOf t p) (colOf t q)) (fun q => rfl)
  exact ⟨P.1, P.2, Q.1, Q.2⟩

theorem inv_all (c : Dev nD) (p : Fin 1024) : ∀ (n : ℕ) (hn : n < cfg0.N), Inv m c n hn p := by
  intro n
  induction n with
  | zero => intro hn; exact inv_reset m c ⟨0, hn⟩ rfl p
  | succ n ih =>
    intro hn
    by_cases h0 : (n + 1) % 16 = 0
    · exact inv_reset m c ⟨n + 1, hn⟩ h0 p
    · exact inv_step m c ⟨n + 1, hn⟩ h0 p (ih (Nat.lt_of_succ_lt hn))

/-! ## After the last column block -/

/-- After column block 15 of row block `i` the positive accumulator holds, at row `p`, the hardest positive of row `1024 i + p`. -/
theorem acc_pos (c : Dev nD) (i : Fin 8) (p : Fin 1024) :
    (accAt (F := Ideal) m c (16 * i.val + 15) (by have : cfg0.N = 128 := N_0; omega)).1 (ix2 p 0)
      = Cert.Spec.pos (X m c) (L m c) ⟨1024 * i.val + p.val, by omega⟩ := by
  have hn : 16 * i.val + 15 < cfg0.N := by have : cfg0.N = 128 := N_0; omega
  obtain ⟨h1, h2, -, -⟩ := inv_all m c p (16 * i.val + 15) hn
  have hrow : rowOf ⟨16 * i.val + 15, hn⟩ p = ⟨1024 * i.val + p.val, by omega⟩ :=
    Fin.ext (by show 1024 * ((16 * i.val + 15) / 16) + p.val = 1024 * i.val + p.val; omega)
  rw [hrow] at h1 h2
  refine le_antisymm h2 (Finset.sup_le fun col _ => h1 col ?_)
  have := col.isLt
  omega

/-- … and the negative accumulator the hardest negative. -/
theorem acc_neg (c : Dev nD) (i : Fin 8) (p : Fin 1024) :
    (accAt (F := Ideal) m c (16 * i.val + 15) (by have : cfg0.N = 128 := N_0; omega)).2 (ix2 p 0)
      = Cert.Spec.neg (X m c) (L m c) ⟨1024 * i.val + p.val, by omega⟩ := by
  have hn : 16 * i.val + 15 < cfg0.N := by have : cfg0.N = 128 := N_0; omega
  obtain ⟨-, -, h3, h4⟩ := inv_all m c p (16 * i.val + 15) hn
  have hrow : rowOf ⟨16 * i.val + 15, hn⟩ p = ⟨1024 * i.val + p.val, by omega⟩ :=
    Fin.ext (by show 1024 * ((16 * i.val + 15) / 16) + p.val = 1024 * i.val + p.val; omega)
  rw [hrow] at h3 h4
  refine le_antisymm (Finset.le_inf fun col _ => h3 col ?_) h4
  have := col.isLt
  omega

end Cert.KernelIdeal.HandValue
end
-- ==== Proof.Val.KFinal.lean ====
/-
  The kernel's two output arrays after the run, from what the two accumulators hold at the last point of each row block.
  The grid's point t is row block t / 16 and column block t % 16. An output's block at point t is rows
  1024·(t / 16) … 1024·(t / 16) + 1023 of its one column, and it is written back only at column block 15, where the
  staging buffer holds the accumulator. So if at every point 16·i + 15 the accumulator's row p is the specification's
  value of row 1024·i + p, each writing point writes its block of the specification's column; every row r lies in the
  block of the writing point 16·(r / 1024) + 15; hence the array ends holding the specification's value in every row.
-/
import proofs.«111471_j80668075754103_1_alg».proof.Proof.KI.Dats
import proofs.«111471_j80668075754103_1_alg».proof.Proof.Val.Spec
import proofs.«111471_j80668075754103_1_alg».proof.Proof.Val.XL
import Idealize.ShloMosaic.Lib.Pipeline.Value
import Idealize.ShloMosaic.Lib.ValueIdx

set_option maxRecDepth 16384

noncomputable section

namespace Cert.KernelIdeal.HandValue

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen
open Cert.KernelIdeal.Hand Idealize.ShloMosaic.ValueIdx

variable (m : (ℓ : Loc nD τ sig) → Buf (Elt Ideal) ℓ)

/-- The two outputs' block index maps over the grid: point t writes rows block t / 16 of the one column. -/
theorem idx_facts4 : ∀ t : Fin cfg0.N, win0_4.index t (0 : Fin 2) = t.val / 16 ∧ win0_4.index t (1 : Fin 2) = 0 :=
  (by decide +kernel : ∀ t : Fin grid0.N, win0_4.index t (0 : Fin 2) = t.val / 16 ∧ win0_4.index t (1 : Fin 2) = 0)
theorem idx_facts5 : ∀ t : Fin cfg0.N, win0_5.index t (0 : Fin 2) = t.val / 16 ∧ win0_5.index t (1 : Fin 2) = 0 :=
  (by decide +kernel : ∀ t : Fin grid0.N, win0_5.index t (0 : Fin 2) = t.val / 16 ∧ win0_5.index t (1 : Fin 2) = 0)

/-- The accumulators at equal positions are equal. -/
theorem accAt_congr (c : Dev nD) (n n' : ℕ) (h : n < cfg0.N) (h' : n' < cfg0.N) (e : n = n') :
    accAt (F := Ideal) m c n h = accAt (F := Ideal) m c n' h' := by subst e; rfl

/-- A function of the row as the contents of a one-column array. -/
abbrev asColumn (f : Fin 8192 → EReal) : S8192x1.Idx → EReal := fun y => f ⟨(y 0).val, (y 0).isLt⟩

/-! ## The first output: the hardest positives -/

/-- An index of the output array is in point t's block exactly when each coordinate is in the block's range. -/
theorem mem_blk4 (t : Fin cfg0.N) (i : S8192x1.Idx) :
    i ∈ ((cfg0.win 4).blk t).view.set ↔ ∀ a : Fin 2, win0_4.index t a * S1024x1.size a ≤ (i a).val ∧ (i a).val < win0_4.index t a * S1024x1.size a + S1024x1.size a := by
  show i ∈ ((View.whole main_v2_0).slice (win0_4.rect t)).set ↔ _
  rw [View.set_slice_whole, Rect.mem_set_unit]
  exact Iff.rfl

/-- Every row is in the block of the last point of its row block, and that point writes back. -/
theorem cover4 (i : S8192x1.Idx) : ∃ t : Fin cfg0.N, (cfg0.win 4).flush t = true ∧ i ∈ ((cfg0.win 4).blk t).view.set := by
  have hN : cfg0.N = 128 := N_0
  have hi0 : (i 0).val < 8192 := (i 0).isLt
  have hi1 : (i 1).val < 1 := (i 1).isLt
  obtain ⟨t, htv⟩ : ∃ t : Fin cfg0.N, t.val = 16 * ((i 0).val / 1024) + 15 := ⟨⟨16 * ((i 0).val / 1024) + 15, by omega⟩, rfl⟩
  obtain ⟨e0, e1⟩ := idx_facts4 t
  refine ⟨t, (flush0_4 t).mpr (by omega), ?_⟩
  rw [mem_blk4]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 1 ≤ (i 1).val ∧ (i 1).val < win0_4.index t (1 : Fin 2) * 1 + 1; omega

section
variable (c : Dev nD)
  (hacc : ∀ (i : Fin 8) (p : Fin 1024), (accAt (F := Ideal) m c (16 * i.val + 15) (by have : cfg0.N = 128 := N_0; omega)).1 (ix2 p 0) = Cert.Spec.pos (X m c) (L m c) ⟨1024 * i.val + p.val, by omega⟩)
include hacc

/-- At the last point of a row block the accumulator holds, row by row, the specification's value of that row. -/
theorem acc_row4 (t : Fin cfg0.N) (h15 : t.val % 16 = 15) (p : Fin 1024) (q : Fin 1) :
    (accAt (F := Ideal) m c t.val t.isLt).1 (ix2 p q)
      = Cert.Spec.pos (X m c) (L m c) ⟨1024 * (t.val / 16) + p.val, by have := t.isLt; have : cfg0.N = 128 := N_0; omega⟩ := by
  have hN : cfg0.N = 128 := N_0
  have ht := t.isLt
  obtain rfl : q = 0 := Subsingleton.elim _ _
  have e : t.val = 16 * (⟨t.val / 16, by omega⟩ : Fin 8).val + 15 := by show t.val = 16 * (t.val / 16) + 15; omega
  exact (congrArg (fun a => a.1 (ix2 p 0)) (accAt_congr m c _ _ t.isLt (by omega) e)).trans (hacc ⟨t.val / 16, by omega⟩ p)

/-- What a writing point writes back is its block of the specification's column. -/
theorem flushed4_eq (t : Fin cfg0.N) (hf : (cfg0.win 4).flush t = true) :
    (dats (F := Ideal) m 0 c).flushed 4 t = ((cfg0.win 4).blk t).view.read (Elt Ideal) (asColumn (Cert.Spec.pos (X m c) (L m c))) := by
  have h15 : t.val % 16 = 15 := (flush0_4 t).mp hf
  obtain ⟨e0, e1⟩ := idx_facts4 t
  show (cfg0.win 4).cut (grid0.coords t) ((dats (F := Ideal) m 0 c).after 4 t) = _
  rw [after0_4]
  funext j
  have hj0 : (j 0).val < 1024 := (j 0).isLt
  have hj1 : (j 1).val < 1 := (j 1).isLt
  have ex : (cfg0.win 4).xinj (grid0.coords t) j = ix2 (⟨(j 0).val, hj0⟩ : Fin 1024) (⟨(j 1).val, hj1⟩ : Fin 1) :=
    funext fun a => Fin.ext (by match a with | ⟨0, _⟩ => rfl | ⟨1, _⟩ => rfl)
  rw [View.read_apply]
  show (accAt (F := Ideal) m c t.val t.isLt).1 ((cfg0.win 4).xinj (grid0.coords t) j) = _
  rw [ex, acc_row4 m c hacc t h15]
  exact congrArg (Cert.Spec.pos (X m c) (L m c)) (Fin.ext (by
    show 1024 * (t.val / 16) + (j 0).val = win0_4.index t (0 : Fin 2) * 1024 + 1 * (j 0).val
    omega))

/-- After the run the first output array holds, row by row, the hardest positive. -/
theorem final_pos : (dats (F := Ideal) m 0 c).arrAt 4 cfg0.N = asColumn (Cert.Spec.pos (X m c) (L m c)) :=
  (dats (F := Ideal) m 0 c).arrAt_eq_of_cover 4 _ (fun t hf => flushed4_eq m c hacc t hf) (cover4)

/-- The same, read at row r. -/
theorem final_pos_row (r : Fin 8192) :
    ((dats (F := Ideal) m 0 c).arrAt 4 cfg0.N : S8192x1.Idx → EReal) (ix2 r 0) = Cert.Spec.pos (X m c) (L m c) r := by
  rw [final_pos m c hacc]

end

/-! ## The second output: the hardest negatives -/

/-- An index of the output array is in point t's block exactly when each coordinate is in the block's range. -/
theorem mem_blk5 (t : Fin cfg0.N) (i : S8192x1.Idx) :
    i ∈ ((cfg0.win 5).blk t).view.set ↔ ∀ a : Fin 2, win0_5.index t a * S1024x1.size a ≤ (i a).val ∧ (i a).val < win0_5.index t a * S1024x1.size a + S1024x1.size a := by
  show i ∈ ((View.whole main_v2_1).slice (win0_5.rect t)).set ↔ _
  rw [View.set_slice_whole, Rect.mem_set_unit]
  exact Iff.rfl

/-- Every row is in the block of the last point of its row block, and that point writes back. -/
theorem cover5 (i : S8192x1.Idx) : ∃ t : Fin cfg0.N, (cfg0.win 5).flush t = true ∧ i ∈ ((cfg0.win 5).blk t).view.set := by
  have hN : cfg0.N = 128 := N_0
  have hi0 : (i 0).val < 8192 := (i 0).isLt
  have hi1 : (i 1).val < 1 := (i 1).isLt
  obtain ⟨t, htv⟩ : ∃ t : Fin cfg0.N, t.val = 16 * ((i 0).val / 1024) + 15 := ⟨⟨16 * ((i 0).val / 1024) + 15, by omega⟩, rfl⟩
  obtain ⟨e0, e1⟩ := idx_facts5 t
  refine ⟨t, (flush0_5 t).mpr (by omega), ?_⟩
  rw [mem_blk5]
  intro a
  match a with
  | ⟨0, _⟩ => show win0_5.index t (0 : Fin 2) * 1024 ≤ (i 0).val ∧ (i 0).val < win0_5.index t (0 : Fin 2) * 1024 + 1024; omega
  | ⟨1, _⟩ => show win0_5.index t (1 : Fin 2) * 1 ≤ (i 1).val ∧ (i 1).val < win0_5.index t (1 : Fin 2) * 1 + 1; omega

section
variable (c : Dev nD)
  (hacc : ∀ (i : Fin 8) (p : Fin 1024), (accAt (F := Ideal) m c (16 * i.val + 15) (by have : cfg0.N = 128 := N_0; omega)).2 (ix2 p 0) = Cert.Spec.neg (X m c) (L m c) ⟨1024 * i.val + p.val, by omega⟩)
include hacc

/-- At the last point of a row block the accumulator holds, row by row, the specification's value of that row. -/
theorem acc_row5 (t : Fin cfg0.N) (h15 : t.val % 16 = 15) (p : Fin 1024) (q : Fin 1) :
    (accAt (F := Ideal) m c t.val t.isLt).2 (ix2 p q)
      = Cert.Spec.neg (X m c) (L m c) ⟨1024 * (t.val / 16) + p.val, by have := t.isLt; have : cfg0.N = 128 := N_0; omega⟩ := by
  have hN : cfg0.N = 128 := N_0
  have ht := t.isLt
  obtain rfl : q = 0 := Subsingleton.elim _ _
  have e : t.val = 16 * (⟨t.val / 16, by omega⟩ : Fin 8).val + 15 := by show t.val = 16 * (t.val / 16) + 15; omega
  exact (congrArg (fun a => a.2 (ix2 p 0)) (accAt_congr m c _ _ t.isLt (by omega) e)).trans (hacc ⟨t.val / 16, by omega⟩ p)

/-- What a writing point writes back is its block of the specification's column. -/
theorem flushed5_eq (t : Fin cfg0.N) (hf : (cfg0.win 5).flush t = true) :
    (dats (F := Ideal) m 0 c).flushed 5 t = ((cfg0.win 5).blk t).view.read (Elt Ideal) (asColumn (Cert.Spec.neg (X m c) (L m c))) := by
  have h15 : t.val % 16 = 15 := (flush0_5 t).mp hf
  obtain ⟨e0, e1⟩ := idx_facts5 t
  show (cfg0.win 5).cut (grid0.coords t) ((dats (F := Ideal) m 0 c).after 5 t) = _
  rw [after0_5]
  funext j
  have hj0 : (j 0).val < 1024 := (j 0).isLt
  have hj1 : (j 1).val < 1 := (j 1).isLt
  have ex : (cfg0.win 5).xinj (grid0.coords t) j = ix2 (⟨(j 0).val, hj0⟩ : Fin 1024) (⟨(j 1).val, hj1⟩ : Fin 1) :=
    funext fun a => Fin.ext (by match a with | ⟨0, _⟩ => rfl | ⟨1, _⟩ => rfl)
  rw [View.read_apply]
  show (accAt (F := Ideal) m c t.val t.isLt).2 ((cfg0.win 5).xinj (grid0.coords t) j) = _
  rw [ex, acc_row5 m c hacc t h15]
  exact congrArg (Cert.Spec.neg (X m c) (L m c)) (Fin.ext (by
    show 1024 * (t.val / 16) + (j 0).val = win0_5.index t (0 : Fin 2) * 1024 + 1 * (j 0).val
    omega))

/-- After the run the second output array holds, row by row, the hardest negative. -/
theorem final_neg : (dats (F := Ideal) m 0 c).arrAt 5 cfg0.N = asColumn (Cert.Spec.neg (X m c) (L m c)) :=
  (dats (F := Ideal) m 0 c).arrAt_eq_of_cover 5 _ (fun t hf => flushed5_eq m c hacc t hf) (cover5)

/-- The same, read at row r. -/
theorem final_neg_row (r : Fin 8192) :
    ((dats (F := Ideal) m 0 c).arrAt 5 cfg0.N : S8192x1.Idx → EReal) (ix2 r 0) = Cert.Spec.neg (X m c) (L m c) r := by
  rw [final_neg m c hacc]

end

end Cert.KernelIdeal.HandValue
end
-- ==== Proof.lean ====
/-
  Hardest-positive / hardest-negative distances of 8192 embeddings in 128 dimensions, and the mean hinge of their
  difference plus a margin.

  The kernel walks the 8192 × 8192 distance matrix in tiles of 1024 rows by 512 columns, row block by row block. For a
  tile it forms dist(r, c) = sqrt(max(|x_r|² + |x_c|² − 2⟨x_r, x_c⟩, 0)) (zero where the clamped square is not positive)
  and keeps, per row, a running maximum of "dist where the labels agree and c ≠ r, else 0" started at 0, and a running minimum
  of "dist where the labels differ, else dist + 10⁶" started at +∞; after the sixteenth column block the two accumulators
  are written out. The reference forms the whole matrix, multiplies it by the mask (same − identity), adds (1 − (1 − same))·10⁶,
  and reduces each row with max from −∞ and min from +∞. Both then take the mean over the rows of max(pos − neg + margin, 0).

  Over the extended reals the two agree entry by entry: the masks take the values 0 and 1 only, d·1 = d, d·0 = 0 and
  d + 0·10⁶ = d, so the masked products are the selections; a maximum over all columns is the maximum of the sixteen block
  maxima, and the kernel's extra starting value 0 changes nothing because the column c = r already offers 0. No law used
  here needs the inputs to be finite. The word-level kernel and its idealization are the same text, so their frames are
  one argument read at two instances: at every grid point the body leaves each input block as it found it, updates
  the two accumulators, and writes the outputs only at the last column block; the embeddings array is read through two windows
  (as rows and as columns), each holding half of its share.
-/
import proofs.«111471_j80668075754103_1_alg».proof.Defs
import proofs.«111471_j80668075754103_1_alg».proof.Proof.Gen.Kernel
import proofs.«111471_j80668075754103_1_alg».proof.Proof.Gen.KernelIdeal
import proofs.«111471_j80668075754103_1_alg».proof.Proof.Gen.ReferenceIdeal
import proofs.«111471_j80668075754103_1_alg».proof.Proof.Gen.Pre_finite_inputs
import proofs.«111471_j80668075754103_1_alg».proof.Proof.Gen.ReferenceIdeal.Run
import proofs.«111471_j80668075754103_1_alg».proof.Proof.Gen.ReferenceIdeal.Read
import proofs.«111471_j80668075754103_1_alg».proof.Proof.KI.TailVal
import proofs.«111471_j80668075754103_1_alg».proof.Proof.KI.Body
import proofs.«111471_j80668075754103_1_alg».proof.Proof.KI.Launch
import proofs.«111471_j80668075754103_1_alg».proof.Proof.K.Body
import proofs.«111471_j80668075754103_1_alg».proof.Proof.K.Launch
import proofs.«111471_j80668075754103_1_alg».proof.Proof.Val.XL
import proofs.«111471_j80668075754103_1_alg».proof.Proof.Val.RefVal
import proofs.«111471_j80668075754103_1_alg».proof.Proof.Val.KAcc
import proofs.«111471_j80668075754103_1_alg».proof.Proof.Val.KFinal
import Idealize.ShloMosaic.Adequacy
import Idealize.ShloMosaic.Init

noncomputable section

namespace Cert.Proof

open Idealize.ShloMosaic Idealize.SL.Sem Idealize.ShloMosaic.ValueIdx

/-- The common result: the mean over the rows of max(pos r − neg r + margin, 0), with pos and neg the hardest positive
    and hardest negative distances of the embeddings and labels in the kernel's launch memory. -/
def result (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v10) :=
  Cert.ReferenceIdeal.RefValue.refTail
    (fun r => Cert.Spec.pos (Cert.KernelIdeal.HandValue.X m c) (Cert.KernelIdeal.HandValue.L m c) (r 0))
    (fun r => Cert.Spec.neg (Cert.KernelIdeal.HandValue.X m c) (Cert.KernelIdeal.HandValue.L m c) (r 0))
    (m ((c.tc : Thread Cert.KernelIdeal.nD Cert.KernelIdeal.τ).loc Cert.KernelIdeal.main_arg2))

/-- The word-level kernel runs to the end, faults nowhere and leaves its three arguments as they were. -/
theorem frame_k : Cert.frame_Kernel := fun m ρ _ =>
  Cert.Kernel.Hand.frame_ki (F := Bits) m ρ (Cert.Kernel.Hand.body_obligation m)

/-- So does the idealized kernel. -/
theorem frame_ki : Cert.frame_KernelIdeal := fun m ρ _ =>
  Cert.KernelIdeal.Hand.frame_ki (F := Ideal) m ρ (Cert.KernelIdeal.Hand.body_obligation m)

theorem frame_ri : Cert.frame_ReferenceIdeal := Cert.ReferenceIdeal.RefValue.frame_ri

theorem preserves : Cert.preserves_Kernel_KernelIdeal := trivial

/-- The reference's run ends at the common result when its memory agrees with the kernel's on the arguments. -/
theorem ref_half (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (g' : Dev Cert.ReferenceIdeal.nD → PrngReg)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = result m c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)) := by
  refine (θ_run Cert.ReferenceIdeal.defs _ _).mono (fun r h c => ⟨(h c).1.trans ?_, (h c).2⟩) (Cert.ReferenceIdeal.RefValue.ref_run m' g')
  rw [(hagree c).1, (hagree c).2.1, (hagree c).2.2]
  rfl

/-- The idealized kernel's run ends at the common result, its arguments as they were: the two output columns hold, row
    by row, the hardest positive and the hardest negative distance (the running maximum and minimum over the sixteen column
    blocks are the maximum and minimum over all columns), and the host lines after the region take their mean hinge. -/
theorem kernel_half (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = result m c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)) := by
  refine (θ_run Cert.KernelIdeal.defs _ _).mono (fun r h c => ⟨?_, Cert.KernelIdeal.Hand.framePost_args m r h c⟩)
    (Cert.KernelIdeal.Hand.run_main (F := Ideal) m g (Cert.KernelIdeal.Hand.body_obligation m))
  refine ((h c).2 Cert.KernelIdeal.main_v10 (Pipeline.mem_restRefs_of Cert.KernelIdeal.main_v10 rfl (by decide))).trans ?_
  refine (Cert.KernelIdeal.Hand.tail_v10 m c).trans ?_
  refine (Cert.KernelIdeal.Hand.tailFn_congr _ _ _
    (fun r => Cert.Spec.pos (Cert.KernelIdeal.HandValue.X m c) (Cert.KernelIdeal.HandValue.L m c) (r 0))
    (fun r => Cert.Spec.neg (Cert.KernelIdeal.HandValue.X m c) (Cert.KernelIdeal.HandValue.L m c) (r 0))
    (fun r => Cert.KernelIdeal.HandValue.final_pos_row m c (Cert.KernelIdeal.HandValue.acc_pos m c) (r 0))
    (fun r => Cert.KernelIdeal.HandValue.final_neg_row m c (Cert.KernelIdeal.HandValue.acc_neg m c) (r 0))).trans ?_
  unfold result Cert.ReferenceIdeal.RefValue.refTail
  rfl

/-- From memories that agree on the arguments both idealized programs end at the common result. -/
theorem algebraic : Cert.algebraic_KernelIdeal_ReferenceIdeal :=
  fun m g m' g' _ hagree => ⟨result m, kernel_half m g, ref_half m m' g' hagree⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
